-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S320000 : Shape := ⟨1, ![320000]⟩
abbrev S128x128 : Shape := ⟨2, ![128, 128]⟩
abbrev S128x256 : Shape := ⟨2, ![128, 256]⟩
abbrev S256x20 : Shape := ⟨2, ![256, 20]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000 : S_.BroadcastsInDim S320000 (![] : Fin 0 → Fin S320000.rank)
  reducesTo_S320000_S_d0 : S320000.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256x20 : S_.BroadcastsInDim S256x20 (![] : Fin 0 → Fin S256x20.rank)
  reducesTo_S256x20_S_d0_1 : S256x20.ReducesTo [0, 1] S_

variable [Facts]

def fn_part1 {F : FTy → Type} [FloatOps F] (main_arg5 : FVec F S256x20 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x20 .f32 := Host.absf main_arg5
  let main_cst_6 : FVec F S_ .f32 := constant S_ .f32 0x7F800000#32
  let main_v20 : FVec F S256x20 .f32 := broadcastInDim S256x20 ![] bcast_S_S256x20 main_cst_6
  let main_v21 : IVec S256x20 1 := cmpf .olt main_v19 main_v20
  let main_c_7 : IVec S_ 1 := constantI S_ 1 1#1
  let main_v22 : IVec S_ 1 := (fun x v => Host.reduce IntOp.andi x v reducesTo_S256x20_S_d0_1 h_S_) main_v21 main_c_7
  let main_v23 : IVec S_ 1 := andi main_v18 main_v22
  main_v23

def fn {F : FTy → Type} [FloatOps F] (main_arg0 : FVec F S10000x128 .f32) (main_arg1 : IVec S2x320000 32) (main_arg2 : FVec F S320000 .f32) (main_arg3 : FVec F S128x128 .f32) (main_arg4 : FVec F S128x256 .f32) (main_arg5 : FVec F S256x20 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_v13 main_v16
-- ==== Kernel.lean ====
abbrev S10000x128 : Shape := ⟨2, ![10000, 128]⟩
abbrev S2x320000 : Shape := ⟨2, ![2, 320000]⟩
abbrev S320000 : Shape := ⟨1, ![320000]⟩
abbrev S128x128 : Shape := ⟨2, ![128, 128]⟩
abbrev S128x256 : Shape := ⟨2, ![128, 256]⟩
abbrev S256x20 : Shape := ⟨2, ![256, 20]⟩
abbrev S2000x128 : Shape := ⟨2, ![2000, 128]⟩
abbrev S1x320000 : Shape := ⟨2, ![1, 320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S10000x256 : Shape := ⟨2, ![10000, 256]⟩
abbrev S2000x256 : Shape := ⟨2, ![2000, 256]⟩
abbrev S320000x256 : Shape := ⟨2, ![320000, 256]⟩
abbrev S10000x20 : Shape := ⟨2, ![10000, 20]⟩
abbrev S2000x20 : Shape := ⟨2, ![2000, 20]⟩
abbrev S320000x20 : Shape := ⟨2, ![320000, 20]⟩
abbrev S10000x10000 : Shape := ⟨2, ![10000, 10000]⟩
abbrev S1000x20 : Shape := ⟨2, ![1000, 20]⟩
abbrev S2048x20 : Shape := ⟨2, ![2048, 20]⟩
abbrev S1000x2048 : Shape := ⟨2, ![1000, 2048]⟩

abbrev nBuf : Space → Nat
  | .hbm => 112
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x128, .f32⟩
  | .hbm, ⟨4, _⟩ => ⟨S128x256, .f32⟩
  | .hbm, ⟨5, _⟩ => ⟨S256x20, .f32⟩
  | .hbm, ⟨6, _⟩ => ⟨S10000x128, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S1, .i32⟩
  | .hbm, ⟨20, _⟩ => ⟨S_, .i32⟩
  | .hbm, ⟨21, _⟩ => ⟨S320000x1, .i32⟩
  | .hbm, ⟨22, _⟩ => ⟨S320000x1, .i1⟩
  | .hbm, ⟨23, _⟩ => ⟨S1x1, .i32⟩
  | .hbm, ⟨24, _⟩ => ⟨S320000x1, .i32⟩
  | .hbm, ⟨25, _⟩ => ⟨S320000x1, .i1⟩
  | .hbm, ⟨26, _⟩ => ⟨S320000x1, .i1⟩
  | .hbm, ⟨27, _⟩ => ⟨S_, .i1⟩
  | .hbm, ⟨28, _⟩ => ⟨S320000, .i1⟩
  | .hbm, ⟨29, _⟩ => ⟨S320000x128, .f32⟩
  | .hbm, ⟨30, _⟩ => ⟨S320000x128, .i1⟩
  | .hbm, ⟨31, _⟩ => ⟨S_, .f32⟩
  | .hbm, ⟨32, _⟩ => ⟨S320000x128, .f32⟩
  | .hbm, ⟨33, _⟩ => ⟨S320000x128, .f32⟩
  | .hbm, ⟨34, _⟩ => ⟨S320000x1, .f32⟩
  | .hbm, ⟨35, _⟩ => ⟨S320000x128, .f32⟩
  | .hbm, ⟨36, _⟩ => ⟨S320000x128, .f32⟩
  | .hbm, ⟨37, _⟩ => ⟨S_, .f32⟩
  | .hbm, ⟨38, _⟩ => ⟨S10000x128, .f32⟩
  | .hbm, ⟨39, _⟩ => ⟨S320000x1, .i32⟩
  | .hbm, ⟨40, _⟩ => ⟨S10000x128, .f32⟩
  | .hbm, ⟨41, _⟩ => ⟨S10000x256, .f32⟩
  | .hbm, ⟨42, _⟩ => ⟨S1x320000, .i32⟩
  | .hbm, ⟨43, _⟩ => ⟨S320000, .i32⟩
  | .hbm, ⟨44, _⟩ => ⟨S1x320000, .i32⟩
  | .hbm, ⟨45, _⟩ => ⟨S320000, .i32⟩
  | .hbm, ⟨46, _⟩ => ⟨S_, .i32⟩
  | .hbm, ⟨47, _⟩ => ⟨S320000, .i32⟩
  | .hbm, ⟨48, _⟩ => ⟨S320000, .i1⟩
  | .hbm, ⟨49, _⟩ => ⟨S_, .i32⟩
  | .hbm, ⟨50, _⟩ => ⟨S320000, .i32⟩
  | .hbm, ⟨51, _⟩ => ⟨S320000, .i32⟩
  | .hbm, ⟨52, _⟩ => ⟨S320000, .i32⟩
  | .hbm, ⟨53, _⟩ => ⟨S320000x1, .i32⟩
  | .hbm, ⟨54, _⟩ => ⟨S1, .i32⟩
  | .hbm, ⟨55, _⟩ => ⟨S_, .i32⟩
  | .hbm, ⟨56, _⟩ => ⟨S320000x1, .i32⟩
  | .hbm, ⟨57, _⟩ => ⟨S320000x1, .i1⟩
  | .hbm, ⟨58, _⟩ => ⟨S1x1, .i32⟩
  | .hbm, ⟨59, _⟩ => ⟨S320000x1, .i32⟩
  | .hbm, ⟨60, _⟩ => ⟨S320000x1, .i1⟩
  | .hbm, ⟨61, _⟩ => ⟨S320000x1, .i1⟩
  | .hbm, ⟨62, _⟩ => ⟨S_, .i1⟩
  | .hbm, ⟨63, _⟩ => ⟨S320000, .i1⟩
  | .hbm, ⟨64, _⟩ => ⟨S320000x256, .f32⟩
  | .hbm, ⟨65, _⟩ => ⟨S320000x256, .i1⟩
  | .hbm, ⟨66, _⟩ => ⟨S_, .f32⟩
  | .hbm, ⟨67, _⟩ => ⟨S320000x256, .f32⟩
  | .hbm, ⟨68, _⟩ => ⟨S320000x256, .f32⟩
  | .hbm, ⟨69, _⟩ => ⟨S320000x1, .f32⟩
  | .hbm, ⟨70, _⟩ => ⟨S320000x256, .f32⟩
  | .hbm, ⟨71, _⟩ => ⟨S320000x256, .f32⟩
  | .hbm, ⟨72, _⟩ => ⟨S_, .f32⟩
  | .hbm, ⟨73, _⟩ => ⟨S10000x256, .f32⟩
  | .hbm, ⟨74, _⟩ => ⟨S320000x1, .i32⟩
  | .hbm, ⟨75, _⟩ => ⟨S10000x256, .f32⟩
  | .hbm, ⟨76, _⟩ => ⟨S10000x20, .f32⟩
  | .hbm, ⟨77, _⟩ => ⟨S1x320000, .i32⟩
  | .hbm, ⟨78, _⟩ => ⟨S320000, .i32⟩
  | .hbm, ⟨79, _⟩ => ⟨S1x320000, .i32⟩
  | .hbm, ⟨80, _⟩ => ⟨S320000, .i32⟩
  | .hbm, ⟨81, _⟩ => ⟨S_, .i32⟩
  | .hbm, ⟨82, _⟩ => ⟨S320000, .i32⟩
  | .hbm, ⟨83, _⟩ => ⟨S320000, .i1⟩
  | .hbm, ⟨84, _⟩ => ⟨S_, .i32⟩
  | .hbm, ⟨85, _⟩ => ⟨S320000, .i32⟩
  | .hbm, ⟨86, _⟩ => ⟨S320000, .i32⟩
  | .hbm, ⟨87, _⟩ => ⟨S320000, .i32⟩
  | .hbm, ⟨88, _⟩ => ⟨S320000x1, .i32⟩
  | .hbm, ⟨89, _⟩ => ⟨S1, .i32⟩
  | .hbm, ⟨90, _⟩ => ⟨S_, .i32⟩
  | .hbm, ⟨91, _⟩ => ⟨S320000x1, .i32⟩
  | .hbm, ⟨92, _⟩ => ⟨S320000x1, .i1⟩
  | .hbm, ⟨93, _⟩ => ⟨S1x1, .i32⟩
  | .hbm, ⟨94, _⟩ => ⟨S320000x1, .i32⟩
  | .hbm, ⟨95, _⟩ => ⟨S320000x1, .i1⟩
  | .hbm, ⟨96, _⟩ => ⟨S320000x1, .i1⟩
  | .hbm, ⟨97, _⟩ => ⟨S_, .i1⟩
  | .hbm, ⟨98, _⟩ => ⟨S320000, .i1⟩
  | .hbm, ⟨99, _⟩ => ⟨S320000x20, .f32⟩
  | .hbm, ⟨100, _⟩ => ⟨S320000x20, .i1⟩
  | .hbm, ⟨101, _⟩ => ⟨S_, .f32⟩
  | .hbm, ⟨102, _⟩ => ⟨S320000x20, .f32⟩
  | .hbm, ⟨103, _⟩ => ⟨S320000x20, .f32⟩
  | .hbm, ⟨104, _⟩ => ⟨S320000x1, .f32⟩
  | .hbm, ⟨105, _⟩ => ⟨S320000x20, .f32⟩
  | .hbm, ⟨106, _⟩ => ⟨S320000x20, .f32⟩
  | .hbm, ⟨107, _⟩ => ⟨S_, .f32⟩
  | .hbm, ⟨108, _⟩ => ⟨S10000x20, .f32⟩
  | .hbm, ⟨109, _⟩ => ⟨S320000x1, .i32⟩
  | .hbm, ⟨110, _⟩ => ⟨S10000x20, .f32⟩
  | .hbm, ⟨111, _⟩ => ⟨S10000x10000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x20, .f32⟩
  | .local _ .vmem, ⟨13, _⟩ => ⟨S2000x20, .f32⟩
  | .local _ .vmem, ⟨14, _⟩ => ⟨S2000x20, .f32⟩
  | .local _ .vmem, ⟨15, _⟩ => ⟨S1000x20, .f32⟩
  | .local _ .vmem, ⟨16, _⟩ => ⟨S1000x20, .f32⟩
  | .local _ .vmem, ⟨17, _⟩ => ⟨S2048x20, .f32⟩
  | .local _ .vmem, ⟨18, _⟩ => ⟨S2048x20, .f32⟩
  | .local _ .vmem, ⟨19, _⟩ => ⟨S1000x2048, .f32⟩
  | .local _ .vmem, ⟨20, _⟩ => ⟨S1000x2048, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_0 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_cst_1 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x20 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x20 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![10, 5], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1000x20 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x20 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1000x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S320000_S320000x256_0 : S320000.BroadcastsInDim S320000x256 (![0] : Fin 1 → Fin S320000x256.rank)
  bcast_S_S320000x256 : S_.BroadcastsInDim S320000x256 (![] : Fin 0 → Fin S320000x256.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  shapeCasts_S2000x256_S2000x256 : S2000x256.ShapeCasts S2000x256
  inb_S256x20_S256x20_0_0 : ∀ a, (![0, 0] : Fin 2 → Nat) a + S256x20.size a ≤ S256x20.size a
  h_S256x20 : 0 < S256x20.numel
  inb_S2000x20_S2000x20_0_0 : ∀ a, (![0, 0] : Fin 2 → Nat) a + S2000x20.size a ≤ S2000x20.size a
  h_S2000x20 : 0 < S2000x20.numel
  bcast_S320000_S320000x20_0 : S320000.BroadcastsInDim S320000x20 (![0] : Fin 1 → Fin S320000x20.rank)
  bcast_S_S320000x20 : S_.BroadcastsInDim S320000x20 (![] : Fin 0 → Fin S320000x20.rank)
  bcast_S320000x1_S320000x20_0_1 : S320000x1.BroadcastsInDim S320000x20 (![0, 1] : Fin 2 → Fin S320000x20.rank)
  bcast_S_S10000x20 : S_.BroadcastsInDim S10000x20 (![] : Fin 0 → Fin S10000x20.rank)
  inb_S1000x20_S1000x20_0_0 : ∀ a, (![0, 0] : Fin 2 → Nat) a + S1000x20.size a ≤ S1000x20.size a
  h_S1000x20 : 0 < S1000x20.numel
  shapeCasts_S1000x20_S1000x20 : S1000x20.ShapeCasts S1000x20
  inb_S2048x20_S2048x20_0_0 : ∀ a, (![0, 0] : Fin 2 → Nat) a + S2048x20.size a ≤ S2048x20.size a
  h_S2048x20 : 0 < S2048x20.numel
  shapeCasts_S2048x20_S2048x20 : S2048x20.ShapeCasts S2048x20
  inb_S1000x2048_S1000x2048_0_0 : ∀ a, (![0, 0] : Fin 2 → Nat) a + S1000x2048.size a ≤ S1000x2048.size a
  h_S1000x2048 : 0 < S1000x2048.numel
  dot_S2000x128_S128x128_S2000x128_1_0_0_1_n_n_wf : DotDims.WF S2000x128 S128x128 S2000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S2000x128_S128x256_S2000x256_1_0_0_1_n_n_wf : DotDims.WF S2000x128 S128x256 S2000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S2000x256_S256x20_S2000x20_1_0_0_1_n_n_wf : DotDims.WF S2000x256 S256x20 S2000x20 [1] [0] [0] [1] [] []
  gather_S10000x20_S320000x1_S320000x20_1_0_n_n_0_1_120_wf : GatherDims.WF S10000x20 S320000x1 S320000x20 [1] [0] [] [0] [] 1 ![1, 20]
  scatter_S10000x20_S320000x1_S320000x20_1_0_0_1_wf : ScatterDims.WF S10000x20 S320000x1 S320000x20 [1] [0] [0] 1
  dot_S1000x20_S2048x20_S1000x2048_1_1_0_0_n_n_wf : DotDims.WF S1000x20 S2048x20 S1000x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S10000x256.size a
  hwx1_2 : ∀ i : grid1.Coords, EltTy.bits .f32 = 32 ∨ (Rect.block (s := S10000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x20.size a ≤ S256x20.size a
  hwx2_1 : ∀ i : grid2.Coords, EltTy.bits .f32 = 32 ∨ (Rect.block (s := S256x20) S256x20.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x20.size a ≤ S10000x20.size a
  hwx2_2 : ∀ i : grid2.Coords, EltTy.bits .f32 = 32 ∨ (Rect.block (s := S10000x20) S2000x20.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x20.size a ≤ S10000x20.size a
  hwx3_0 : ∀ i : grid3.Coords, EltTy.bits .f32 = 32 ∨ (Rect.block (s := S10000x20) S1000x20.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S2048x20.size a < S10000x20.size a
  hwx3_1 : ∀ i : grid3.Coords, EltTy.bits .f32 = 32 ∨ (Rect.unit (s := S10000x20) (fun a => cc3_transform_1 i a * S2048x20.size a) (fun a => (Pipeline.Clip.of (cc3_transform_1 i a) (S2048x20.size a) (S10000x20.size a)).extent (S2048x20.size a)) fun a => Pipeline.Clip.inb (Pipeline.Clip.ok_of (hstart3_1 i a))).WholeWords (EltTy.packing .f32)
  hwxs3_1 : ∀ i : grid3.Coords, EltTy.bits .f32 = 32 ∨ (Rect.unit (s := S2048x20) (fun _ => 0) (fun a => (Pipeline.Clip.of (cc3_transform_1 i a) (S2048x20.size a) (S10000x20.size a)).extent (S2048x20.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1000x2048.size a < S10000x10000.size a
  hwx3_2 : ∀ i : grid3.Coords, EltTy.bits .f32 = 32 ∨ (Rect.unit (s := S10000x10000) (fun a => cc3_transform_2 i a * S1000x2048.size a) (fun a => (Pipeline.Clip.of (cc3_transform_2 i a) (S1000x2048.size a) (S10000x10000.size a)).extent (S1000x2048.size a)) fun a => Pipeline.Clip.inb (Pipeline.Clip.ok_of (hstart3_2 i a))).WholeWords (EltTy.packing .f32)
  hwxs3_2 : ∀ i : grid3.Coords, EltTy.bits .f32 = 32 ∨ (Rect.unit (s := S1000x2048) (fun _ => 0) (fun a => (Pipeline.Clip.of (cc3_transform_2 i a) (S1000x2048.size a) (S10000x10000.size a)).extent (S1000x2048.size a)) fun a => (Nat.zero_add _).trans_le (Pipeline.Clip.extent_le (Pipeline.Clip.ok_of (hstart3_2 i a)))).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S2000x256_S256x20_S2000x20_1_0_0_1_n_n : DotDims S2000x256 S256x20 S2000x20 where
  lhsContracting := [1]
  rhsContracting := [0]
  lhsNonContracting := [0]
  rhsNonContracting := [1]
  lhsBatch := []
  rhsBatch := []
  wf := dot_S2000x256_S256x20_S2000x20_1_0_0_1_n_n_wf
def gather_S10000x20_S320000x1_S320000x20_1_0_n_n_0_1_120 : GatherDims S10000x20 S320000x1 S320000x20 where
  offsetDims := [1]
  collapsedSliceDims := [0]
  operandBatchingDims := []
  startIndicesBatchingDims := []
  startIndexMap := [0]
  indexVectorDim := 1
  sliceSizes := ![1, 20]
  wf := gather_S10000x20_S320000x1_S320000x20_1_0_n_n_0_1_120_wf
def scatter_S10000x20_S320000x1_S320000x20_1_0_0_1 : ScatterDims S10000x20 S320000x1 S320000x20 where
  updateWindowDims := [1]
  insertedWindowDims := [0]
  scatterDimsToOperandDims := [0]
  indexVectorDim := 1
  wf := scatter_S10000x20_S320000x1_S320000x20_1_0_0_1_wf
def dot_S1000x20_S2048x20_S1000x2048_1_1_0_0_n_n : DotDims S1000x20 S2048x20 S1000x2048 where
  lhsContracting := [1]
  rhsContracting := [1]
  lhsNonContracting := [0]
  rhsNonContracting := [0]
  lhsBatch := []
  rhsBatch := []
  wf := dot_S1000x20_S2048x20_S1000x2048_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v23) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x20.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x20.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S1000x20.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpecClip (Memref.whole main_v35) S2048x20.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v36) S1000x2048.size cc3_transform_2 reads3_2 true false 2 stage3_2 sem3_2
    hrank3 hreads3_2 hstart3_2 nbuf3_2 (Memref.isWhole_whole _) hwx3_2 hwxs3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S320000 : Shape := ⟨1, ![320000]⟩
abbrev S128x128 : Shape := ⟨2, ![128, 128]⟩
abbrev S128x256 : Shape := ⟨2, ![128, 256]⟩
abbrev S256x20 : Shape := ⟨2, ![256, 20]⟩
abbrev S_ : Shape := ⟨0, ![]⟩
abbrev S1x320000 : Shape := ⟨2, ![1, 320000]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S10000x256 : Shape := ⟨2, ![10000, 256]⟩
abbrev S320000x256 : Shape := ⟨2, ![320000, 256]⟩
abbrev S10000x20 : Shape := ⟨2, ![10000, 20]⟩
abbrev S320000x20 : Shape := ⟨2, ![320000, 20]⟩
abbrev S20x10000 : Shape := ⟨2, ![20, 10000]⟩
abbrev S10000x10000 : Shape := ⟨2, ![10000, 10000]⟩

abbrev nBuf : Space → Nat
  | .hbm => 137
  | .vmem => 0
  | .smem => 0
  | _ => 0

abbrev hbmTy0_0 (i : Nat) : BufTy := match i % 128 with
  | 0 => ⟨S10000x128, .f32⟩
  | 1 => ⟨S2x320000, .i32⟩
  | 2 => ⟨S320000, .f32⟩
  | 3 => ⟨S128x128, .f32⟩
  | 4 => ⟨S128x256, .f32⟩
  | 5 => ⟨S256x20, .f32⟩
  | 6 => ⟨S10000x128, .f32⟩
  | 7 => ⟨S_, .f32⟩
  | 8 => ⟨S_, .f32⟩
  | 9 => ⟨S10000x128, .f32⟩
  | 10 => ⟨S10000x128, .i1⟩
  | 11 => ⟨S_, .f32⟩
  | 12 => ⟨S10000x128, .f32⟩
  | 13 => ⟨S10000x128, .f32⟩
  | 14 => ⟨S10000x128, .f32⟩
  | 15 => ⟨S1x320000, .i32⟩
  | 16 => ⟨S320000, .i32⟩
  | 17 => ⟨S1x320000, .i32⟩
  | 18 => ⟨S320000, .i32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S1, .i32⟩
  | 28 => ⟨S_, .i32⟩
  | 29 => ⟨S320000x1, .i32⟩
  | 30 => ⟨S320000x1, .i1⟩
  | 31 => ⟨S1x1, .i32⟩
  | 32 => ⟨S320000x1, .i32⟩
  | 33 => ⟨S320000x1, .i1⟩
  | 34 => ⟨S320000x1, .i1⟩
  | 35 => ⟨S_, .i1⟩
  | 36 => ⟨S320000, .i1⟩
  | 37 => ⟨S320000x128, .f32⟩
  | 38 => ⟨S320000x128, .i1⟩
  | 39 => ⟨S_, .f32⟩
  | 40 => ⟨S320000x128, .f32⟩
  | 41 => ⟨S320000x128, .f32⟩
  | 42 => ⟨S320000x1, .f32⟩
  | 43 => ⟨S320000x128, .f32⟩
  | 44 => ⟨S320000x128, .f32⟩
  | 45 => ⟨S_, .f32⟩
  | 46 => ⟨S10000x128, .f32⟩
  | 47 => ⟨S320000x1, .i32⟩
  | 48 => ⟨S10000x128, .f32⟩
  | 49 => ⟨S10000x256, .f32⟩
  | 50 => ⟨S_, .f32⟩
  | 51 => ⟨S_, .f32⟩
  | 52 => ⟨S10000x256, .f32⟩
  | 53 => ⟨S10000x256, .i1⟩
  | 54 => ⟨S_, .f32⟩
  | 55 => ⟨S10000x256, .f32⟩
  | 56 => ⟨S10000x256, .f32⟩
  | 57 => ⟨S10000x256, .f32⟩
  | 58 => ⟨S1x320000, .i32⟩
  | 59 => ⟨S320000, .i32⟩
  | 60 => ⟨S1x320000, .i32⟩
  | 61 => ⟨S320000, .i32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S1, .i32⟩
  | 71 => ⟨S_, .i32⟩
  | 72 => ⟨S320000x1, .i32⟩
  | 73 => ⟨S320000x1, .i1⟩
  | 74 => ⟨S1x1, .i32⟩
  | 75 => ⟨S320000x1, .i32⟩
  | 76 => ⟨S320000x1, .i1⟩
  | 77 => ⟨S320000x1, .i1⟩
  | 78 => ⟨S_, .i1⟩
  | 79 => ⟨S320000, .i1⟩
  | 80 => ⟨S320000x256, .f32⟩
  | 81 => ⟨S320000x256, .i1⟩
  | 82 => ⟨S_, .f32⟩
  | 83 => ⟨S320000x256, .f32⟩
  | 84 => ⟨S320000x256, .f32⟩
  | 85 => ⟨S320000x1, .f32⟩
  | 86 => ⟨S320000x256, .f32⟩
  | 87 => ⟨S320000x256, .f32⟩
  | 88 => ⟨S_, .f32⟩
  | 89 => ⟨S10000x256, .f32⟩
  | 90 => ⟨S320000x1, .i32⟩
  | 91 => ⟨S10000x256, .f32⟩
  | 92 => ⟨S10000x20, .f32⟩
  | 93 => ⟨S1x320000, .i32⟩
  | 94 => ⟨S320000, .i32⟩
  | 95 => ⟨S1x320000, .i32⟩
  | 96 => ⟨S320000, .i32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S1, .i32⟩
  | 106 => ⟨S_, .i32⟩
  | 107 => ⟨S320000x1, .i32⟩
  | 108 => ⟨S320000x1, .i1⟩
  | 109 => ⟨S1x1, .i32⟩
  | 110 => ⟨S320000x1, .i32⟩
  | 111 => ⟨S320000x1, .i1⟩
  | 112 => ⟨S320000x1, .i1⟩
  | 113 => ⟨S_, .i1⟩
  | 114 => ⟨S320000, .i1⟩
  | 115 => ⟨S320000x20, .f32⟩
  | 116 => ⟨S320000x20, .i1⟩
  | 117 => ⟨S_, .f32⟩
  | 118 => ⟨S320000x20, .f32⟩
  | 119 => ⟨S320000x20, .f32⟩
  | 120 => ⟨S320000x1, .f32⟩
  | 121 => ⟨S320000x20, .f32⟩
  | 122 => ⟨S320000x20, .f32⟩
  | 123 => ⟨S_, .f32⟩
  | 124 => ⟨S10000x20, .f32⟩
  | 125 => ⟨S320000x1, .i32⟩
  | 126 => ⟨S10000x20, .f32⟩
  | 127 => ⟨S20x10000, .f32⟩
  | _ => ⟨S10000x128, .f32⟩

abbrev hbmTy0_1 (i : Nat) : BufTy := match i % 128 with
  | 0 => ⟨S10000x10000, .f32⟩
  | 1 => ⟨S10000x10000, .f32⟩
  | 2 => ⟨S10000x10000, .f32⟩
  | 3 => ⟨S_, .f32⟩
  | 4 => ⟨S10000x10000, .f32⟩
  | 5 => ⟨S10000x10000, .f32⟩
  | 6 => ⟨S_, .f32⟩
  | 7 => ⟨S10000x10000, .f32⟩
  | 8 => ⟨S10000x10000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_0 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_1 : Ref sig .tc := ⟨.hbm, 50, rfl⟩
abbrev main_call2_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_call3_cst : Ref sig .tc := ⟨.hbm, 82, rfl⟩
abbrev main_call3_v15 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_cst_2 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_call4_c : Ref sig .tc := ⟨.hbm, 97, rfl⟩
abbrev main_call4_v0 : Ref sig .tc := ⟨.hbm, 98, rfl⟩
abbrev main_call4_v1 : Ref sig .tc := ⟨.hbm, 99, rfl⟩
abbrev main_call4_c_0 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_c_1 : Ref sig .tc := ⟨.hbm, 105, rfl⟩
abbrev main_call4_c_2 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_call4_c_3 : Ref sig .tc := ⟨.hbm, 113, rfl⟩
abbrev main_call4_v12 : Ref sig .tc := ⟨.hbm, 114, rfl⟩
abbrev main_call4_v13 : Ref sig .tc := ⟨.hbm, 115, rfl⟩
abbrev main_call4_v14 : Ref sig .tc := ⟨.hbm, 116, rfl⟩
abbrev main_call4_cst : Ref sig .tc := ⟨.hbm, 117, rfl⟩
abbrev main_call4_v15 : Ref sig .tc := ⟨.hbm, 118, rfl⟩
abbrev main_v31 : Ref sig .tc := ⟨.hbm, 119, rfl⟩
abbrev main_v32 : Ref sig .tc := ⟨.hbm, 120, rfl⟩
abbrev main_v33 : Ref sig .tc := ⟨.hbm, 121, rfl⟩
abbrev main_v34 : Ref sig .tc := ⟨.hbm, 122, rfl⟩
abbrev main_cst_3 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_cst_4 : Ref sig .tc := ⟨.hbm, 131, rfl⟩
abbrev main_v42 : Ref sig .tc := ⟨.hbm, 132, rfl⟩
abbrev main_v43 : Ref sig .tc := ⟨.hbm, 133, rfl⟩
abbrev main_cst_5 : Ref sig .tc := ⟨.hbm, 134, rfl⟩
abbrev main_v44 : Ref sig .tc := ⟨.hbm, 135, rfl⟩
abbrev main_v45 : Ref sig .tc := ⟨.hbm, 136, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S320000x1_S320000x128_0_1 : S320000x1.BroadcastsInDim S320000x128 (![0, 1] : Fin 2 → Fin S320000x128.rank)
  bcast_S_S10000x256 : S_.BroadcastsInDim S10000x256 (![] : Fin 0 → Fin S10000x256.rank)
  bcast_S320000_S320000x256_0 : S320000.BroadcastsInDim S320000x256 (![0] : Fin 1 → Fin S320000x256.rank)
  bcast_S_S320000x256 : S_.BroadcastsInDim S320000x256 (![] : Fin 0 → Fin S320000x256.rank)
  bcast_S320000x1_S320000x256_0_1 : S320000x1.BroadcastsInDim S320000x256 (![0, 1] : Fin 2 → Fin S320000x256.rank)
  bcast_S320000_S320000x20_0 : S320000.BroadcastsInDim S320000x20 (![0] : Fin 1 → Fin S320000x20.rank)
  bcast_S_S320000x20 : S_.BroadcastsInDim S320000x20 (![] : Fin 0 → Fin S320000x20.rank)
  bcast_S320000x1_S320000x20_0_1 : S320000x1.BroadcastsInDim S320000x20 (![0, 1] : Fin 2 → Fin S320000x20.rank)
  bcast_S_S10000x20 : S_.BroadcastsInDim S10000x20 (![] : Fin 0 → Fin S10000x20.rank)
  transposes_S10000x20_S20x10000_1_0 : S10000x20.Transposes [1, 0] S20x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x256_S10000x256_1_0_0_1_n_n_wf : DotDims.WF S10000x128 S128x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x20_S10000x20_1_0_0_1_n_n_wf : DotDims.WF S10000x256 S256x20 S10000x20 [1] [0] [0] [1] [] []
  gather_S10000x20_S320000x1_S320000x20_1_0_n_n_0_1_120_wf : GatherDims.WF S10000x20 S320000x1 S320000x20 [1] [0] [] [0] [] 1 ![1, 20]
  scatter_S10000x20_S320000x1_S320000x20_1_0_0_1_wf : ScatterDims.WF S10000x20 S320000x1 S320000x20 [1] [0] [0] 1
  dot_S10000x20_S20x10000_S10000x10000_1_0_0_1_n_n_wf : DotDims.WF S10000x20 S20x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x20_S10000x20_1_0_0_1_n_n : DotDims S10000x256 S256x20 S10000x20 where
  lhsContracting := [1]
  rhsContracting := [0]
  lhsNonContracting := [0]
  rhsNonContracting := [1]
  lhsBatch := []
  rhsBatch := []
  wf := dot_S10000x256_S256x20_S10000x20_1_0_0_1_n_n_wf
def gather_S10000x20_S320000x1_S320000x20_1_0_n_n_0_1_120 : GatherDims S10000x20 S320000x1 S320000x20 where
  offsetDims := [1]
  collapsedSliceDims := [0]
  operandBatchingDims := []
  startIndicesBatchingDims := []
  startIndexMap := [0]
  indexVectorDim := 1
  sliceSizes := ![1, 20]
  wf := gather_S10000x20_S320000x1_S320000x20_1_0_n_n_0_1_120_wf
def scatter_S10000x20_S320000x1_S320000x20_1_0_0_1 : ScatterDims S10000x20 S320000x1 S320000x20 where
  updateWindowDims := [1]
  insertedWindowDims := [0]
  scatterDimsToOperandDims := [0]
  indexVectorDim := 1
  wf := scatter_S10000x20_S320000x1_S320000x20_1_0_0_1_wf
def dot_S10000x20_S20x10000_S10000x10000_1_0_0_1_n_n : DotDims S10000x20 S20x10000 S10000x10000 where
  lhsContracting := [1]
  rhsContracting := [0]
  lhsNonContracting := [0]
  rhsNonContracting := [1]
  lhsBatch := []
  rhsBatch := []
  wf := dot_S10000x20_S20x10000_S10000x10000_1_0_0_1_n_n_wf

class Facts : Prop extends Facts₀ where

variable [Facts]
-- ==== Proof.BitsRegA.lean ====
import proofs.«103742_g75840532512942_cont_9to1_m_1342_3_alg».proof.Proof.Gen.Kernel.Launch
import proofs.«103742_g75840532512942_cont_9to1_m_1342_3_alg».proof.Proof.Gen.Kernel.Skeleton
import proofs.«103742_g75840532512942_cont_9to1_m_1342_3_alg».proof.Proof.Gen.Kernel.Points
import Idealize.ShloMosaic.Lib.Pipeline.FrameBody
import Idealize.ShloMosaic.Lib.Tactic

/-!
# The three dense layers of the encoder, each as one pipelined region

Each of the first three launches computes one dense layer `act (x · W)` of the encoder, five row blocks of 2000
rows at a time: the activations' block changes with the grid point, the weight matrix is one block that is the
same at every point, and the result block is written whole by a single store.  For each launch this file states,
at arbitrary contents `V` of the core's buffers on entry to the region,

* what each window's block is at each grid point (a rectangle of its array read off `V`);
* what the body leaves in the result's staging buffer: the layer's arithmetic applied to the two input blocks;
* that the body, run on staging buffers holding those blocks, ends with the inputs untouched and the result
  buffer holding exactly that value, whatever the result buffer held before (the body reads it once and ignores
  what it read);
* and hence the obligation the pipeline asks of a body at every grid point.

The weights are brought in only at the first point; at the later points the buffer still holds them because the
body does not write it and the block index never moves.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when a region is entered: every statement below is at an arbitrary such `V`
variable (V : (c : Dev nD) → (b : Ref sig .tc) → Buf (Elt F) ((c : Thread nD τ).loc b))

/-! # Launch 0: the first layer, leaky-rectified: rows of 128 features to rows of 128 -/

/-- Window `w`'s block at grid point `t`: the rectangle of its array that the point's index selects, read off the
    entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block whenever the body is called, for any proof data
    over the entry contents whose body leaves that block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the weight matrix at every point, although it is filled at the first point
    only: its block index is the same everywhere and the body never writes it, so what was brought in stays. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole of an activations block, of the weight matrix and of a result block, as rectangles: the body reads
    and writes nothing smaller. -/
abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_y : Rect S2000x128 := Rect.unit (s := S2000x128) ![0, 0] S2000x128.size inb_S2000x128_S2000x128_0_0

/-- What the body leaves in the result's staging buffer, from the two input blocks: one store over the whole block,
    of the layer's arithmetic applied to the blocks as loaded. -/
def out0_2 (x0 : Vec F S2000x128 .f32) (x1 : Vec F S128x128 .f32) : Vec F S2000x128 .f32 :=
  View.canon [⟨r0_y, k0_pay1 (View.ld x0 r0_x) (View.ld x1 r0_w)⟩]

/-- The single store covers the result block. -/
theorem storeCover0_2 (p0 : Vec F S2000x128 .f32) (y : S2000x128.Idx) :
    ∃ pc ∈ ([⟨r0_y, p0⟩] : List (View.Piece (Elt F) S2000x128 .f32)), y ∈ pc.1.set :=
  View.cover_of_tiled [⟨r0_y, p0⟩] S2000x128.size (by rfl) y

set_option maxHeartbeats 1000000 in
/-- The body on whole staging buffers — the inputs' holding `x0`, `x1`, the result's holding anything — runs to
    its continuation with the inputs as they were and the result buffer at `out0_2 x0 x1`: two loads, one load of
    the result buffer whose value is dropped, and one store of the whole block. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_act_body i arg1 harg1 arg2 harg2 arg3 harg3) K := by
  simp only [cc0__linear_act_body_eq_skeleton]; unfold cc0__linear_act_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCover0_2 _)

/-- The region's proof data on core `c`: the arrays as the region finds them; after the body at point `t` the
    two inputs' buffers still at their blocks and the result's at `out0_2` of those blocks; the rest of the core's
    state passes through untouched; nothing is owed; every buffer is held whole. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block whenever the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the rest of the
    core's state and its debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-! # Launch 1: the second layer, leaky-rectified: rows of 128 features to rows of 256 -/

/-- Window `w`'s block at grid point `t`: the rectangle of its array that the point's index selects, read off the
    entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's row block whenever the body is called, for any proof data
    over the entry contents whose body leaves that block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the weight matrix at every point, although it is filled at the first point
    only: its block index is the same everywhere and the body never writes it, so what was brought in stays. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole of an activations block, of the weight matrix and of a result block, as rectangles: the body reads
    and writes nothing smaller. -/
abbrev r1_x : Rect S2000x128 := Rect.unit (s := S2000x128) ![0, 0] S2000x128.size inb_S2000x128_S2000x128_0_0
abbrev r1_w : Rect S128x256 := Rect.unit (s := S128x256) ![0, 0] S128x256.size inb_S128x256_S128x256_0_0
abbrev r1_y : Rect S2000x256 := Rect.unit (s := S2000x256) ![0, 0] S2000x256.size inb_S2000x256_S2000x256_0_0

/-- What the body leaves in the result's staging buffer, from the two input blocks: one store over the whole block,
    of the layer's arithmetic applied to the blocks as loaded. -/
def out1_2 (x0 : Vec F S2000x128 .f32) (x1 : Vec F S128x256 .f32) : Vec F S2000x256 .f32 :=
  View.canon [⟨r1_y, k1_pay1 (View.ld x0 r1_x) (View.ld x1 r1_w)⟩]

/-- The single store covers the result block. -/
theorem storeCover1_2 (p0 : Vec F S2000x256 .f32) (y : S2000x256.Idx) :
    ∃ pc ∈ ([⟨r1_y, p0⟩] : List (View.Piece (Elt F) S2000x256 .f32)), y ∈ pc.1.set :=
  View.cover_of_tiled [⟨r1_y, p0⟩] S2000x256.size (by rfl) y

set_option maxHeartbeats 1000000 in
/-- The body on whole staging buffers — the inputs' holding `x0`, `x1`, the result's holding anything — runs to
    its continuation with the inputs as they were and the result buffer at `out1_2 x0 x1`: two loads, one load of
    the result buffer whose value is dropped, and one store of the whole block. -/
theorem sound_kernel1 (c : Dev nD) (E : Set ℕ) (i : grid1.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_act_body i arg1 harg1 arg2 harg2 arg3 harg3) K := by
  simp only [cc1__linear_act_body_eq_skeleton]; unfold cc1__linear_act_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCover1_2 _)

/-- The region's proof data on core `c`: the arrays as the region finds them; after the body at point `t` the
    two inputs' buffers still at their blocks and the result's at `out1_2` of those blocks; the rest of the core's
    state passes through untouched; nothing is owed; every buffer is held whole. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's staging buffer holds its block whenever the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies; the rest of the
    core's state and its debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-! # Launch 2: the third layer, no activation: rows of 256 features to rows of 20 -/

/-- Window `w`'s block at grid point `t`: the rectangle of its array that the point's index selects, read off the
    entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's row block whenever the body is called, for any proof data
    over the entry contents whose body leaves that block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the weight matrix at every point, although it is filled at the first point
    only: its block index is the same everywhere and the body never writes it, so what was brought in stays. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole of an activations block, of the weight matrix and of a result block, as rectangles: the body reads
    and writes nothing smaller. -/
abbrev r2_x : Rect S2000x256 := Rect.unit (s := S2000x256) ![0, 0] S2000x256.size inb_S2000x256_S2000x256_0_0
abbrev r2_w : Rect S256x20 := Rect.unit (s := S256x20) ![0, 0] S256x20.size inb_S256x20_S256x20_0_0
abbrev r2_y : Rect S2000x20 := Rect.unit (s := S2000x20) ![0, 0] S2000x20.size inb_S2000x20_S2000x20_0_0

/-- What the body leaves in the result's staging buffer, from the two input blocks: one store over the whole block,
    of the layer's arithmetic applied to the blocks as loaded. -/
def out2_2 (x0 : Vec F S2000x256 .f32) (x1 : Vec F S256x20 .f32) : Vec F S2000x20 .f32 :=
  View.canon [⟨r2_y, k2_pay1 (View.ld x0 r2_x) (View.ld x1 r2_w)⟩]

/-- The single store covers the result block. -/
theorem storeCover2_2 (p0 : Vec F S2000x20 .f32) (y : S2000x20.Idx) :
    ∃ pc ∈ ([⟨r2_y, p0⟩] : List (View.Piece (Elt F) S2000x20 .f32)), y ∈ pc.1.set :=
  View.cover_of_tiled [⟨r2_y, p0⟩] S2000x20.size (by rfl) y

set_option maxHeartbeats 1000000 in
/-- The body on whole staging buffers — the inputs' holding `x0`, `x1`, the result's holding anything — runs to
    its continuation with the inputs as they were and the result buffer at `out2_2 x0 x1`: two loads, one load of
    the result buffer whose value is dropped, and one store of the whole block. -/
theorem sound_kernel2 (c : Dev nD) (E : Set ℕ) (i : grid2.Coords) (arg1 : Memref sig .tc .vmem S2000x256 .f32) (harg1 : arg1.IsWhole) (arg2 : Memref sig .tc .vmem S256x20 .f32) (harg2 : arg2.IsWhole) (arg3 : Memref sig .tc .vmem S2000x20 .f32) (harg3 : arg3.IsWhole)
    (x0 : Vec F S2000x256 .f32) (x1 : Vec F S256x20 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_act_body i arg1 harg1 arg2 harg2 arg3 harg3) K := by
  simp only [cc2__linear_act_body_eq_skeleton]; unfold cc2__linear_act_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCover2_2 _)

/-- The region's proof data on core `c`: the arrays as the region finds them; after the body at point `t` the
    two inputs' buffers still at their blocks and the result's at `out2_2` of those blocks; the rest of the core's
    state passes through untouched; nothing is owed; every buffer is held whole. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's staging buffer holds its block whenever the body is called. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the rest of the
    core's state and its debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsReg3.lean ====
/-
  The decoder region — the fourth kernel launch, `sigmoid (z zᵀ)` over a 10 × 5 grid of blocks — read at ANY float
  instance, with what the body leaves in the OUTPUT window's staging buffer not named.

  The region's three windows: window 0 is the row block `i` (1000 rows of 20) of the embedding `z`, window 1 the row
  block `j` (2048 rows of 20) of THE SAME array `z`, window 2 the (1000 × 2048) block `(i, j)` of the result. Since
  5 · 2048 = 10240 > 10000, the last block of window 1 hangs 240 rows over the end of `z` and the last column block of
  window 2 hangs 240 columns over the end of the result: their transfers move only the part inside the array, and
  the fetch of window 1 first overwrites the whole staging buffer with words nothing names.

  The body multiplies the whole (1000 × 20) buffer by the transpose of the whole (2048 × 20) buffer and applies the
  logistic function. At the word level the matrix product is a function of its WHOLE right operand, so at `j = 4` what
  is stored depends on the 240 unnamed rows: no closed form of the output block exists there. The proof data below
  therefore names only what the two input buffers hold — the block of `z` (window 1: on the rows inside the array,
  any words past them) — and the obligation FORGETS window 2: its buffer is taken at any contents and handed back at
  some contents. That is enough for a claim that reads nothing of the result array after the region.

  The array `z` is read through two windows, so the proof data holds it at two disjoint halves of the full share,
  one per window; the result array is held outright.
-/
import proofs.«103742_g75840532512942_cont_9to1_m_1342_3_alg».proof.Proof.Gen.Kernel.Launch
import proofs.«103742_g75840532512942_cont_9to1_m_1342_3_alg».proof.Proof.Gen.Kernel.Skeleton
import proofs.«103742_g75840532512942_cont_9to1_m_1342_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it: the part of the block that lies
    inside the array (all of it, except for the last row block of window 1 and the last column block of window 2). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The proof data -/

/-- The proof data of the decoder's pipeline on core `c`. The arrays as the region finds them. After the body at
    point `(i, j)`: window 0's buffer holds row block `i` of `z`; window 1's holds row block `j` of `z` on the rows inside
    the array (the zero word past them: a filler nothing reads, the window is loose); window 2's contents are not
    named (the zero word stands in; the obligation forgets the window). The two windows on `z` hold it at the two
    halves of the full share, the result array is held outright; nothing is owed. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => win3_1.fill (grid3.coords t) (fun _ => Scalar.ofBits .f32 0#32) (iblk3 V c 1 t)
    | ⟨2, _⟩ => fun _ => Scalar.ofBits .f32 0#32
  Φ _ := Pipeline.ΦA spec3 c
  q w := match w with
    | ⟨0, _⟩ => fullShare.left
    | ⟨1, _⟩ => fullShare.right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves in the two input windows' buffers. -/
theorem after3_0 (c : Dev nD) (t : Fin cfg3.N) : (dat3 V c).after 0 t = iblk3 V c 0 t := by dsimp only [dat3]
theorem after3_1 (c : Dev nD) (t : Fin cfg3.N) :
    (dat3 V c).after 1 t = win3_1.fill (grid3.coords t) (fun _ => Scalar.ofBits .f32 0#32) (iblk3 V c 1 t) := by dsimp only [dat3]

/-- The shares: the two halves of the full share for the two windows on `z`, the full share for the result. -/
theorem q3_0 (c : Dev nD) : (dat3 V c).q 0 = fullShare.left := by dsimp only [dat3]
theorem q3_1 (c : Dev nD) : (dat3 V c).q 1 = fullShare.right := by dsimp only [dat3]
theorem q3_2 (c : Dev nD) : (dat3 V c).q 2 = fullShare := by dsimp only [dat3]

/-! ## What the body finds in the input windows' buffers -/

/-- Window 0 moves only with the row coordinate `i`, so it is fetched at the points `(i, 0)` only; at the other four
    points of the row its buffer still holds row block `i`, which the body does not change. So it holds the block at
    every point. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-- Window 1 moves with the column coordinate `j`, which changes at every step of the row-major walk: it is fetched
    at every point, and its buffer holds row block `j` of `z` on the rows inside the array and, past them, whatever
    the overwrite before the fetch left (`d`). -/
theorem before3_1 (c : Dev nD) (t : Fin cfg3.N) (d) :
    (dat3 V c).before 1 t d = win3_1.fill (grid3.coords t) d (iblk3 V c 1 t) := by
  unfold Dat.before; rw [if_pos (fetch3_1 t)]
  unfold Dat.fetched Dat.blockOf iblk3; rw [A_eq3]; try rfl

/-! ## The body's triple -/

set_option maxHeartbeats 1000000 in
/-- The body on whole staging memrefs, the two inputs' at any read contents and the output's at anything: it loads
    both inputs whole, loads the output (a value nothing uses), and stores the logistic of the product over the whole
    output buffer. It runs to the continuation holding the inputs' buffers as they were and the output's at some
    contents. -/
theorem sound_kernel3 (c : Dev nD) (E : Set ℕ) (i : grid3.Coords)
    (arg2 : Memref sig .tc .vmem S1000x20 .f32) (harg2 : arg2.IsWhole)
    (arg3 : Memref sig .tc .vmem S2048x20 .f32) (harg3 : arg3.IsWhole)
    (arg4 : Memref sig .tc .vmem S1000x2048 .f32) (harg4 : arg4.IsWhole)
    (x0 : Vec F S1000x20 .f32) (x1 : Vec F S2048x20 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
              ∗ (∃ X, owns (c : Thread nD τ) arg4 fullShare X)) -∗ K ⟨⟩))
      ⊢ wp frame (wpE (defs₀ (F := F)) Variants.none c none) E (cc3__decoder_body i arg2 harg2 arg3 harg3 arg4 harg4) K := by
  simp only [cc3__decoder_body_eq_skeleton]; unfold cc3__decoder_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; iexists _; isplitr
  swap; · iexact H2
  ipureintro; rfl

/-! ## The body obligation, at a generic point -/

/-- What the body is called with at point `t`: the invariant, the core's tallies, the two input windows' current
    buffers at what they then hold, and the output window's current buffer at anything. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ X, owns (c : Thread nD τ) (st3_2 t) fullShare X))

/-- What it returns: window 0's buffer at its block; window 1's at its block on the rows inside the array (the
    window is loose: anything past them); window 2's at some contents. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ (∃ X, owns (c : Thread nD τ) (st3_2 t) fullShare X))

/-- The body at any point: the inputs' buffers hold their blocks (window 1's filled out by what the fetch left),
    the body leaves them alone, and on the rows inside the array window 1's buffer still reads the block of `z`; the
    invariant and the core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩, ⟨%X2, H2⟩⟩
  iapply (sound_kernel3 c Set.univ (grid3.coords t) _ _ _ _ _ _ (iblk3 V c 0 t)
    (win3_1.fill (grid3.coords t) d1 (iblk3 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have hcut : (cfg3.win 1).cut (cfg3.grid.coords t)
        (win3_1.fill (grid3.coords t) (fun _ => Scalar.ofBits .f32 0#32) (iblk3 V c 1 t)) = iblk3 V c 1 t :=
      win3_1.cut_fill _ _ _
    rw [hcut]; iexact H1
  iexact H2

/-- The library's body obligation at every point, the output window forgotten. -/
theorem body_obligation3 (c : Dev nD) :
    BodyObligationLoose (dat3 (F := F) V c) (defs₀ (F := F)) Variants.none () Set.univ (fun w => decide (w = 2)) := fun t => by
  rw [bigSep_W3, bigSep_W3]
  exact sound_body3 V c t

end Cert.Kernel.Hand

end
-- ==== Proof.BitsShare3.lean ====
/-
  The decoder region's arrays and their shares.

  The region's three windows stand on TWO buffers: windows 0 and 1 both read the embedding `z` (`main_v35`), window 2
  writes the result (`main_v36`). When the region is entered the core holds each of the two buffers whole at the full
  share. The pipeline's proof data asks for one holding PER WINDOW: `z` at the left half of the full share for window
  0 and at the right half for window 1, the result at the full share. The two halves are disjoint and join to the
  full share, so a holding of `z` at the full share splits into the two halves at the same contents, and two holdings
  of `z` at the two halves at EQUAL contents join back to the full share. These are the two directions below, stated
  for any proof data over this region's configuration whose three shares are those.
-/
import proofs.«103742_g75840532512942_cont_9to1_m_1342_3_alg».proof.Proof.Gen.Kernel.Launch
import Idealize.ShloMosaic.Lib.Pipeline.Launch
import Idealize.ShloMosaic.Lib.Pipeline.Frame
import Idealize.ShloMosaic.Lib.Pipeline.Kit
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (Pipeline.UD sig nD τ) ℕ

/-- The buffers behind the three windows' arrays are two: `z` (twice) and the result. -/
theorem arrRefs3 : Finset.univ.image (Pipeline.arrRef spec3) = [main_v35, main_v36].toFinset := by decide

/-- `z` held whole at the full share is `z` held at its two halves, at the same contents; the result is untouched. -/
theorem split_z3 (c : Dev nD) (V : (b : Ref sig .tc) → Buf (Elt F) ((c.tc : Thread nD τ).loc b)) :
    (iprop((((c.tc : Thread nD τ).loc main_v35) ↦{fullShare} V main_v35) ∗ (((c.tc : Thread nD τ).loc main_v36) ↦{fullShare} V main_v36)) : sProp 𝕄)
      ⊢ iprop((((c.tc : Thread nD τ).loc main_v35) ↦{fullShare.left} V main_v35)
          ∗ (((c.tc : Thread nD τ).loc main_v35) ↦{fullShare.right} V main_v35)
          ∗ (((c.tc : Thread nD τ).loc main_v36) ↦{fullShare} V main_v36)) := by
  iintro ⟨H35, H36⟩
  ihave H := (pointsTo_share (PosShare.mem_left_op_right fullShare)).1 $$ H35
  icases H with ⟨Hl, Hr⟩
  isplitl [Hl]; · iexact Hl
  isplitl [Hr]; · iexact Hr
  iexact H36

/-- The two halves of `z` at one contents join back to the full share. -/
theorem join_z3 (c : Dev nD) (V : (b : Ref sig .tc) → Buf (Elt F) ((c.tc : Thread nD τ).loc b)) :
    (iprop((((c.tc : Thread nD τ).loc main_v35) ↦{fullShare.left} V main_v35)
          ∗ (((c.tc : Thread nD τ).loc main_v35) ↦{fullShare.right} V main_v35)
          ∗ (((c.tc : Thread nD τ).loc main_v36) ↦{fullShare} V main_v36)) : sProp 𝕄)
      ⊢ iprop((((c.tc : Thread nD τ).loc main_v35) ↦{fullShare} V main_v35) ∗ (((c.tc : Thread nD τ).loc main_v36) ↦{fullShare} V main_v36)) := by
  iintro ⟨Hl, Hr, H36⟩
  isplitl [Hl Hr]
  · iapply (pointsTo_share (PosShare.mem_left_op_right fullShare)).2
    isplitl [Hl]; · iexact Hl
    iexact Hr
  iexact H36

section
variable {c : Dev nD} (dat : Dat τ (Elt F) Unit ℕ (Pipeline.UD sig nD τ) ℕ cfg3 c)

/-- The share each window's array is held at: an input window's own, the output window's full. -/
theorem share3_0 (hq0 : dat.q 0 = fullShare.left) : dat.share 0 = fullShare.left := by
  unfold Dat.share; rw [if_neg (by decide)]; exact hq0
theorem share3_1 (hq1 : dat.q 1 = fullShare.right) : dat.share 1 = fullShare.right := by
  unfold Dat.share; rw [if_neg (by decide)]; exact hq1
theorem share3_2 : dat.share 2 = fullShare := by
  unfold Dat.share; rw [if_pos (by decide)]

/-- The three shares as a function of the window. -/
def sh3 : Fin cfg3.W → PosShare TreeShare
  | ⟨0, _⟩ => fullShare.left
  | ⟨1, _⟩ => fullShare.right
  | ⟨2, _⟩ => fullShare

theorem share3 (hq0 : dat.q 0 = fullShare.left) (hq1 : dat.q 1 = fullShare.right) : ∀ w, dat.share w = sh3 w
  | ⟨0, _⟩ => share3_0 dat hq0
  | ⟨1, _⟩ => share3_1 dat hq1
  | ⟨2, _⟩ => share3_2 dat

/-- The pipeline's arrays at the contents a valuation `V` of the buffers gives: every window's array is a whole
    buffer, so each holding is of the whole buffer behind the window, at the window's share, at `V` there. -/
theorem arrays3_eq (hq0 : dat.q 0 = fullShare.left) (hq1 : dat.q 1 = fullShare.right)
    (V : (b : Ref sig .tc) → Buf (Elt F) ((c.tc : Thread nD τ).loc b))
    (G : (w : Fin cfg3.W) → Buf (Elt F) ((spec3 w).arr.view.loc (c.tc : Thread nD τ)))
    (hG : ∀ w, G w = V (Pipeline.arrRef spec3 w)) :
    (dat.arrays G : sProp 𝕄)
      = bigSep Finset.univ fun w : Fin cfg3.W =>
          ((((c.tc : Thread nD τ).loc (Pipeline.arrRef spec3 w)) ↦{sh3 w} V (Pipeline.arrRef spec3 w)) : sProp 𝕄) := by
  unfold Dat.arrays
  exact bigSep_congr fun w _ => by rw [(arr_whole3 w).set_eq_univ, share3 dat hq0 hq1 w, hG w]
end

/-- ENTRY: the two buffers behind the windows' arrays, each whole at the full share at contents `V`, give the
    pipeline's arrays at those contents, `z` split between its two windows. -/
theorem arrays3_of_arrBufs (c : Dev nD) (dat : Dat τ (Elt F) Unit ℕ (Pipeline.UD sig nD τ) ℕ cfg3 c)
    (hq0 : dat.q 0 = fullShare.left) (hq1 : dat.q 1 = fullShare.right) (hq2 : dat.q 2 = fullShare)
    (V : (b : Ref sig .tc) → Buf (Elt F) ((c.tc : Thread nD τ).loc b))
    (G : (w : Fin cfg3.W) → Buf (Elt F) ((spec3 w).arr.view.loc (c.tc : Thread nD τ)))
    (hG : ∀ w, G w = V (Pipeline.arrRef spec3 w)) :
    (Pipeline.arrBufs spec3 c V : sProp 𝕄) ⊢ dat.arrays G := by
  rw [arrays3_eq dat hq0 hq1 V G hG, bigSep_W3]
  unfold Pipeline.arrBufs
  rw [bigSep_eq_bigSepL_of_eq [main_v35, main_v36] arrRefs3 (by decide)]
  exact split_z3 c V

/-- EXIT: the pipeline's arrays at contents that are one valuation `V'` of the buffers — so that the two windows on
    `z` hold it at equal contents — give back the two buffers, each whole at the full share at `V'`. -/
theorem arrBufs_of_arrays3 (c : Dev nD) (dat : Dat τ (Elt F) Unit ℕ (Pipeline.UD sig nD τ) ℕ cfg3 c)
    (hq0 : dat.q 0 = fullShare.left) (hq1 : dat.q 1 = fullShare.right) (hq2 : dat.q 2 = fullShare)
    (V' : (b : Ref sig .tc) → Buf (Elt F) ((c.tc : Thread nD τ).loc b))
    (G : (w : Fin cfg3.W) → Buf (Elt F) ((spec3 w).arr.view.loc (c.tc : Thread nD τ)))
    (hG : ∀ w, G w = V' (Pipeline.arrRef spec3 w)) :
    dat.arrays G ⊢ (Pipeline.arrBufs spec3 c V' : sProp 𝕄) := by
  rw [arrays3_eq dat hq0 hq1 V' G hG, bigSep_W3]
  unfold Pipeline.arrBufs
  rw [bigSep_eq_bigSepL_of_eq [main_v35, main_v36] arrRefs3 (by decide)]
  exact join_z3 c V'

end Cert.Kernel.Hand

end
-- ==== Proof.BitsRun.lean ====
import proofs.«103742_g75840532512942_cont_9to1_m_1342_3_alg».proof.Defs
import proofs.«103742_g75840532512942_cont_9to1_m_1342_3_alg».proof.Proof.Gen.Pre_finite_inputs
import proofs.«103742_g75840532512942_cont_9to1_m_1342_3_alg».proof.Proof.Gen.Kernel.Regions
import proofs.«103742_g75840532512942_cont_9to1_m_1342_3_alg».proof.Proof.BitsRegA
import proofs.«103742_g75840532512942_cont_9to1_m_1342_3_alg».proof.Proof.BitsReg3
import proofs.«103742_g75840532512942_cont_9to1_m_1342_3_alg».proof.Proof.BitsShare3
import Idealize.ShloMosaic.Lib.Pipeline.FrameBody
import Idealize.ShloMosaic.Lib.Pipeline.RegionsLoop
import Idealize.ShloMosaic.Lib.Pipeline.FrameSuffix
import Idealize.ShloMosaic.Lib.Tactic

/-!
# The word-level program runs to the end and leaves its arguments alone

@main is thirteen items in a row: four pipelined regions (three dense layers, then the decoder) with three host
stretches after each of the first three (the sparse product with the adjacency matrix: a gather, a product with
the edge values, a scatter-add).  This file follows the contents of the core's unnamed-scope buffers through the
thirteen items and concludes that every execution terminates with the six argument arrays as launched.

For the three dense layers the result array after the region is a function of the arrays before it: each of the
five row blocks is written once, with the layer's value on the two input blocks.  For the decoder this fails at
the word level: the matrix unit reads its whole right operand, and at the last column block the operand's buffer
holds 240 rows beyond the end of the array whose words nothing determines.  So the decoder's result is only known
to be SOME array.  Nothing reads it afterwards, and the claim is about the arguments only, so that suffices: the
decoder's region is taken with its result window forgotten, and the last state of the run holds the result buffer
at contents that are existentially quantified.

The decoder reads one array, the encoder's output, through two windows (a block of rows as the left operand, a
block of rows as the right one).  The array's full share is cut in two halves on entry, one per window, and the
halves are joined again on exit; an input window's array is never written, so both halves come back at the
contents they went in with.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ (Pipeline.UD sig nD τ) ℕ

variable (m : (ℓ : Loc nD τ sig) → Buf (Elt F) ℓ)

/-! ## What the dense layers leave in their result arrays -/

/-- A valuation of the core's buffers read at the TensorCore's own references. -/
abbrev atTc (W : Dev nD → Valuation τ sig (Elt F)) : (c : Dev nD) → (b : Ref sig .tc) → Buf (Elt F) ((c : Thread nD τ).loc b) :=
  fun c b => W c b

/-- After the first layer: its result array `main_v0` holds the five row blocks the region wrote; every other
    entry is a placeholder that is never read. -/
def o0 : Outs (F := F) := fun _ r c =>
  if h : r = main_v0 then h ▸ (dat0 (atTc (V0 m)) c).arrAt 2 cfg0.N else m ((c : Thread nD τ).loc r)

/-- After the second layer as well: `main_v12` holds what that region wrote, from the buffers as the first layer
    and the first sparse product left them. -/
def o1 : Outs (F := F) := fun J r c =>
  if h : r = main_v12 then h ▸ (dat1 (atTc (V4 m (o0 m))) c).arrAt 2 cfg1.N else o0 m J r c

/-- After the third layer as well: `main_v24`. -/
def o2 : Outs (F := F) := fun J r c =>
  if h : r = main_v24 then h ▸ (dat2 (atTc (V8 m (o1 m))) c).arrAt 2 cfg2.N else o1 m J r c

/-! ### Reading the staged results -/

theorem o0_v0 (J : ℕ) (c : Dev nD) : o0 m J main_v0 c = (dat0 (atTc (V0 m)) c).arrAt 2 cfg0.N := by
  unfold o0; rw [dif_pos rfl]

theorem o1_v0 (J : ℕ) (c : Dev nD) : o1 m J main_v0 c = o0 m J main_v0 c := by
  unfold o1; rw [dif_neg (by decide)]

theorem o1_v12 (J : ℕ) (c : Dev nD) : o1 m J main_v12 c = (dat1 (atTc (V4 m (o0 m))) c).arrAt 2 cfg1.N := by
  unfold o1; rw [dif_pos rfl]

theorem o2_v0 (J : ℕ) (c : Dev nD) : o2 m J main_v0 c = o0 m J main_v0 c := by
  unfold o2; rw [dif_neg (by decide)]; exact o1_v0 m J c

theorem o2_v12 (J : ℕ) (c : Dev nD) : o2 m J main_v12 c = o1 m J main_v12 c := by
  unfold o2; rw [dif_neg (by decide)]

theorem o2_v24 (J : ℕ) (c : Dev nD) : o2 m J main_v24 c = (dat2 (atTc (V8 m (o1 m))) c).arrAt 2 cfg2.N := by
  unfold o2; rw [dif_pos rfl]

/-- The buffers before the second layer depend on the staged results only through the first layer's. -/
theorem V4_congr (o o' : Outs (F := F)) (c : Dev nD) (h : o 1 main_v0 c = o' 1 main_v0 c) : V4 m o c = V4 m o' c := by
  show StableHlo.after hostOps1_2 (StableHlo.after hostOps1_1 (StableHlo.after hostOps1 (Function.update (V0 m c) main_v0 (o 1 main_v0 c))))
    = StableHlo.after hostOps1_2 (StableHlo.after hostOps1_1 (StableHlo.after hostOps1 (Function.update (V0 m c) main_v0 (o' 1 main_v0 c))))
  rw [h]

/-- The buffers before the third layer: through the first two layers' only. -/
theorem V8_congr (o o' : Outs (F := F)) (c : Dev nD) (h : o 1 main_v0 c = o' 1 main_v0 c) (h' : o 5 main_v12 c = o' 5 main_v12 c) :
    V8 m o c = V8 m o' c := by
  show StableHlo.after hostOps2_2 (StableHlo.after hostOps2_1 (StableHlo.after hostOps2 (Function.update (V4 m o c) main_v12 (o 5 main_v12 c))))
    = StableHlo.after hostOps2_2 (StableHlo.after hostOps2_1 (StableHlo.after hostOps2 (Function.update (V4 m o' c) main_v12 (o' 5 main_v12 c))))
  rw [h', V4_congr m o o' c h]

/-- What the three dense layers leave, all stages together. -/
abbrev outs : Outs (F := F) := o2 m

theorem outs_v0 (c : Dev nD) : outs m 1 main_v0 c = (dat0 (atTc (V0 m)) c).arrAt 2 cfg0.N :=
  (o2_v0 m 1 c).trans (o0_v0 m 1 c)

theorem V4_outs : atTc (V4 m (outs m)) = atTc (V4 m (o0 m)) :=
  funext fun c => funext fun b => congrFun (V4_congr m (outs m) (o0 m) c (o2_v0 m 1 c)) b

theorem outs_v12 (c : Dev nD) : outs m 5 main_v12 c = (dat1 (atTc (V4 m (outs m))) c).arrAt 2 cfg1.N := by
  rw [V4_outs]; exact (o2_v12 m 5 c).trans (o1_v12 m 5 c)

theorem V8_outs : atTc (V8 m (outs m)) = atTc (V8 m (o1 m)) :=
  funext fun c => funext fun b => congrFun (V8_congr m (outs m) (o1 m) c ((o2_v0 m 1 c).trans (o1_v0 m 1 c).symm) (o2_v12 m 5 c)) b

theorem outs_v24 (c : Dev nD) : outs m 9 main_v24 c = (dat2 (atTc (V8 m (outs m))) c).arrAt 2 cfg2.N := by
  rw [V8_outs]; exact o2_v24 m 9 c

/-! ## The proof data of the four regions, and what rides beside the buffers -/

/-- The four regions' exact proof data, each at the contents its region is entered with. -/
def pdats : (p : Fin 4) → (c : Dev nD) → Dat τ (Elt F) Unit ℕ (Pipeline.UD sig nD τ) ℕ (Pipeline.pin (pcfgs (F := F)) adm p) c
  | ⟨0, _⟩ => fun c => dat0 (atTc (V0 m)) c
  | ⟨1, _⟩ => fun c => dat1 (atTc (V4 m (outs m))) c
  | ⟨2, _⟩ => fun c => dat2 (atTc (V8 m (outs m))) c
  | ⟨3, _⟩ => fun c => dat3 (atTc (V12 m (outs m))) c

/-- The same read as relations between what a staging buffer held and what the body leaves in it; the decoder's
    result window (window 2 of region 3) is forgotten: any contents may be left there. -/
def rdats : (p : Fin 4) → (c : Dev nD) → RDat τ (Elt F) Unit ℕ (Pipeline.UD sig nD τ) ℕ (Pipeline.pin (pcfgs (F := F)) adm p) c
  | ⟨0, _⟩ => fun c => (dat0 (atTc (V0 m)) c).toR
  | ⟨1, _⟩ => fun c => (dat1 (atTc (V4 m (outs m))) c).toR
  | ⟨2, _⟩ => fun c => (dat2 (atTc (V8 m (outs m))) c).toR
  | ⟨3, _⟩ => fun c => (dat3 (atTc (V12 m (outs m))) c).toRForget (fun w => decide (w = 2))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and that the core owes nothing. -/
abbrev R (c : Dev nD) : sProp 𝕄 := iprop((∃ r, prngReg c r) ∗ ∃ W, owes (c : Thread nD τ) (0 : CellTallies nD τ sig Unit) W)

/-! ## The three dense layers as segments -/

/-- At region 0's exit each of its arrays holds what the pipeline leaves there: the two inputs what they held on
    entry (an input window is never written back), the result the five written blocks. -/
theorem hF0 (c : Dev nD) (w : Fin cfg0.W) :
    (pdats m 0 c).arrAt w cfg0.N = atTc (V1 m (outs m)) c (Pipeline.arrRef spec0 w) :=
  match w with
  | ⟨0, _⟩ => (((dat0 (atTc (V0 m)) c).arrAt_in 0 rfl _).trans (A_eq0 (atTc (V0 m)) c 0)).trans (V1_of m (outs m) c _ (by decide)).symm
  | ⟨1, _⟩ => (((dat0 (atTc (V0 m)) c).arrAt_in 1 rfl _).trans (A_eq0 (atTc (V0 m)) c 1)).trans (V1_of m (outs m) c _ (by decide)).symm
  | ⟨2, _⟩ => (outs_v0 m c).symm.trans (by
      show outs m 1 main_v0 c = V1 m (outs m) c main_v0
      simp only [V1, Function.update_self])

/-- Every buffer that is none of region 0's arrays is left as it was. -/
theorem hrest0 (c : Dev nD) (b : Ref sig .tc) (hb : b ∉ Finset.univ.image (Pipeline.arrRef spec0)) :
    atTc (V1 m (outs m)) c b = atTc (V0 m) c b :=
  V1_of m (outs m) c b (by
    intro h
    rw [List.mem_singleton] at h
    exact hb (Finset.mem_image.mpr ⟨2, Finset.mem_univ _, h.symm⟩))

-- the library's lemmas are stated over the pinned configuration, which unifies with the printed one only when
-- unification may unfold plain definitions in a metavariable's type
set_option backward.isDefEq.respectTransparency.types false in
/-- Dense layer 0 as a segment: entered with every unscoped buffer at the contents before it, left with the
    result array at the five blocks written and everything else unchanged.  The three arrays are taken out of the
    unscoped buffers on entry and put back on exit; the generator register passes through the region's invariant. -/
def reg0 : Pipeline.RDat.RegionSeg (pcfgs (F := F)) adm (rdats m) () defs₀ 𝒱₀ L lv 0 where
  win := winFacts0.to₀
  block_pos := block_pos0
  stage_whole := stage_whole0
  K := PEmpty
  osem k := k.elim
  ho := Pipeline.OwnSemFacts.none _
  hbody c := (body_obligation0 (atTc (V0 m)) c).toR
  hwaits := Pipeline.RDat.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (atTc (V0 m) c)
  hentry c := by
    rw [Pipeline.ownSems0_none]
    have hsplit := Pipeline.RDat.arrays_of_unscopedBufs (p := 0) (pcfgs (F := F)) adm (rdats m) winFacts0 arr_whole0 c
      ((rdats m 0 c).share_full fun _ => rfl) (atTc (V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      winFacts0 arr_whole0 c (pdats m) ((pdats m 0 c).share_full fun _ => rfl)
      (atTc (V0 m) c) (atTc (V1 m (outs m)) c) ((pdats m 0 c).arrAt · cfg0.N) (hF0 m c) (hrest0 m c)
    rw [Pipeline.unscopedBufs_held] at hjoin
    refine (sep_mono (Entails.of_eq ((pdats m 0 c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- At region 1's exit each of its arrays holds what the pipeline leaves there: the two inputs what they held on
    entry (an input window is never written back), the result the five written blocks. -/
theorem hF1 (c : Dev nD) (w : Fin cfg1.W) :
    (pdats m 1 c).arrAt w cfg1.N = atTc (V5 m (outs m)) c (Pipeline.arrRef spec1 w) :=
  match w with
  | ⟨0, _⟩ => (((dat1 (atTc (V4 m (outs m))) c).arrAt_in 0 rfl _).trans (A_eq1 (atTc (V4 m (outs m))) c 0)).trans (V5_of m (outs m) c _ (by decide)).symm
  | ⟨1, _⟩ => (((dat1 (atTc (V4 m (outs m))) c).arrAt_in 1 rfl _).trans (A_eq1 (atTc (V4 m (outs m))) c 1)).trans (V5_of m (outs m) c _ (by decide)).symm
  | ⟨2, _⟩ => (outs_v12 m c).symm.trans (by
      show outs m 5 main_v12 c = V5 m (outs m) c main_v12
      simp only [V5, Function.update_self])

/-- Every buffer that is none of region 1's arrays is left as it was. -/
theorem hrest1 (c : Dev nD) (b : Ref sig .tc) (hb : b ∉ Finset.univ.image (Pipeline.arrRef spec1)) :
    atTc (V5 m (outs m)) c b = atTc (V4 m (outs m)) c b :=
  V5_of m (outs m) c b (by
    intro h
    rw [List.mem_singleton] at h
    exact hb (Finset.mem_image.mpr ⟨2, Finset.mem_univ _, h.symm⟩))

-- the library's lemmas are stated over the pinned configuration, which unifies with the printed one only when
-- unification may unfold plain definitions in a metavariable's type
set_option backward.isDefEq.respectTransparency.types false in
/-- Dense layer 1 as a segment: entered with every unscoped buffer at the contents before it, left with the
    result array at the five blocks written and everything else unchanged.  The three arrays are taken out of the
    unscoped buffers on entry and put back on exit; the generator register passes through the region's invariant. -/
def reg1 : Pipeline.RDat.RegionSeg (pcfgs (F := F)) adm (rdats m) () defs₀ 𝒱₀ L lv 1 where
  win := winFacts1.to₀
  block_pos := block_pos1
  stage_whole := stage_whole1
  K := PEmpty
  osem k := k.elim
  ho := Pipeline.OwnSemFacts.none _
  hbody c := (body_obligation1 (atTc (V4 m (outs m))) c).toR
  hwaits := Pipeline.RDat.hwaits_of_owed_zero _ _ _ _ L lv 1 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (atTc (V4 m (outs m)) c)
  hentry c := by
    rw [Pipeline.ownSems0_none]
    have hsplit := Pipeline.RDat.arrays_of_unscopedBufs (p := 1) (pcfgs (F := F)) adm (rdats m) winFacts1 arr_whole1 c
      ((rdats m 1 c).share_full fun _ => rfl) (atTc (V4 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      winFacts1 arr_whole1 c (pdats m) ((pdats m 1 c).share_full fun _ => rfl)
      (atTc (V4 m (outs m)) c) (atTc (V5 m (outs m)) c) ((pdats m 1 c).arrAt · cfg1.N) (hF1 m c) (hrest1 m c)
    rw [Pipeline.unscopedBufs_held] at hjoin
    refine (sep_mono (Entails.of_eq ((pdats m 1 c).toR_arraysAt_eq cfg1.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- At region 2's exit each of its arrays holds what the pipeline leaves there: the two inputs what they held on
    entry (an input window is never written back), the result the five written blocks. -/
theorem hF2 (c : Dev nD) (w : Fin cfg2.W) :
    (pdats m 2 c).arrAt w cfg2.N = atTc (V9 m (outs m)) c (Pipeline.arrRef spec2 w) :=
  match w with
  | ⟨0, _⟩ => (((dat2 (atTc (V8 m (outs m))) c).arrAt_in 0 rfl _).trans (A_eq2 (atTc (V8 m (outs m))) c 0)).trans (V9_of m (outs m) c _ (by decide)).symm
  | ⟨1, _⟩ => (((dat2 (atTc (V8 m (outs m))) c).arrAt_in 1 rfl _).trans (A_eq2 (atTc (V8 m (outs m))) c 1)).trans (V9_of m (outs m) c _ (by decide)).symm
  | ⟨2, _⟩ => (outs_v24 m c).symm.trans (by
      show outs m 9 main_v24 c = V9 m (outs m) c main_v24
      simp only [V9, Function.update_self])

/-- Every buffer that is none of region 2's arrays is left as it was. -/
theorem hrest2 (c : Dev nD) (b : Ref sig .tc) (hb : b ∉ Finset.univ.image (Pipeline.arrRef spec2)) :
    atTc (V9 m (outs m)) c b = atTc (V8 m (outs m)) c b :=
  V9_of m (outs m) c b (by
    intro h
    rw [List.mem_singleton] at h
    exact hb (Finset.mem_image.mpr ⟨2, Finset.mem_univ _, h.symm⟩))

-- the library's lemmas are stated over the pinned configuration, which unifies with the printed one only when
-- unification may unfold plain definitions in a metavariable's type
set_option backward.isDefEq.respectTransparency.types false in
/-- Dense layer 2 as a segment: entered with every unscoped buffer at the contents before it, left with the
    result array at the five blocks written and everything else unchanged.  The three arrays are taken out of the
    unscoped buffers on entry and put back on exit; the generator register passes through the region's invariant. -/
def reg2 : Pipeline.RDat.RegionSeg (pcfgs (F := F)) adm (rdats m) () defs₀ 𝒱₀ L lv 2 where
  win := winFacts2.to₀
  block_pos := block_pos2
  stage_whole := stage_whole2
  K := PEmpty
  osem k := k.elim
  ho := Pipeline.OwnSemFacts.none _
  hbody c := (body_obligation2 (atTc (V8 m (outs m))) c).toR
  hwaits := Pipeline.RDat.hwaits_of_owed_zero _ _ _ _ L lv 2 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (atTc (V8 m (outs m)) c)
  hentry c := by
    rw [Pipeline.ownSems0_none]
    have hsplit := Pipeline.RDat.arrays_of_unscopedBufs (p := 2) (pcfgs (F := F)) adm (rdats m) winFacts2 arr_whole2 c
      ((rdats m 2 c).share_full fun _ => rfl) (atTc (V8 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      winFacts2 arr_whole2 c (pdats m) ((pdats m 2 c).share_full fun _ => rfl)
      (atTc (V8 m (outs m)) c) (atTc (V9 m (outs m)) c) ((pdats m 2 c).arrAt · cfg2.N) (hF2 m c) (hrest2 m c)
    rw [Pipeline.unscopedBufs_held] at hjoin
    refine (sep_mono (Entails.of_eq ((pdats m 2 c).toR_arraysAt_eq cfg2.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The decoder as a segment -/

/-- The buffers after the decoder: as before it, but for the result array, which holds `b`. -/
abbrev Vend (c : Dev nD) (b : Buf (Elt F) ((c : Thread nD τ).loc main_v36)) : Valuation τ sig (Elt F) :=
  Function.update (V12 m (outs m) c) main_v36 b

theorem Vend_of (c : Dev nD) (b : Buf (Elt F) ((c : Thread nD τ).loc main_v36)) (r : Ref sig .tc) (h : r ≠ main_v36) :
    Vend m c b r = V12 m (outs m) c r := by
  simp only [Vend, Function.update_of_ne (StableHlo.devRef_ne_of_ne h : (Proc.devRef .tc r : DevRef τ sig) ≠ Proc.devRef .tc main_v36)]

/-- The decoder's three arrays on exit: the encoder's output, through both windows, as on entry; the result at `b`. -/
def G3 (V : (c : Dev nD) → (b : Ref sig .tc) → Buf (Elt F) ((c : Thread nD τ).loc b)) (c : Dev nD)
    (b : Buf (Elt F) ((c : Thread nD τ).loc main_v36)) :
    (w : Fin cfg3.W) → Buf (Elt F) ((cfg3.win w).arr.view.loc (c : Thread nD τ))
  | ⟨0, _⟩ => V c main_v35
  | ⟨1, _⟩ => V c main_v35
  | ⟨2, _⟩ => b

theorem G3_eq (c : Dev nD) (b : Buf (Elt F) ((c : Thread nD τ).loc main_v36)) (w : Fin cfg3.W) :
    G3 (atTc (V12 m (outs m))) c b w = (fun r : Ref sig .tc => Vend m c b r) (Pipeline.arrRef spec3 w) :=
  match w with
  | ⟨0, _⟩ => (Vend_of m c b main_v35 (by decide)).symm
  | ⟨1, _⟩ => (Vend_of m c b main_v35 (by decide)).symm
  | ⟨2, _⟩ => by
      show b = Vend m c b main_v36
      simp only [Vend, Function.update_self]

/-- After the decoder's last point the two windows on the encoder's output still hold it as entered (an input
    window's array is never written), and the result array holds something. -/
theorem arraysAt3_elim (V : (c : Dev nD) → (b : Ref sig .tc) → Buf (Elt F) ((c : Thread nD τ).loc b)) (c : Dev nD) :
    (((dat3 V c).toRForget (fun w => decide (w = 2))).arraysAt cfg3.N : sProp 𝕄) ⊢ iprop(∃ b, (dat3 V c).arrays (G3 V c b)) := by
  have h0 : ∀ F, ((dat3 V c).toRForget (fun w => decide (w = 2))).ArrAt 0 cfg3.N F → F = V c main_v35 := fun F h => by
    rw [RDat.ArrAt_in _ 0 rfl cfg3.N] at h; exact h.trans (A_eq3 V c 0)
  have h1 : ∀ F, ((dat3 V c).toRForget (fun w => decide (w = 2))).ArrAt 1 cfg3.N F → F = V c main_v35 := fun F h => by
    rw [RDat.ArrAt_in _ 1 rfl cfg3.N] at h; exact h.trans (A_eq3 V c 1)
  unfold RDat.arraysAt Dat.arrays
  rw [bigSep_W3]
  iintro ⟨⟨%F0, %hF0, H0⟩, ⟨%F1, %hF1, H1⟩, ⟨%F2, -, H2⟩⟩
  iexists F2
  rw [bigSep_W3, h0 F0 hF0, h1 F1 hF1]
  isplitl [H0]; · iexact H0
  isplitl [H1]; · iexact H1
  iexact H2

/-- The decoder's arrays on exit and the other unscoped buffers as entered are all the unscoped buffers, the result
    array at `b`. -/
theorem held_of_arrays3 (c : Dev nD) (b : Buf (Elt F) ((c : Thread nD τ).loc main_v36)) :
    iprop((dat3 (atTc (V12 m (outs m))) c).arrays (G3 (atTc (V12 m (outs m))) c b)
        ∗ Pipeline.unscopedRest (Ix := Unit) (Name := ℕ) (U := Pipeline.UD sig nD τ) (Lvl := ℕ) spec3 c (atTc (V12 m (outs m)) c))
      ⊢ (StableHlo.held (c : Thread nD τ) (Pipeline.ucRefs τ sig) (Vend m c b) : sProp 𝕄) := by
  have hub := Pipeline.unscopedBufs_split₀ (Ix := Unit) (Name := ℕ) (U := Pipeline.UD sig nD τ) (Lvl := ℕ) (Val := Elt F) (τ := τ)
    cfgs (3 : Fin 4) winFacts₀3.arr_unscoped c (fun r : Ref sig .tc => Vend m c b r)
  rw [Pipeline.unscopedBufs_held] at hub
  rw [hub]
  refine sep_mono (arrBufs_of_arrays3 c _ (q3_0 _ c) (q3_1 _ c) (q3_2 _ c) _ _ (G3_eq m c b)) (Entails.of_eq ?_)
  unfold Pipeline.unscopedRest
  refine bigSep_congr fun r hr => ?_
  have hne : r ≠ main_v36 := fun e => (Finset.mem_sdiff.mp hr).2 (Finset.mem_image.mpr ⟨2, Finset.mem_univ _, e.symm⟩)
  show _ = (((c : Thread nD τ)).loc r ↦{fullShare} Vend m c b r : sProp 𝕄)
  rw [Vend_of m c b r hne]

/-- The last thread state, but for what the core owes: every unscoped buffer as after the last sparse product except
    the decoder's result array, which holds something; the generator register at some state. -/
abbrev Tend (c : Dev nD) : sProp 𝕄 :=
  iprop((∃ b, StableHlo.held (c : Thread nD τ) (Pipeline.ucRefs τ sig) (Vend m c b)) ∗ ∃ r, prngReg c r)

-- as for the dense layers
set_option backward.isDefEq.respectTransparency.types false in
/-- The decoder as a segment: entered with every unscoped buffer at the contents after the last sparse product, left
    with the result array at SOME contents and everything else unchanged.  The encoder's output is handed to the two
    windows that read it at the two halves of its share; the result window is forgotten. -/
def reg3 : Pipeline.RDat.RegionSeg (pcfgs (F := F)) adm (rdats m) () defs₀ 𝒱₀ L lv 3 where
  win := winFacts₀3
  block_pos := block_pos3
  stage_whole := stage_whole3
  K := PEmpty
  osem k := k.elim
  ho := Pipeline.OwnSemFacts.none _
  hbody c := (body_obligation3 (atTc (V12 m (outs m))) c).toRForget
  hwaits := Pipeline.RDat.hwaits_of_owed_zero _ _ _ _ L lv 3 fun _ _ => rfl
  pre c := iprop(StableHlo.held (c : Thread nD τ) (Pipeline.ucRefs τ sig) (V12 m (outs m) c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (atTc (V12 m (outs m)) c)
  hentry c := by
    rw [Pipeline.ownSems0_none]
    have hub := Pipeline.unscopedBufs_split₀ (Ix := Unit) (Name := ℕ) (U := Pipeline.UD sig nD τ) (Lvl := ℕ) (Val := Elt F) (τ := τ)
      cfgs (3 : Fin 4) winFacts₀3.arr_unscoped c (atTc (V12 m (outs m)) c)
    rw [Pipeline.unscopedBufs_held] at hub
    have harr : (Pipeline.arrBufs (Ix := Unit) (Name := ℕ) (U := Pipeline.UD sig nD τ) (Lvl := ℕ) spec3 c (atTc (V12 m (outs m)) c) : sProp 𝕄)
        ⊢ (rdats m 3 c).arrays (rdats m 3 c).A :=
      arrays3_of_arrBufs c (dat3 (atTc (V12 m (outs m))) c) (q3_0 _ c) (q3_1 _ c) (q3_2 _ c) (atTc (V12 m (outs m)) c)
        (dat3 (atTc (V12 m (outs m))) c).A (A_eq3 _ c)
    iintro ⟨⟨Hub, Hp, HO⟩, -, -⟩
    ihave H := (Entails.of_eq hub) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    refine (sep_mono (show ((rdats m 3 c).arraysAt _ : sProp 𝕄) ⊢ _ from arraysAt3_elim (atTc (V12 m (outs m))) c) .rfl).trans ?_
    iintro ⟨⟨%b, Ha⟩, HO, HY, Hrest⟩
    imodintro
    isplitl [Ha Hrest HY]
    · isplitl [Ha Hrest]
      · iexists b
        iapply (held_of_arrays3 m c b)
        isplitl [Ha] <;> iassumption
      iexact HY
    unfold Pipeline.RDat.owesAt Pipeline.owesWithin
    icases HO with ⟨%W, -, HO⟩; iexists W; iexact HO

/-! ## @main as thirteen segments, and the launch -/

/-- What rides beside the buffers, under the five names the host stretches' segments index it by: the same at each. -/
abbrev E : Fin 5 → Dev nD → sProp 𝕄 := fun _ => R

/-- @main's thirteen items in order: a region per launch, a host segment per stretch between them. -/
abbrev segs : List (Pipeline.RDat.Seg (pcfgs (F := F)) adm (rdats m) () defs₀ 𝒱₀ L lv) :=
  [ .region (reg0 m),
    .host (seg1 m (outs m) 𝒱₀ L lv E), .host (seg2 m (outs m) 𝒱₀ L lv E), .host (seg3 m (outs m) 𝒱₀ L lv E),
    .region (reg1 m),
    .host (seg5 m (outs m) 𝒱₀ L lv E), .host (seg6 m (outs m) 𝒱₀ L lv E), .host (seg7 m (outs m) 𝒱₀ L lv E),
    .region (reg2 m),
    .host (seg9 m (outs m) 𝒱₀ L lv E), .host (seg10 m (outs m) 𝒱₀ L lv E), .host (seg11 m (outs m) 𝒱₀ L lv E),
    .region (reg3 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: whatever the decoder leaves in its result array, an argument's buffer at the end is
    the launch memory's. -/
theorem Vend_arg (c : Dev nD) (b : Buf (Elt F) ((c : Thread nD τ).loc main_v36)) (r : Ref sig .tc) (hr : r ≠ main_v36)
    (h13 : V13 m (outs m) c r = m ((c : Thread nD τ).loc r)) : Vend m c b r = m ((c : Thread nD τ).loc r) :=
  (Vend_of m c b r hr).trans (((V13_of m (outs m) c r (by rw [List.mem_singleton]; exact hr)).symm).trans h13)

-- the regions theorem's implicit arguments are found by unifying its conclusion with this goal, which needs plain
-- definitions unfolded in a metavariable's type
set_option backward.isDefEq.respectTransparency.types false in
/-- From any memory with zero counters, every weakly fair execution of @main on the TensorCores terminates, nothing
    faulting, and every final state has the six argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.RDat.θ_run_regions_kit (pcfgs (F := F)) adm (rdats m) () cellOf_inj embL defs₀ 𝒱₀ L lv m ρ main (segs m)
    (fun c Q => by
      rewrite [main_chain c, Pipeline.RDat.Seg.run_eq_chain,
        show (segs m).map Pipeline.RDat.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => by
      iintro ⟨⟨⟨%b, Hh⟩, -⟩, HSI⟩
      unfold StableHlo.held
      ihave Hr := (pointsTo_read_all (Pipeline.ucRefs τ sig) (fun b => ((c : Thread nD τ).1, b)) (Vend m c b) s') $$ [Hh HSI]
      · isplitl [Hh] <;> iassumption
      icases Hr with ⟨%h, HSI⟩
      imodintro
      isplitr
      · ipureintro
        exact ⟨(h _ (mem_uc main_arg0 (by decide))).trans (Vend_arg m c b main_arg0 (by decide) (V13_main_arg0 m (outs m) c)),
          (h _ (mem_uc main_arg1 (by decide))).trans (Vend_arg m c b main_arg1 (by decide) (V13_main_arg1 m (outs m) c)),
          (h _ (mem_uc main_arg2 (by decide))).trans (Vend_arg m c b main_arg2 (by decide) (V13_main_arg2 m (outs m) c)),
          (h _ (mem_uc main_arg3 (by decide))).trans (Vend_arg m c b main_arg3 (by decide) (V13_main_arg3 m (outs m) c)),
          (h _ (mem_uc main_arg4 (by decide))).trans (Vend_arg m c b main_arg4 (by decide) (V13_main_arg4 m (outs m) c)),
          (h _ (mem_uc main_arg5 (by decide))).trans (Vend_arg m c b main_arg5 (by decide) (V13_main_arg5 m (outs m) c))⟩
      · iexact HSI)
    (hQ := fun _ h => h)

/-- The word-level program's frame claim. -/
theorem frame_p : Cert.frame_Kernel := fun m ρ _ => frame (F := Bits) m ρ

end Cert.Kernel.Hand

end
-- ==== Proof.IdealRegA.lean ====
import proofs.«103742_g75840532512942_cont_9to1_m_1342_3_alg».proof.Proof.Gen.KernelIdeal.Launch
import proofs.«103742_g75840532512942_cont_9to1_m_1342_3_alg».proof.Proof.Gen.KernelIdeal.Skeleton
import proofs.«103742_g75840532512942_cont_9to1_m_1342_3_alg».proof.Proof.Gen.KernelIdeal.Points
import Idealize.ShloMosaic.Lib.Pipeline.FrameBody
import Idealize.ShloMosaic.Lib.Tactic

/-!
# The three dense layers of the encoder, each as one pipelined region

Each of the first three launches computes one dense layer `act (x · W)` of the encoder, five row blocks of 2000
rows at a time: the activations' block changes with the grid point, the weight matrix is one block that is the
same at every point, and the result block is written whole by a single store.  For each launch this file states,
at arbitrary contents `V` of the core's buffers on entry to the region,

* what each window's block is at each grid point (a rectangle of its array read off `V`);
* what the body leaves in the result's staging buffer: the layer's arithmetic applied to the two input blocks;
* that the body, run on staging buffers holding those blocks, ends with the inputs untouched and the result
  buffer holding exactly that value, whatever the result buffer held before (the body reads it once and ignores
  what it read);
* and hence the obligation the pipeline asks of a body at every grid point.

The weights are brought in only at the first point; at the later points the buffer still holds them because the
body does not write it and the block index never moves.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when a region is entered: every statement below is at an arbitrary such `V`
variable (V : (c : Dev nD) → (b : Ref sig .tc) → Buf (Elt F) ((c : Thread nD τ).loc b))

/-! # Launch 0: the first layer, leaky-rectified: rows of 128 features to rows of 128 -/

/-- Window `w`'s block at grid point `t`: the rectangle of its array that the point's index selects, read off the
    entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block whenever the body is called, for any proof data
    over the entry contents whose body leaves that block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the weight matrix at every point, although it is filled at the first point
    only: its block index is the same everywhere and the body never writes it, so what was brought in stays. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole of an activations block, of the weight matrix and of a result block, as rectangles: the body reads
    and writes nothing smaller. -/
abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_y : Rect S2000x128 := Rect.unit (s := S2000x128) ![0, 0] S2000x128.size inb_S2000x128_S2000x128_0_0

/-- What the body leaves in the result's staging buffer, from the two input blocks: one store over the whole block,
    of the layer's arithmetic applied to the blocks as loaded. -/
def out0_2 (x0 : Vec F S2000x128 .f32) (x1 : Vec F S128x128 .f32) : Vec F S2000x128 .f32 :=
  View.canon [⟨r0_y, k0_pay1 (View.ld x0 r0_x) (View.ld x1 r0_w)⟩]

/-- The single store covers the result block. -/
theorem storeCover0_2 (p0 : Vec F S2000x128 .f32) (y : S2000x128.Idx) :
    ∃ pc ∈ ([⟨r0_y, p0⟩] : List (View.Piece (Elt F) S2000x128 .f32)), y ∈ pc.1.set :=
  View.cover_of_tiled [⟨r0_y, p0⟩] S2000x128.size (by rfl) y

set_option maxHeartbeats 1000000 in
/-- The body on whole staging buffers — the inputs' holding `x0`, `x1`, the result's holding anything — runs to
    its continuation with the inputs as they were and the result buffer at `out0_2 x0 x1`: two loads, one load of
    the result buffer whose value is dropped, and one store of the whole block. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_act_body i arg1 harg1 arg2 harg2 arg3 harg3) K := by
  simp only [cc0__linear_act_body_eq_skeleton]; unfold cc0__linear_act_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCover0_2 _)

/-- The region's proof data on core `c`: the arrays as the region finds them; after the body at point `t` the
    two inputs' buffers still at their blocks and the result's at `out0_2` of those blocks; the rest of the core's
    state passes through untouched; nothing is owed; every buffer is held whole. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block whenever the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the rest of the
    core's state and its debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-! # Launch 1: the second layer, leaky-rectified: rows of 128 features to rows of 256 -/

/-- Window `w`'s block at grid point `t`: the rectangle of its array that the point's index selects, read off the
    entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's row block whenever the body is called, for any proof data
    over the entry contents whose body leaves that block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the weight matrix at every point, although it is filled at the first point
    only: its block index is the same everywhere and the body never writes it, so what was brought in stays. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole of an activations block, of the weight matrix and of a result block, as rectangles: the body reads
    and writes nothing smaller. -/
abbrev r1_x : Rect S2000x128 := Rect.unit (s := S2000x128) ![0, 0] S2000x128.size inb_S2000x128_S2000x128_0_0
abbrev r1_w : Rect S128x256 := Rect.unit (s := S128x256) ![0, 0] S128x256.size inb_S128x256_S128x256_0_0
abbrev r1_y : Rect S2000x256 := Rect.unit (s := S2000x256) ![0, 0] S2000x256.size inb_S2000x256_S2000x256_0_0

/-- What the body leaves in the result's staging buffer, from the two input blocks: one store over the whole block,
    of the layer's arithmetic applied to the blocks as loaded. -/
def out1_2 (x0 : Vec F S2000x128 .f32) (x1 : Vec F S128x256 .f32) : Vec F S2000x256 .f32 :=
  View.canon [⟨r1_y, k1_pay1 (View.ld x0 r1_x) (View.ld x1 r1_w)⟩]

/-- The single store covers the result block. -/
theorem storeCover1_2 (p0 : Vec F S2000x256 .f32) (y : S2000x256.Idx) :
    ∃ pc ∈ ([⟨r1_y, p0⟩] : List (View.Piece (Elt F) S2000x256 .f32)), y ∈ pc.1.set :=
  View.cover_of_tiled [⟨r1_y, p0⟩] S2000x256.size (by rfl) y

set_option maxHeartbeats 1000000 in
/-- The body on whole staging buffers — the inputs' holding `x0`, `x1`, the result's holding anything — runs to
    its continuation with the inputs as they were and the result buffer at `out1_2 x0 x1`: two loads, one load of
    the result buffer whose value is dropped, and one store of the whole block. -/
theorem sound_kernel1 (c : Dev nD) (E : Set ℕ) (i : grid1.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_act_body i arg1 harg1 arg2 harg2 arg3 harg3) K := by
  simp only [cc1__linear_act_body_eq_skeleton]; unfold cc1__linear_act_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCover1_2 _)

/-- The region's proof data on core `c`: the arrays as the region finds them; after the body at point `t` the
    two inputs' buffers still at their blocks and the result's at `out1_2` of those blocks; the rest of the core's
    state passes through untouched; nothing is owed; every buffer is held whole. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's staging buffer holds its block whenever the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies; the rest of the
    core's state and its debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-! # Launch 2: the third layer, no activation: rows of 256 features to rows of 20 -/

/-- Window `w`'s block at grid point `t`: the rectangle of its array that the point's index selects, read off the
    entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's row block whenever the body is called, for any proof data
    over the entry contents whose body leaves that block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the weight matrix at every point, although it is filled at the first point
    only: its block index is the same everywhere and the body never writes it, so what was brought in stays. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole of an activations block, of the weight matrix and of a result block, as rectangles: the body reads
    and writes nothing smaller. -/
abbrev r2_x : Rect S2000x256 := Rect.unit (s := S2000x256) ![0, 0] S2000x256.size inb_S2000x256_S2000x256_0_0
abbrev r2_w : Rect S256x20 := Rect.unit (s := S256x20) ![0, 0] S256x20.size inb_S256x20_S256x20_0_0
abbrev r2_y : Rect S2000x20 := Rect.unit (s := S2000x20) ![0, 0] S2000x20.size inb_S2000x20_S2000x20_0_0

/-- What the body leaves in the result's staging buffer, from the two input blocks: one store over the whole block,
    of the layer's arithmetic applied to the blocks as loaded. -/
def out2_2 (x0 : Vec F S2000x256 .f32) (x1 : Vec F S256x20 .f32) : Vec F S2000x20 .f32 :=
  View.canon [⟨r2_y, k2_pay1 (View.ld x0 r2_x) (View.ld x1 r2_w)⟩]

/-- The single store covers the result block. -/
theorem storeCover2_2 (p0 : Vec F S2000x20 .f32) (y : S2000x20.Idx) :
    ∃ pc ∈ ([⟨r2_y, p0⟩] : List (View.Piece (Elt F) S2000x20 .f32)), y ∈ pc.1.set :=
  View.cover_of_tiled [⟨r2_y, p0⟩] S2000x20.size (by rfl) y

set_option maxHeartbeats 1000000 in
/-- The body on whole staging buffers — the inputs' holding `x0`, `x1`, the result's holding anything — runs to
    its continuation with the inputs as they were and the result buffer at `out2_2 x0 x1`: two loads, one load of
    the result buffer whose value is dropped, and one store of the whole block. -/
theorem sound_kernel2 (c : Dev nD) (E : Set ℕ) (i : grid2.Coords) (arg1 : Memref sig .tc .vmem S2000x256 .f32) (harg1 : arg1.IsWhole) (arg2 : Memref sig .tc .vmem S256x20 .f32) (harg2 : arg2.IsWhole) (arg3 : Memref sig .tc .vmem S2000x20 .f32) (harg3 : arg3.IsWhole)
    (x0 : Vec F S2000x256 .f32) (x1 : Vec F S256x20 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_act_body i arg1 harg1 arg2 harg2 arg3 harg3) K := by
  simp only [cc2__linear_act_body_eq_skeleton]; unfold cc2__linear_act_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCover2_2 _)

/-- The region's proof data on core `c`: the arrays as the region finds them; after the body at point `t` the
    two inputs' buffers still at their blocks and the result's at `out2_2` of those blocks; the rest of the core's
    state passes through untouched; nothing is owed; every buffer is held whole. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's staging buffer holds its block whenever the body is called. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the rest of the
    core's state and its debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.LibNtMatmul.lean ====
/-
  A product against a transposed right operand, read at an entry, at the extended reals.

  A kernel's `q · kᵀ` prints as a matrix product whose dimension numbers contract the LAST axis of both operands
  (rows of the left against rows of the right).  Accumulated into the zero block, its entry (a, b) is the sum over the
  shared axis of the products of the entries: the accumulator adds nothing and, on the extended reals, nothing is rounded
  and no order of the summands is left.  Generic in the three extents, the two operand formats and the precision key.
-/
import Idealize.ShloMosaic.Lib.ValueIdx
import Idealize.ShloMosaic.PureOps.Ideal.Laws

noncomputable section

open scoped BigOperators

namespace Cert.LibNtMatmul

open Idealize.ShloMosaic Idealize.ShloMosaic.ValueIdx

/-- `A · Bᵀ` of an m×k block by an n×k block into the zero block: entry `(a, b)` is `Σ_c A(a,c)·B(b,c)`. -/
theorem matmul_nt_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibNtMatmul

end
-- ==== Proof.IdealReg3.lean ====
/-
  The decoder region (the fourth launch: sigmoid of z · zᵀ), at the extended reals, with its value.

  The launch reads the embedding z (10000 × 20) through two windows — a block of 1000 rows chosen by the first grid
  coordinate and a block of 2048 rows chosen by the second — and writes, through a third window, the 1000 × 2048 block
  of the 10000 × 10000 result at those two coordinates.  The last of the five 2048-row blocks overhangs the array by
  240 rows, and so does the last column block of the result: there the transfers are cut at the array's end and the
  staging buffers' remaining rows (columns) hold values nothing names.

  At the extended reals entry (r, c) of the product is the sum over the 20 shared coordinates of z(r,·)·z(c,·): it reads
  row c of the right operand only.  So every entry of the output block whose column lies inside the array is a function
  of rows of z alone, whatever the unnamed rows hold, and the part of the block the write-back moves is exactly the
  corresponding block of the whole-array function  dec3 z (r, c) = logistic (Σ_k z(r,k)·z(c,k)).
-/
import proofs.«103742_g75840532512942_cont_9to1_m_1342_3_alg».proof.Proof.Gen.KernelIdeal.Launch
import proofs.«103742_g75840532512942_cont_9to1_m_1342_3_alg».proof.Proof.Gen.KernelIdeal.Skeleton
import proofs.«103742_g75840532512942_cont_9to1_m_1342_3_alg».proof.Proof.Gen.KernelIdeal.Points
import proofs.«103742_g75840532512942_cont_9to1_m_1342_3_alg».proof.Proof.LibNtMatmul
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

open scoped BigOperators

namespace Cert.KernelIdeal.Hand

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (Pipeline.UD sig nD τ) ℕ

/-! ## The whole-array function -/

/-- What the decoder computes of the embedding `z`: entry (r, c) is the logistic function of the inner product of
    rows r and c. -/
def dec3 (z : Vec Ideal S10000x20 .f32) : Vec Ideal S10000x10000 .f32 :=
  fun i => Ideal.logistic (∑ k : Fin 20, z (ix2 (i 0 : Fin 10000) k) * z (ix2 (i 1 : Fin 10000) k))

-- the buffer contents of the TensorCore when the region is entered
variable (V : (c : Dev nD) → (b : Ref sig .tc) → Buf (Elt Ideal) ((c : Thread nD τ).loc b))

/-! ## The windows' blocks -/

/-- Window `w`'s block at point `t` — its part inside the array — read off the array as the region finds it. -/
def iblk3 (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

/-- The output window's block at point `t`, its part inside the array, of the whole-array function of the embedding. -/
def oblk3 (c : Dev nD) (t : Fin cfg3.N) : ((cfg3.win 2).xblock (cfg3.grid.coords t)).Idx → Elt Ideal (cfg3.win 2).elt :=
  ((cfg3.win 2).blk t).view.read (Elt Ideal) (dec3 (V c main_v35))

/-! ## The proof data -/

/-- The proof data of the decoder's pipeline on core `c`: the arrays as the region finds them; after the body at point
    `t` the left operand's buffer at its block, the right operand's at its block filled out with zeros past the
    array's end, the result's at the block of `dec3 z` filled out with zeros past the array's end (the two filled
    windows are stated on the moved part only, so the filler is never read); the embedding is held in two disjoint
    halves of the full share, one per window that reads it. -/
def dat3 (c : Dev nD) : Dat τ (Elt Ideal) Unit ℕ (Pipeline.UD sig nD τ) ℕ cfg3 c where
  A w := V c (Pipeline.arrRef spec3 w)
  after w t := match w with
    | ⟨0, _⟩ => iblk3 V c 0 t
    | ⟨1, _⟩ => (cfg3.win 1).fill (cfg3.grid.coords t) (fun _ => (0 : EReal)) (iblk3 V c 1 t)
    | ⟨2, _⟩ => (cfg3.win 2).fill (cfg3.grid.coords t) (fun _ => (0 : EReal)) (oblk3 V c t)
  Φ _ := Pipeline.ΦA spec3 c
  q w := match w with
    | ⟨0, _⟩ => fullShare.left
    | ⟨1, _⟩ => fullShare.right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) :
    (dat3 V c).after 1 t = (cfg3.win 1).fill (cfg3.grid.coords t) (fun _ => (0 : EReal)) (iblk3 V c 1 t) := by dsimp only [dat3]
theorem after3_2 (c : Dev nD) (t : Fin cfg3.N) :
    (dat3 V c).after 2 t = (cfg3.win 2).fill (cfg3.grid.coords t) (fun _ => (0 : EReal)) (oblk3 V c t) := by dsimp only [dat3]

/-- What point `t` writes back to the result array is block `t` — its part inside the array — of `dec3 z`. -/
theorem flushed3_2 (c : Dev nD) (t : Fin cfg3.N) :
    (dat3 V c).flushed 2 t = ((cfg3.win 2).blk t).view.read (Elt Ideal) (dec3 (V c main_v35)) := by
  show (cfg3.win 2).cut (cfg3.grid.coords t) ((dat3 V c).after 2 t) = oblk3 V c t
  rw [after3_2]; exact (cfg3.win 2).cut_fill _ _ _

/-! ## What the body finds in the staging buffers -/

/-- The left operand's window tiles the array and moves only with the first grid coordinate: fetched when the second
    coordinate is zero, and at the other points still holding the same block, which the body only reads. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The right operand's window is fetched at every point: its buffer holds the block's rows inside the array, and
    past the array's end whatever the buffer held before (`d`). -/
theorem before3_1 (c : Dev nD) (t : Fin cfg3.N) (d) :
    (dat3 V c).before 1 t d = (cfg3.win 1).fill (cfg3.grid.coords t) d (iblk3 V c 1 t) := by
  rw [(dat3 V c).before_fetched 1 t (fetch3_1 t) d]
  unfold Dat.fetched Dat.blockOf iblk3; rw [A_eq3]

/-- The result's window is written back at every point: its buffer is fresh at each. -/
theorem before3_2 (c : Dev nD) (t : Fin cfg3.N) (d) : (dat3 V c).before 2 t d = d := by
  refine (dat3 V c).before_out_reset 2 rfl t ?_ d
  by_cases ht : t.val = 0
  · exact .inl ht
  · exact .inr ⟨ht, flush3_2 _⟩

/-! ## The body's accesses and what it leaves in the result's buffer -/

abbrev r3_x : Rect S1000x20 := Rect.unit (s := S1000x20) ![0, 0] S1000x20.size inb_S1000x20_S1000x20_0_0
abbrev r3_z : Rect S2048x20 := Rect.unit (s := S2048x20) ![0, 0] S2048x20.size inb_S2048x20_S2048x20_0_0
abbrev r3_y : Rect S1000x2048 := Rect.unit (s := S1000x2048) ![0, 0] S1000x2048.size inb_S1000x2048_S1000x2048_0_0

/-- The result's staging buffer after the body, from the two operand buffers as loaded: one store over the whole
    block of the body's arithmetic. -/
def out3_2 (x0 : Vec Ideal S1000x20 .f32) (x1 : Vec Ideal S2048x20 .f32) : Vec Ideal S1000x2048 .f32 :=
  View.canon [⟨r3_y, k3_pay1 (View.ld x0 r3_x) (View.ld x1 r3_z)⟩]

/-- The single store covers the result block. -/
theorem storeCover3_2 (p0 : Vec Ideal S1000x2048 .f32) (y : S1000x2048.Idx) :
    ∃ pc ∈ ([⟨r3_y, p0⟩] : List (View.Piece (Elt Ideal) S1000x2048 .f32)), y ∈ pc.1.set :=
  View.cover_of_tiled [⟨r3_y, p0⟩] S1000x2048.size (by rfl) y

set_option maxHeartbeats 1000000 in
/-- The body on whole staging buffers — the operands' holding `x0`, `x1`, the result's holding anything — runs to its
    continuation with the operands as they were and the result buffer at `out3_2 x0 x1`: two loads, a load of the
    result buffer whose value is dropped, and one store of the whole block. -/
theorem sound_kernel3 (c : Dev nD) (E : Set ℕ) (i : grid3.Coords) (arg2 : Memref sig .tc .vmem S1000x20 .f32) (harg2 : arg2.IsWhole)
    (arg3 : Memref sig .tc .vmem S2048x20 .f32) (harg3 : arg3.IsWhole) (arg4 : Memref sig .tc .vmem S1000x2048 .f32) (harg4 : arg4.IsWhole)
    (x0 : Vec Ideal S1000x20 .f32) (x1 : Vec Ideal S2048x20 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := Ideal)) Variants.none c none) E (cc3__decoder_body i arg2 harg2 arg3 harg3 arg4 harg4) K := by
  simp only [cc3__decoder_body_eq_skeleton]; unfold cc3__decoder_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCover3_2 _)

/-! ## The body's arithmetic at an entry -/

/-- The product's dimension numbers contract the last axis of both operands. -/
theorem dot3_eq : dot_S1000x20_S2048x20_S1000x2048_1_1_0_0_n_n = DotDims.transposedRhs 1000 20 2048 := rfl

/-- Entry (a, b) of what the body stores: the logistic function of the inner product of row a of the left operand's
    buffer with row b of the right operand's.  It reads row b of the right buffer and no other. -/
theorem k3_pay1_apply (X : Vec Ideal S1000x20 .f32) (Z : Vec Ideal S2048x20 .f32) (a : Fin 1000) (b : Fin 2048) :
    k3_pay1 X Z (ix2 a b) = Ideal.logistic (∑ k : Fin 20, X (ix2 a k) * Z (ix2 b k)) := by
  unfold k3_pay1
  simp only [shapeCast_self]
  show Ideal.logistic (matmul (F := Ideal) dot_S1000x20_S2048x20_S1000x2048_1_1_0_0_n_n none X Z (constant (F := Ideal) S1000x2048 .f32 0x00000000#32) (ix2 a b)) = _
  rw [dot3_eq]
  exact congrArg Ideal.logistic (Cert.LibNtMatmul.matmul_nt_zero_apply none X Z a b)

/-! ## The part of the result block the write-back moves -/

/-- The body's loads and its store start at offset zero on both axes. -/
theorem hz3 : (![0, 0] : Fin 2 → Nat) = fun _ => 0 := funext fun a => by fin_cases a <;> rfl

/-- At every point, whatever the right operand's buffer holds past the array's end (`d1`), the part of the result's
    buffer that the write-back moves — the rows of the block, and its columns inside the array — is the corresponding
    block of `dec3 z`: entry (r, s) of the buffer is the logistic function of the inner product of row r of the left
    block, which is row (1000·i + r) of z, with row s of the right buffer, which for a column s inside the array is a
    row the fetch brought in, row (2048·j + s) of z. -/
theorem cut_out3 (c : Dev nD) (t : Fin cfg3.N) (d1 : (cfg3.win 1).block.Idx → Elt Ideal (cfg3.win 1).elt) :
    (cfg3.win 2).cut (cfg3.grid.coords t)
        (out3_2 (iblk3 V c 0 t) ((cfg3.win 1).fill (cfg3.grid.coords t) d1 (iblk3 V c 1 t)))
      = oblk3 V c t := by
  funext j
  have hj0 : (j 0).val < 1000 := lt_of_lt_of_le (j 0).isLt ((cfg3.win 2).xsize_le _ 0)
  have hj1 : (j 1).val < 2048 := lt_of_lt_of_le (j 1).isLt ((cfg3.win 2).xsize_le _ 1)
  have hx : (cfg3.win 2).xinj (cfg3.grid.coords t) j = ix2 (⟨(j 0).val, hj0⟩ : Fin 1000) (⟨(j 1).val, hj1⟩ : Fin 2048) := by
    funext ax; match ax with | ⟨0, _⟩ => rfl | ⟨1, _⟩ => rfl
  show out3_2 _ _ ((cfg3.win 2).xinj (cfg3.grid.coords t) j) = oblk3 V c t j
  rw [hx]; unfold out3_2
  rw [View.canon_unit_zero hz3, View.ld_unit_zero hz3, View.ld_unit_zero hz3, k3_pay1_apply]
  show _ = dec3 (V c main_v35) (((cfg3.win 2).rect t).emb j)
  unfold dec3
  refine congrArg Ideal.logistic (Finset.sum_congr rfl fun k _ => ?_)
  -- the left factor: row r of the left block is row (block index · 1000 + r) of z, the block index the result's
  have hL : iblk3 V c 0 t (ix2 (⟨(j 0).val, hj0⟩ : Fin 1000) k)
      = V c main_v35 (ix2 (((cfg3.win 2).rect t).emb j 0 : Fin 10000) k) := by
    show V c main_v35 (((cfg3.win 0).rect t).emb (ix2 (⟨(j 0).val, hj0⟩ : Fin 1000) k)) = _
    refine congrArg (V c main_v35) ?_
    funext ax; apply Fin.ext
    match ax with
    | ⟨0, _⟩ =>
      exact (((cfg3.win 0).rect_emb_val t (ix2 (⟨(j 0).val, hj0⟩ : Fin 1000) k) 0 :
          (_ : Nat) = (cfg3.win 2).index t 0 * 1000 + (j 0).val)).trans
        (((cfg3.win 2).rect_emb_val t j 0 : (_ : Nat) = (cfg3.win 2).index t 0 * 1000 + (j 0).val)).symm
    | ⟨1, _⟩ =>
      have e1 : ((((cfg3.win 0).rect t).emb (ix2 (⟨(j 0).val, hj0⟩ : Fin 1000) k) 1 : Fin _) : Nat) = 0 * 20 + k.val :=
        (cfg3.win 0).rect_emb_val t _ 1
      show (_ : Nat) = k.val
      exact e1.trans (by omega)
  -- the right factor: column s lies inside the array, so row s of the right buffer was filled by the fetch, with row
  -- (block index · 2048 + s) of z, the block index the result's on its second axis
  have hR : (cfg3.win 1).fill (cfg3.grid.coords t) d1 (iblk3 V c 1 t) (ix2 (⟨(j 1).val, hj1⟩ : Fin 2048) k)
      = V c main_v35 (ix2 (((cfg3.win 2).rect t).emb j 1 : Fin 10000) k) := by
    have hb : (j 1).val < (cfg3.win 1).xsize (cfg3.grid.coords t) 0 := (j 1).isLt
    have hk : k.val < (cfg3.win 1).xsize (cfg3.grid.coords t) 1 := k.isLt
    let y : ((cfg3.win 1).xblock (cfg3.grid.coords t)).Idx :=
      fun ax => match ax with | ⟨0, _⟩ => ⟨(j 1).val, hb⟩ | ⟨1, _⟩ => ⟨k.val, hk⟩
    have hy : ix2 (⟨(j 1).val, hj1⟩ : Fin 2048) k = (cfg3.win 1).xinj (cfg3.grid.coords t) y := by
      funext ax; match ax with | ⟨0, _⟩ => rfl | ⟨1, _⟩ => rfl
    rw [hy, (cfg3.win 1).fill_xinj]
    show V c main_v35 (((cfg3.win 1).rect t).emb y) = _
    refine congrArg (V c main_v35) ?_
    funext ax; apply Fin.ext
    match ax with
    | ⟨0, _⟩ =>
      exact (((cfg3.win 1).rect_emb_val t y 0 : (_ : Nat) = (cfg3.win 2).index t 1 * 2048 + (j 1).val)).trans
        (((cfg3.win 2).rect_emb_val t j 1 : (_ : Nat) = (cfg3.win 2).index t 1 * 2048 + (j 1).val)).symm
    | ⟨1, _⟩ =>
      have e1 : ((((cfg3.win 1).rect t).emb y 1 : Fin _) : Nat) = 0 * 20 + k.val := (cfg3.win 1).rect_emb_val t y 1
      show (_ : Nat) = k.val
      exact e1.trans (by omega)
  rw [hL, hR]

/-! ## The body obligation, at a generic point -/

/-- What the body is called with at point `t`: the invariant, the core's tallies, and the three windows' current
    buffers at what they then hold. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What it returns: the left operand's buffer at its block; the right operand's and the result's stated on the part
    their transfers move (both windows overhang the array at their last block), anything past it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ (∃ d, owns (c : Thread nD τ) (st3_2 t) fullShare
        ((cfg3.win 2).fill (cfg3.grid.coords t) d ((cfg3.win 2).cut (cfg3.grid.coords t) ((dat3 V c).after 2 t)))))

/-- The body at any point: the operands' buffers hold their blocks (the right one's filled out past the array's end
    by whatever the fetch left), the body leaves them alone and stores `out3_2` of them, whose moved part is the block
    of `dec3 z` (`cut_out3`); the invariant and the core's tallies pass through unread. -/
theorem sound_body3 (c : Dev nD) (t : Fin cfg3.N) :
    bodyPre3 V c t ⊢ wp frame (wpE (defs₀ (F := Ideal)) Variants.none c none) Set.univ (bodyAt3 t) (fun _ => bodyPost3 V c t) := by
  unfold bodyPre3 bodyPost3 bodyAt3
  simp only [before3_0, before3_1, before3_2]
  have hcut1 : (cfg3.win 1).cut (cfg3.grid.coords t) ((dat3 V c).after 1 t) = iblk3 V c 1 t := by
    rw [after3_1]; exact (cfg3.win 1).cut_fill _ _ _
  have hcut2 : (cfg3.win 2).cut (cfg3.grid.coords t) ((dat3 V c).after 2 t) = oblk3 V c t := by
    rw [after3_2]; exact (cfg3.win 2).cut_fill _ _ _
  rw [show (dat3 V c).Φ t.succ = (dat3 V c).Φ t.castSucc from rfl,
    show (dat3 V c).owesAt () t.succ = (dat3 V c).owesAt () t.castSucc from rfl,
    after3_0, hcut1, hcut2]
  iintro ⟨HΦ, Ho, ⟨%d0, H0⟩, ⟨%d1, H1⟩, ⟨%d2, H2⟩⟩
  iapply (sound_kernel3 c Set.univ (grid3.coords t) _ _ _ _ _ _ (iblk3 V c 0 t)
    ((cfg3.win 1).fill (cfg3.grid.coords t) d1 (iblk3 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists (out3_2 (iblk3 V c 0 t) ((cfg3.win 1).fill (cfg3.grid.coords t) d1 (iblk3 V c 1 t)))
  rw [← cut_out3 V c t d1, (cfg3.win 2).fill_cut]
  iexact H2

/-- The library's body obligation at every point: the right operand's and the result's windows, whose last blocks
    overhang their arrays, are stated on the part their transfers move. -/
theorem body_obligation3 (c : Dev nD) :
    BodyObligationLoose (dat3 V c) (defs₀ (F := Ideal)) Variants.none () Set.univ := fun t => by
  rw [bigSep_W3, bigSep_W3]
  exact sound_body3 V c t

end Cert.KernelIdeal.Hand

end
-- ==== Proof.IdealRun.lean ====
import proofs.«103742_g75840532512942_cont_9to1_m_1342_3_alg».proof.Proof.IdealRegA
import proofs.«103742_g75840532512942_cont_9to1_m_1342_3_alg».proof.Proof.IdealReg3
import proofs.«103742_g75840532512942_cont_9to1_m_1342_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal

/-!
# The encoder's run, with the value of every buffer named at every boundary

The program is thirteen items in a row on each TensorCore: a pipelined dense layer, three stretches of host
operations (the sparse aggregation: gather the rows at the edges' sources, scale them by the edge values, add
them into the rows at the edges' targets), a second dense layer, the aggregation again, a third dense layer, the
aggregation again, and last the decoder, which forms the logistic of the Gram matrix of the embedding.

This file follows the contents of the core's unscoped buffers through those items.  `W0` is the launch memory.
A host stretch takes `W` to the composite of its operations applied to `W`.  A dense layer changes only its
result array, which ends holding the fold of the blocks its grid points write back; its two input arrays end as
they were.  The decoder reads the embedding through two windows at once, one selecting a block of a thousand
rows and one a block of 2048 rows of the same array; the array's ownership is therefore dealt in two halves on the way
in, one half per window, and the halves are joined again on the way out, the array still holding what it held.
Its result array ends at the fold of the fifty blocks written back.

The conclusion is that every weakly fair execution terminates without a fault in a memory that holds, on each
core, the embedding and the decoder's result at the values the fold names, and every argument as it was launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (Pipeline.UD sig nD τ) ℕ

variable (m : (ℓ : Loc nD τ sig) → Buf (Elt Ideal) ℓ) (ρ : Dev nD → PrngReg)

/-! ## The buffer contents at each boundary -/

/-- The core's buffers at launch. -/
abbrev W0 : Dev nD → Valuation τ sig (Elt Ideal) := fun c b => (s₀ m ρ).mem ((c : Dev nD), b)
/-- The same, read at the TensorCore's references. -/
abbrev V0 : (c : Dev nD) → (b : Ref sig .tc) → Buf (Elt Ideal) ((c : Thread nD τ).loc b) := fun c b => W0 m ρ c b

/-- After dense layer 0: its three arrays at what the pipeline leaves (the inputs as entered, the result at the fold
    of the blocks written back), every other buffer as entered. -/
def W1 (c : Dev nD) : Valuation τ sig (Elt Ideal) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- An input array of the layer ends as it was entered. -/
theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))
/-- The layer's result array after it: the fold of the write-backs. -/
theorem W1_main_v0 (c : Dev nD) :
    W1 m ρ c (Proc.devRef .tc main_v0) = (dat0 (V0 m ρ) c).arrAt 2 cfg0.N := W1_arr m ρ c 2
abbrev V1 : (c : Dev nD) → (b : Ref sig .tc) → Buf (Elt Ideal) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch `hostOps1`. -/
abbrev W2 (c : Dev nD) : Valuation τ sig (Elt Ideal) := StableHlo.after hostOps1 (W1 m ρ c)
theorem W2_of (c : Dev nD) (r : Ref sig .tc) (h : r ∉ hostOps1_W) : W2 m ρ c r = W1 m ρ c r :=
  StableHlo.after_of_writes_sub hostOps1 _ hostOps1_writes h

/-- After the host stretch `hostOps1_1`. -/
abbrev W3 (c : Dev nD) : Valuation τ sig (Elt Ideal) := StableHlo.after hostOps1_1 (W2 m ρ c)
theorem W3_of (c : Dev nD) (r : Ref sig .tc) (h : r ∉ hostOps1_1_W) : W3 m ρ c r = W2 m ρ c r :=
  StableHlo.after_of_writes_sub hostOps1_1 _ hostOps1_1_writes h

/-- After the host stretch `hostOps1_2`. -/
abbrev W4 (c : Dev nD) : Valuation τ sig (Elt Ideal) := StableHlo.after hostOps1_2 (W3 m ρ c)
theorem W4_of (c : Dev nD) (r : Ref sig .tc) (h : r ∉ hostOps1_2_W) : W4 m ρ c r = W3 m ρ c r :=
  StableHlo.after_of_writes_sub hostOps1_2 _ hostOps1_2_writes h
/-- The same, read at the TensorCore's references: what the next region is entered from. -/
abbrev V4 : (c : Dev nD) → (b : Ref sig .tc) → Buf (Elt Ideal) ((c : Thread nD τ).loc b) := fun c b => W4 m ρ c b

/-- After dense layer 1: its three arrays at what the pipeline leaves (the inputs as entered, the result at the fold
    of the blocks written back), every other buffer as entered. -/
def W5 (c : Dev nD) : Valuation τ sig (Elt Ideal) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- An input array of the layer ends as it was entered. -/
theorem W5_in (c : Dev nD) (w : Fin cfg1.W) (hin : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hin _).trans (A_eq1 (V4 m ρ) c w))
/-- The layer's result array after it: the fold of the write-backs. -/
theorem W5_main_v12 (c : Dev nD) :
    W5 m ρ c (Proc.devRef .tc main_v12) = (dat1 (V4 m ρ) c).arrAt 2 cfg1.N := W5_arr m ρ c 2
abbrev V5 : (c : Dev nD) → (b : Ref sig .tc) → Buf (Elt Ideal) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the host stretch `hostOps2`. -/
abbrev W6 (c : Dev nD) : Valuation τ sig (Elt Ideal) := StableHlo.after hostOps2 (W5 m ρ c)
theorem W6_of (c : Dev nD) (r : Ref sig .tc) (h : r ∉ hostOps2_W) : W6 m ρ c r = W5 m ρ c r :=
  StableHlo.after_of_writes_sub hostOps2 _ hostOps2_writes h

/-- After the host stretch `hostOps2_1`. -/
abbrev W7 (c : Dev nD) : Valuation τ sig (Elt Ideal) := StableHlo.after hostOps2_1 (W6 m ρ c)
theorem W7_of (c : Dev nD) (r : Ref sig .tc) (h : r ∉ hostOps2_1_W) : W7 m ρ c r = W6 m ρ c r :=
  StableHlo.after_of_writes_sub hostOps2_1 _ hostOps2_1_writes h

/-- After the host stretch `hostOps2_2`. -/
abbrev W8 (c : Dev nD) : Valuation τ sig (Elt Ideal) := StableHlo.after hostOps2_2 (W7 m ρ c)
theorem W8_of (c : Dev nD) (r : Ref sig .tc) (h : r ∉ hostOps2_2_W) : W8 m ρ c r = W7 m ρ c r :=
  StableHlo.after_of_writes_sub hostOps2_2 _ hostOps2_2_writes h
/-- The same, read at the TensorCore's references: what the next region is entered from. -/
abbrev V8 : (c : Dev nD) → (b : Ref sig .tc) → Buf (Elt Ideal) ((c : Thread nD τ).loc b) := fun c b => W8 m ρ c b

/-- After dense layer 2: its three arrays at what the pipeline leaves (the inputs as entered, the result at the fold
    of the blocks written back), every other buffer as entered. -/
def W9 (c : Dev nD) : Valuation τ sig (Elt Ideal) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- An input array of the layer ends as it was entered. -/
theorem W9_in (c : Dev nD) (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (V8 m ρ) c).arrAt_in w hin _).trans (A_eq2 (V8 m ρ) c w))
/-- The layer's result array after it: the fold of the write-backs. -/
theorem W9_main_v24 (c : Dev nD) :
    W9 m ρ c (Proc.devRef .tc main_v24) = (dat2 (V8 m ρ) c).arrAt 2 cfg2.N := W9_arr m ρ c 2
abbrev V9 : (c : Dev nD) → (b : Ref sig .tc) → Buf (Elt Ideal) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After the host stretch `hostOps3`. -/
abbrev W10 (c : Dev nD) : Valuation τ sig (Elt Ideal) := StableHlo.after hostOps3 (W9 m ρ c)
theorem W10_of (c : Dev nD) (r : Ref sig .tc) (h : r ∉ hostOps3_W) : W10 m ρ c r = W9 m ρ c r :=
  StableHlo.after_of_writes_sub hostOps3 _ hostOps3_writes h

/-- After the host stretch `hostOps3_1`. -/
abbrev W11 (c : Dev nD) : Valuation τ sig (Elt Ideal) := StableHlo.after hostOps3_1 (W10 m ρ c)
theorem W11_of (c : Dev nD) (r : Ref sig .tc) (h : r ∉ hostOps3_1_W) : W11 m ρ c r = W10 m ρ c r :=
  StableHlo.after_of_writes_sub hostOps3_1 _ hostOps3_1_writes h

/-- After the host stretch `hostOps3_2`. -/
abbrev W12 (c : Dev nD) : Valuation τ sig (Elt Ideal) := StableHlo.after hostOps3_2 (W11 m ρ c)
theorem W12_of (c : Dev nD) (r : Ref sig .tc) (h : r ∉ hostOps3_2_W) : W12 m ρ c r = W11 m ρ c r :=
  StableHlo.after_of_writes_sub hostOps3_2 _ hostOps3_2_writes h
/-- The same, read at the TensorCore's references: what the next region is entered from. -/
abbrev V12 : (c : Dev nD) → (b : Ref sig .tc) → Buf (Elt Ideal) ((c : Thread nD τ).loc b) := fun c b => W12 m ρ c b

/-- After the decoder: its result array at the fold of the blocks written back, every other buffer (the embedding
    among them) as entered. -/
def W13 (c : Dev nD) : Valuation τ sig (Elt Ideal) :=
  Function.update (W12 m ρ c) (Proc.devRef .tc main_v36) ((dat3 (V12 m ρ) c).arrAt 2 cfg3.N)
theorem W13_main_v36 (c : Dev nD) : W13 m ρ c (Proc.devRef .tc main_v36) = (dat3 (V12 m ρ) c).arrAt 2 cfg3.N := by
  unfold W13; exact Function.update_self _ _ _
theorem W13_of_ne (c : Dev nD) (b : Ref sig .tc) (hb : b ≠ main_v36) :
    W13 m ρ c (Proc.devRef .tc b) = W12 m ρ c (Proc.devRef .tc b) := by
  unfold W13; exact Function.update_of_ne (StableHlo.devRef_ne_of_ne hb) _ _
abbrev V13 : (c : Dev nD) → (b : Ref sig .tc) → Buf (Elt Ideal) ((c : Thread nD τ).loc b) := fun c b => W13 m ρ c b

/-! ## The arguments end as launched

No host operation writes an argument; a dense layer that reads one through an input window leaves it as entered; the
decoder touches none.  So the fold at an argument's buffer walks back to the launch memory. -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := W12_of m ρ c main_arg0 (by decide)
    _ = W10 m ρ c (Proc.devRef .tc main_arg0) := W11_of m ρ c main_arg0 (by decide)
    _ = W9 m ρ c (Proc.devRef .tc main_arg0) := W10_of m ρ c main_arg0 (by decide)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_in m ρ c 0 rfl
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := W12_of m ρ c main_arg1 (by decide)
    _ = W10 m ρ c (Proc.devRef .tc main_arg1) := W11_of m ρ c main_arg1 (by decide)
    _ = W9 m ρ c (Proc.devRef .tc main_arg1) := W10_of m ρ c main_arg1 (by decide)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := W12_of m ρ c main_arg2 (by decide)
    _ = W10 m ρ c (Proc.devRef .tc main_arg2) := W11_of m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of m ρ c main_arg2 (by decide)
    _ = W4 m ρ c (Proc.devRef .tc main_arg2) := W5_of_ne m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := W12_of m ρ c main_arg3 (by decide)
    _ = W10 m ρ c (Proc.devRef .tc main_arg3) := W11_of m ρ c main_arg3 (by decide)
    _ = W9 m ρ c (Proc.devRef .tc main_arg3) := W10_of m ρ c main_arg3 (by decide)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of m ρ c main_arg3 (by decide)
    _ = W4 m ρ c (Proc.devRef .tc main_arg3) := W5_of_ne m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_in m ρ c 1 rfl
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := W12_of m ρ c main_arg4 (by decide)
    _ = W10 m ρ c (Proc.devRef .tc main_arg4) := W11_of m ρ c main_arg4 (by decide)
    _ = W9 m ρ c (Proc.devRef .tc main_arg4) := W10_of m ρ c main_arg4 (by decide)
    _ = W8 m ρ c (Proc.devRef .tc main_arg4) := W9_of_ne m ρ c main_arg4 (by decide)
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of m ρ c main_arg4 (by decide)
    _ = W4 m ρ c (Proc.devRef .tc main_arg4) := W5_in m ρ c 1 rfl
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := W12_of m ρ c main_arg5 (by decide)
    _ = W10 m ρ c (Proc.devRef .tc main_arg5) := W11_of m ρ c main_arg5 (by decide)
    _ = W9 m ρ c (Proc.devRef .tc main_arg5) := W10_of m ρ c main_arg5 (by decide)
    _ = W8 m ρ c (Proc.devRef .tc main_arg5) := W9_in m ρ c 1 rfl
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of m ρ c main_arg5 (by decide)
    _ = W4 m ρ c (Proc.devRef .tc main_arg5) := W5_of_ne m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of_ne m ρ c main_arg5 (by decide)
    _ = m ((c : Thread nD τ).loc main_arg5) := rfl

/-- The embedding is not written by the decoder. -/
theorem W13_main_v35 (c : Dev nD) : W13 m ρ c (Proc.devRef .tc main_v35) = W12 m ρ c (Proc.devRef .tc main_v35) :=
  W13_of_ne m ρ c main_v35 (by decide)

/-! ## The proof data family and the thread state -/

/-- Every pipeline's proof data, each at its region's entry contents. -/
def pdats : (p : Fin 4) → (c : Dev nD) → Dat τ (Elt Ideal) Unit ℕ (Pipeline.UD sig nD τ) ℕ (Pipeline.pin (pcfgs (F := Ideal)) adm p) c
  | ⟨0, _⟩ => fun c => dat0 (V0 m ρ) c
  | ⟨1, _⟩ => fun c => dat1 (V4 m ρ) c
  | ⟨2, _⟩ => fun c => dat2 (V8 m ρ) c
  | ⟨3, _⟩ => fun c => dat3 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := Pipeline.UD sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W13 m ρ c) ∗ ∃ r, prngReg c r)

/-! ## The dense layers as segments -/

-- the library's lemmas speak of the configuration looked up by its index; matching them against the configuration
-- written out takes unfolding definitions inside the type of a term still to be found
set_option backward.isDefEq.respectTransparency.types false in
/-- Dense layer 0 as a segment: entered from every unscoped buffer at `W0`, left at `W1`.  Its three arrays are
    distinct buffers: they are split out of the unscoped buffers on the way in and put back, at the contents the
    pipeline leaves, on the way out; the generator register passes through the body's invariant; nothing is owed. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas speak of the configuration looked up by its index; matching them against the configuration
-- written out takes unfolding definitions inside the type of a term still to be found
set_option backward.isDefEq.respectTransparency.types false in
/-- Dense layer 1 as a segment: entered from every unscoped buffer at `W4`, left at `W5`.  Its three arrays are
    distinct buffers: they are split out of the unscoped buffers on the way in and put back, at the contents the
    pipeline leaves, on the way out; the generator register passes through the body's invariant; nothing is owed. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V4 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := Pipeline.UD sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas speak of the configuration looked up by its index; matching them against the configuration
-- written out takes unfolding definitions inside the type of a term still to be found
set_option backward.isDefEq.respectTransparency.types false in
/-- Dense layer 2 as a segment: entered from every unscoped buffer at `W8`, left at `W9`.  Its three arrays are
    distinct buffers: they are split out of the unscoped buffers on the way in and put back, at the contents the
    pipeline leaves, on the way out; the generator register passes through the body's invariant; nothing is owed. -/
def reg2 : Pipeline.RegionSeg (pcfgs (F := Ideal)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V8 m ρ c)
  hentry c := by
    rw [Pipeline.ownSems0_none]
    have hsplit := Pipeline.arrays_of_unscopedBufs (p := 2) (pcfgs (F := Ideal)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := Pipeline.UD sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The decoder as a segment

Both input windows of the decoder select blocks of the embedding, so its three windows stand on two buffers.  On
the way in the embedding's buffer, held whole, is dealt in two halves of its ownership, one per input window; the
pipeline only reads through either; on the way out the halves, still at the contents they were dealt at, are joined
again. -/

/-- The decoder's windows' arrays are two buffers: the embedding and the result. -/
theorem arrImage3 : Finset.univ.image (Pipeline.arrRef spec3) = ({main_v35, main_v36} : Finset (Ref sig .tc)) := by decide

/-- Those two buffers, each held whole. -/
theorem arrBufs3_eq (c : Dev nD) (V : (b : Ref sig .tc) → Buf (Elt Ideal) ((c : Thread nD τ).loc b)) :
    (Pipeline.arrBufs (Ix := Unit) (Name := ℕ) (U := Pipeline.UD sig nD τ) (Lvl := ℕ) spec3 c V : sProp 𝕄)
      = iprop((((c : Thread nD τ).loc main_v35) ↦{fullShare} V main_v35) ∗ (((c : Thread nD τ).loc main_v36) ↦{fullShare} V main_v36)) := by
  unfold Pipeline.arrBufs
  rw [arrImage3, BI.bigSep_insert (by decide), BI.bigSep_singleton]
  rfl

/-- The decoder's arrays as its proof data hold them: the embedding twice, at the left and the right half of its
    ownership, and the result whole. -/
theorem arrays3_eq (c : Dev nD) (V : (c : Dev nD) → (b : Ref sig .tc) → Buf (Elt Ideal) ((c : Thread nD τ).loc b))
    (A : (w : Fin cfg3.W) → Buf (Elt Ideal) ((cfg3.win w).arr.view.loc (c.tc : Thread nD τ))) :
    ((dat3 V c).arrays A : sProp 𝕄)
      = iprop((((c : Thread nD τ).loc main_v35) ↦{fullShare.left} A 0) ∗ (((c : Thread nD τ).loc main_v35) ↦{fullShare.right} A 1)
          ∗ (((c : Thread nD τ).loc main_v36) ↦{fullShare} A 2)) := by
  unfold Dat.arrays
  have h : ∀ w : Fin cfg3.W, ((cfg3.win w).arr.view.loc (c.tc : Thread nD τ) ↦[(cfg3.win w).arr.view.set]{(dat3 V c).share w} A w : sProp 𝕄)
      = (((c.tc : Thread nD τ).loc (Pipeline.arrRef spec3 w)) ↦{(dat3 V c).share w} A w) := fun w => by
    rw [(arr_whole3 w).set_eq_univ]
  rw [bigSep_congr fun w _ => h w, bigSep_W3]
  rfl

/-- Dealing the embedding's ownership between the two input windows: the two buffers held whole at contents `V` are
    the decoder's arrays at any contents that agree with `V`. -/
theorem deal3 (c : Dev nD) (V₀ : (c : Dev nD) → (b : Ref sig .tc) → Buf (Elt Ideal) ((c : Thread nD τ).loc b))
    (V : (b : Ref sig .tc) → Buf (Elt Ideal) ((c : Thread nD τ).loc b))
    (A : (w : Fin cfg3.W) → Buf (Elt Ideal) ((cfg3.win w).arr.view.loc (c.tc : Thread nD τ)))
    (h0 : A 0 = V main_v35) (h1 : A 1 = V main_v35) (h2 : A 2 = V main_v36) :
    (Pipeline.arrBufs (Ix := Unit) (Name := ℕ) (U := Pipeline.UD sig nD τ) (Lvl := ℕ) spec3 c V : sProp 𝕄) ⊢ (dat3 V₀ c).arrays A := by
  rw [arrBufs3_eq, arrays3_eq, h0, h1, h2]
  iintro ⟨H35, H36⟩
  ihave H := (pointsTo_share (PosShare.mem_left_op_right fullShare)).1 $$ H35
  icases H with ⟨Hl, Hr⟩
  isplitl [Hl]; · iexact Hl
  isplitl [Hr]; · iexact Hr
  iexact H36

/-- Joining the halves again. -/
theorem join3 (c : Dev nD) (V₀ : (c : Dev nD) → (b : Ref sig .tc) → Buf (Elt Ideal) ((c : Thread nD τ).loc b))
    (V : (b : Ref sig .tc) → Buf (Elt Ideal) ((c : Thread nD τ).loc b))
    (A : (w : Fin cfg3.W) → Buf (Elt Ideal) ((cfg3.win w).arr.view.loc (c.tc : Thread nD τ)))
    (h0 : A 0 = V main_v35) (h1 : A 1 = V main_v35) (h2 : A 2 = V main_v36) :
    ((dat3 V₀ c).arrays A : sProp 𝕄) ⊢ Pipeline.arrBufs (Ix := Unit) (Name := ℕ) (U := Pipeline.UD sig nD τ) (Lvl := ℕ) spec3 c V := by
  rw [arrBufs3_eq, arrays3_eq, h0, h1, h2]
  iintro ⟨Hl, Hr, H36⟩
  isplitl [Hl Hr]
  · iapply (pointsTo_share (PosShare.mem_left_op_right fullShare)).2
    isplitl [Hl]; · iexact Hl
    iexact Hr
  iexact H36

/-- The decoder's arrays when it ends: the embedding, through either window, as entered; the result at the fold. -/
theorem hF3_0 (c : Dev nD) : (dat3 (V12 m ρ) c).arrAt 0 cfg3.N = V13 m ρ c main_v35 :=
  (((dat3 (V12 m ρ) c).arrAt_in 0 rfl _).trans (A_eq3 (V12 m ρ) c 0)).trans (W13_of_ne m ρ c main_v35 (by decide)).symm
theorem hF3_1 (c : Dev nD) : (dat3 (V12 m ρ) c).arrAt 1 cfg3.N = V13 m ρ c main_v35 :=
  (((dat3 (V12 m ρ) c).arrAt_in 1 rfl _).trans (A_eq3 (V12 m ρ) c 1)).trans (W13_of_ne m ρ c main_v35 (by decide)).symm
theorem hF3_2 (c : Dev nD) : (dat3 (V12 m ρ) c).arrAt 2 cfg3.N = V13 m ρ c main_v36 := (W13_main_v36 m ρ c).symm
/-- Every buffer that is neither the embedding nor the result is untouched by the decoder. -/
theorem rest3_eq (c : Dev nD) :
    (Pipeline.unscopedRest (Ix := Unit) (Name := ℕ) (U := Pipeline.UD sig nD τ) (Lvl := ℕ) spec3 c (V12 m ρ c) : sProp 𝕄)
      = Pipeline.unscopedRest spec3 c (V13 m ρ c) := by
  unfold Pipeline.unscopedRest
  refine bigSep_congr fun b hb => ?_
  have hne : b ≠ main_v36 := fun e => (Finset.mem_sdiff.mp hb).2 (by rw [e]; exact Finset.mem_image.mpr ⟨2, Finset.mem_univ _, rfl⟩)
  rw [show V13 m ρ c b = V12 m ρ c b from W13_of_ne m ρ c b hne]

-- as for the dense layers
set_option backward.isDefEq.respectTransparency.types false in
/-- The decoder as a segment: entered from every unscoped buffer at `W12`, left at `W13`. -/
def reg3 : Pipeline.RegionSeg (pcfgs (F := Ideal)) adm (pdats m ρ) () defs₀ 𝒱₀ L lv 3 where
  win := winFacts₀3
  block_pos := block_pos3
  stage_whole := stage_whole3
  K := PEmpty
  osem k := k.elim
  ho := Pipeline.OwnSemFacts.none _
  hbody c := body_obligation3 (V12 m ρ) c
  hwaits := Pipeline.hwaits_of_owed_zero _ _ _ _ L lv 3 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (V12 m ρ c)
  hentry c := by
    rw [Pipeline.ownSems0_none]
    have hub := Pipeline.unscopedBufs_split₀ (Ix := Unit) (Name := ℕ) (U := Pipeline.UD sig nD τ) (Lvl := ℕ) (Val := Elt Ideal) (nD := nD) (τ := τ)
      cfgs (3 : Fin 4) winFacts₀3.arr_unscoped c (V12 m ρ c)
    rw [Pipeline.unscopedBufs_held] at hub
    have hdeal := deal3 c (V12 m ρ) (V12 m ρ c) ((pdats m ρ 3 c).arrAt · 0) (A_eq3 (V12 m ρ) c 0) (A_eq3 (V12 m ρ) c 1) (A_eq3 (V12 m ρ) c 2)
    iintro ⟨⟨Hub, Hp, HO⟩, -, -⟩
    ihave H := (Entails.of_eq hub) $$ Hub
    icases H with ⟨Ha, Hrest⟩
    ihave Ha' := hdeal $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := Pipeline.UD sig nD τ) (Lvl := ℕ) (Val := Elt Ideal) (nD := nD) (τ := τ)
      cfgs (3 : Fin 4) winFacts₀3.arr_unscoped c (V13 m ρ c)
    rw [Pipeline.unscopedBufs_held] at hub
    have hjoin : ((pdats m ρ 3 c).arrays ((pdats m ρ 3 c).arrAt · (Pipeline.pin (pcfgs (F := Ideal)) adm 3).N) : sProp 𝕄)
        ⊢ Pipeline.arrBufs (Ix := Unit) (Name := ℕ) (U := Pipeline.UD sig nD τ) (Lvl := ℕ) spec3 c (V13 m ρ c) :=
      join3 c (V12 m ρ) (V13 m ρ c) ((pdats m ρ 3 c).arrAt · cfg3.N) (hF3_0 m ρ c) (hF3_1 m ρ c) (hF3_2 m ρ c)
    iintro ⟨Ha, HO, HY, Hrest⟩
    ihave Ha' := hjoin $$ Ha
    ihave Hr' := (Entails.of_eq (rest3_eq m ρ c)) $$ Hrest
    imodintro
    isplitl [Ha' Hr' HY]
    · isplitl [Ha' Hr']
      · iapply (Entails.of_eq hub.symm)
        isplitl [Ha']; · iexact Ha'
        iexact Hr'
      iexact HY
    unfold Pipeline.Dat.owesAt Pipeline.owesWithin
    icases HO with ⟨%W, -, HO⟩; iexists W; iexact HO

/-! ## The program as segments, and the launch -/

/-- The thirteen items in order. -/
abbrev segs : List (Pipeline.Seg (pcfgs (F := Ideal)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)),
    .host (hseg hostOps2_1 hostOps2_1_sub hostOps2_1_fresh (W6 m ρ)),
    .host (hseg hostOps2_2 hostOps2_2_sub hostOps2_2_fresh (W7 m ρ)),
    .region (reg2 m ρ),
    .host (hseg hostOps3 hostOps3_sub hostOps3_fresh (W9 m ρ)),
    .host (hseg hostOps3_1 hostOps3_1_sub hostOps3_1_fresh (W10 m ρ)),
    .host (hseg hostOps3_2 hostOps3_2_sub hostOps3_2_fresh (W11 m ρ)),
    .region (reg3 m ρ) ]
/-- The program is the run of those segments. -/
theorem main_run (c : Dev nD) : main (F := Ideal) c = Pipeline.Seg.run (segs m ρ) := (main_chain c).trans (by chain_rfl)

-- the launch theorem's implicit arguments are found by matching its conclusion with this one, which takes unfolding
-- definitions inside the type of a term still to be found
set_option backward.isDefEq.respectTransparency.types false in
/-- THE RUN: from any memory with zero counters, every weakly fair execution of the program on the TensorCores
    terminates, nothing faulting, and every final memory holds, on each core, the embedding and the decoder's result
    at the values the fold through the program names, and each argument as launched. -/
theorem run : θ_run defs (onTc (τ := τ) (main (F := Ideal))) ⟨m, fun _ => 0, ρ⟩ (fun r => ∀ c : Dev nD,
      r.2.mem ((c.tc : Thread nD τ).loc main_v35) = W13 m ρ c (Proc.devRef .tc main_v35)
      ∧ r.2.mem ((c.tc : Thread nD τ).loc main_v36) = W13 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v35 (by decide)), h c _ (mem_uc main_v36 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

/-- info: 'Cert.KernelIdeal.Hand.run' depends on axioms: [propext, Classical.choice, Quot.sound] -/
#guard_msgs in #print axioms run

end Cert.KernelIdeal.Hand

end
-- ==== Proof.IdealCovers.lean ====
/-
  Covers: for each of the four pallas_calls, every index of its output array lies in the block, cut at the array's
  end, of the grid point that covers it, and every point writes its block back. The three linear calls run on a grid
  of five points and write rows 2000 t … 2000 t + 1999 of a 10000-row array at point t. The decoder runs on a
  10 × 5 grid; point t = 5 p + q writes rows 1000 p … 1000 p + 999 and columns 2048 q … of a 10000 × 10000 array, the
  last column block (q = 4) cut to the 1808 columns 8192 … 9999 that lie inside the array. So an output array whose
  every written block is that block of ONE whole-array function ends the run holding that function
  (`Pipeline.Dat.arrAt_eq_of_cover`, whose covering hypothesis `coverK_2` is).
-/
import proofs.«103742_g75840532512942_cont_9to1_m_1342_3_alg».proof.Proof.Gen.KernelIdeal.Launch
import proofs.«103742_g75840532512942_cont_9to1_m_1342_3_alg».proof.Proof.Gen.KernelIdeal.Points
import Idealize.ShloMosaic.Lib.Pipeline.Value

noncomputable section

namespace Cert.KernelIdeal.Hand

open Cert.KernelIdeal Cert.KernelIdeal.Gen
open Idealize.ShloMosaic Idealize.ShloMosaic.TcCoe Idealize.SL.Sem

/-! ## custom_call 0: the output window's blocks (rows 2000 t … 2000 t + 1999, every column) -/

/-- The output window's index map on the five grid points: block row `t`, block column 0. -/
theorem idx_facts0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- An index of the output array is in point `t`'s block iff each coordinate is in the block's range on its axis. -/
theorem mem_blk0_2 (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The same in numbers: row `i 0` lies among the 2000 rows that start at row `2000 t`. -/
theorem mem_blk0_2_iff (t : Fin cfg0.N) (i : S10000x128.Idx) :
    i ∈ ((cfg0.win 2).blk t).view.set ↔ t.val * 2000 ≤ (i 0).val ∧ (i 0).val < t.val * 2000 + 2000 := by
  rw [mem_blk0_2]
  obtain ⟨e0, e1⟩ := idx_facts0_2 t
  have hi1 : (i 1).val < 128 := (i 1).isLt
  constructor
  · intro h
    have h0 : win0_2.index t (0 : Fin 2) * 2000 ≤ (i 0).val ∧ (i 0).val < win0_2.index t (0 : Fin 2) * 2000 + 2000 := h 0
    rw [e0] at h0; exact h0
  · intro h a
    match a with
    | ⟨0, _⟩ =>
      show win0_2.index t (0 : Fin 2) * 2000 ≤ (i 0).val ∧ (i 0).val < win0_2.index t (0 : Fin 2) * 2000 + 2000
      rw [e0]; exact h
    | ⟨1, _⟩ =>
      show win0_2.index t (1 : Fin 2) * 128 ≤ (i 1).val ∧ (i 1).val < win0_2.index t (1 : Fin 2) * 128 + 128
      rw [e1]; omega

/-- The grid point whose block holds row `r` of the output: `r / 2000`. -/
def pt0 (i : S10000x128.Idx) : Fin cfg0.N :=
  ⟨(i 0).val / 2000, by have h : (i 0).val < 10000 := (i 0).isLt; show (i 0).val / 2000 < grid0.N; rw [N_0]; omega⟩

theorem pt0_val (i : S10000x128.Idx) : (pt0 i).val = (i 0).val / 2000 := rfl

/-- Every index of the output array lies in the block of the point that covers it. -/
theorem mem_pt0 (i : S10000x128.Idx) : i ∈ ((cfg0.win 2).blk (pt0 i)).view.set := by
  rw [mem_blk0_2_iff, pt0_val]; omega

/-- THE COVER, as `Dat.arrAt_eq_of_cover` takes it: every index of the output array is in some flushing point's block. -/
theorem cover0_2 (c : Dev nD) :
    ∀ i : ((cfg0.win 2).arr.view.loc (c.tc : Thread nD τ)).2.ty.Idx,
      ∃ t : Fin cfg0.N, (cfg0.win 2).flush t = true ∧ i ∈ ((cfg0.win 2).blk t).view.set :=
  fun i => ⟨pt0 i, flush0_2 _, mem_pt0 i⟩

/-! ## custom_call 1: the output window's blocks (rows 2000 t … 2000 t + 1999, every column) -/

/-- The output window's index map on the five grid points: block row `t`, block column 0. -/
theorem idx_facts1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)

/-- An index of the output array is in point `t`'s block iff each coordinate is in the block's range on its axis. -/
theorem mem_blk1_2 (t : Fin cfg1.N) (i : S10000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v12).slice (win1_2.rect t)).set ↔ _
  rw [View.set_slice_whole, Rect.mem_set_unit]
  exact Iff.rfl

/-- The same in numbers: row `i 0` lies among the 2000 rows that start at row `2000 t`. -/
theorem mem_blk1_2_iff (t : Fin cfg1.N) (i : S10000x256.Idx) :
    i ∈ ((cfg1.win 2).blk t).view.set ↔ t.val * 2000 ≤ (i 0).val ∧ (i 0).val < t.val * 2000 + 2000 := by
  rw [mem_blk1_2]
  obtain ⟨e0, e1⟩ := idx_facts1_2 t
  have hi1 : (i 1).val < 256 := (i 1).isLt
  constructor
  · intro h
    have h0 : win1_2.index t (0 : Fin 2) * 2000 ≤ (i 0).val ∧ (i 0).val < win1_2.index t (0 : Fin 2) * 2000 + 2000 := h 0
    rw [e0] at h0; exact h0
  · intro h a
    match a with
    | ⟨0, _⟩ =>
      show win1_2.index t (0 : Fin 2) * 2000 ≤ (i 0).val ∧ (i 0).val < win1_2.index t (0 : Fin 2) * 2000 + 2000
      rw [e0]; exact h
    | ⟨1, _⟩ =>
      show win1_2.index t (1 : Fin 2) * 256 ≤ (i 1).val ∧ (i 1).val < win1_2.index t (1 : Fin 2) * 256 + 256
      rw [e1]; omega

/-- The grid point whose block holds row `r` of the output: `r / 2000`. -/
def pt1 (i : S10000x256.Idx) : Fin cfg1.N :=
  ⟨(i 0).val / 2000, by have h : (i 0).val < 10000 := (i 0).isLt; show (i 0).val / 2000 < grid1.N; rw [N_1]; omega⟩

theorem pt1_val (i : S10000x256.Idx) : (pt1 i).val = (i 0).val / 2000 := rfl

/-- Every index of the output array lies in the block of the point that covers it. -/
theorem mem_pt1 (i : S10000x256.Idx) : i ∈ ((cfg1.win 2).blk (pt1 i)).view.set := by
  rw [mem_blk1_2_iff, pt1_val]; omega

/-- THE COVER, as `Dat.arrAt_eq_of_cover` takes it: every index of the output array is in some flushing point's block. -/
theorem cover1_2 (c : Dev nD) :
    ∀ i : ((cfg1.win 2).arr.view.loc (c.tc : Thread nD τ)).2.ty.Idx,
      ∃ t : Fin cfg1.N, (cfg1.win 2).flush t = true ∧ i ∈ ((cfg1.win 2).blk t).view.set :=
  fun i => ⟨pt1 i, flush1_2 _, mem_pt1 i⟩

/-! ## custom_call 2: the output window's blocks (rows 2000 t … 2000 t + 1999, every column) -/

/-- The output window's index map on the five grid points: block row `t`, block column 0. -/
theorem idx_facts2_2 : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)

/-- An index of the output array is in point `t`'s block iff each coordinate is in the block's range on its axis. -/
theorem mem_blk2_2 (t : Fin cfg2.N) (i : S10000x20.Idx) :
    i ∈ ((cfg2.win 2).blk t).view.set ↔ ∀ a : Fin 2, win2_2.index t a * S2000x20.size a ≤ (i a).val ∧ (i a).val < win2_2.index t a * S2000x20.size a + S2000x20.size a := by
  show i ∈ ((View.whole main_v24).slice (win2_2.rect t)).set ↔ _
  rw [View.set_slice_whole, Rect.mem_set_unit]
  exact Iff.rfl

/-- The same in numbers: row `i 0` lies among the 2000 rows that start at row `2000 t`. -/
theorem mem_blk2_2_iff (t : Fin cfg2.N) (i : S10000x20.Idx) :
    i ∈ ((cfg2.win 2).blk t).view.set ↔ t.val * 2000 ≤ (i 0).val ∧ (i 0).val < t.val * 2000 + 2000 := by
  rw [mem_blk2_2]
  obtain ⟨e0, e1⟩ := idx_facts2_2 t
  have hi1 : (i 1).val < 20 := (i 1).isLt
  constructor
  · intro h
    have h0 : win2_2.index t (0 : Fin 2) * 2000 ≤ (i 0).val ∧ (i 0).val < win2_2.index t (0 : Fin 2) * 2000 + 2000 := h 0
    rw [e0] at h0; exact h0
  · intro h a
    match a with
    | ⟨0, _⟩ =>
      show win2_2.index t (0 : Fin 2) * 2000 ≤ (i 0).val ∧ (i 0).val < win2_2.index t (0 : Fin 2) * 2000 + 2000
      rw [e0]; exact h
    | ⟨1, _⟩ =>
      show win2_2.index t (1 : Fin 2) * 20 ≤ (i 1).val ∧ (i 1).val < win2_2.index t (1 : Fin 2) * 20 + 20
      rw [e1]; omega

/-- The grid point whose block holds row `r` of the output: `r / 2000`. -/
def pt2 (i : S10000x20.Idx) : Fin cfg2.N :=
  ⟨(i 0).val / 2000, by have h : (i 0).val < 10000 := (i 0).isLt; show (i 0).val / 2000 < grid2.N; rw [N_2]; omega⟩

theorem pt2_val (i : S10000x20.Idx) : (pt2 i).val = (i 0).val / 2000 := rfl

/-- Every index of the output array lies in the block of the point that covers it. -/
theorem mem_pt2 (i : S10000x20.Idx) : i ∈ ((cfg2.win 2).blk (pt2 i)).view.set := by
  rw [mem_blk2_2_iff, pt2_val]; omega

/-- THE COVER, as `Dat.arrAt_eq_of_cover` takes it: every index of the output array is in some flushing point's block. -/
theorem cover2_2 (c : Dev nD) :
    ∀ i : ((cfg2.win 2).arr.view.loc (c.tc : Thread nD τ)).2.ty.Idx,
      ∃ t : Fin cfg2.N, (cfg2.win 2).flush t = true ∧ i ∈ ((cfg2.win 2).blk t).view.set :=
  fun i => ⟨pt2 i, flush2_2 _, mem_pt2 i⟩

/-! ## custom_call 3: the decoder's output blocks (rows 1000 p …, columns 2048 q …, the last column block cut) -/

/-- The output window's index map and cut sizes on the fifty grid points: point `t` is block row `t / 5`, block
    column `t % 5`; all 1000 rows of the block are inside the array, and of its 2048 columns all but at the last
    block column, where 1808 are. -/
theorem idx_facts3_2 : ∀ t : Fin cfg3.N, win3_2.index t (0 : Fin 2) = t.val / 5 ∧ win3_2.index t (1 : Fin 2) = t.val % 5
    ∧ win3_2.xsize (grid3.coords t) (0 : Fin 2) = 1000
    ∧ win3_2.xsize (grid3.coords t) (1 : Fin 2) = (if t.val % 5 = 4 then 1808 else 2048) :=
  (by decide +kernel : ∀ t : Fin grid3.N, win3_2.index t (0 : Fin 2) = t.val / 5 ∧ win3_2.index t (1 : Fin 2) = t.val % 5
    ∧ win3_2.xsize (grid3.coords t) (0 : Fin 2) = 1000
    ∧ win3_2.xsize (grid3.coords t) (1 : Fin 2) = (if t.val % 5 = 4 then 1808 else 2048))

/-- An index of the output array is in point `t`'s block iff each coordinate is in the range, on its axis, of the
    block's part inside the array. -/
theorem mem_blk3_2 (t : Fin cfg3.N) (i : S10000x10000.Idx) :
    i ∈ ((cfg3.win 2).blk t).view.set ↔ ∀ a : Fin 2, win3_2.index t a * S1000x2048.size a ≤ (i a).val ∧ (i a).val < win3_2.index t a * S1000x2048.size a + win3_2.xsize (grid3.coords t) a := by
  show i ∈ ((View.whole main_v36).slice (win3_2.rect t)).set ↔ _
  rw [View.set_slice_whole, Rect.mem_set_unit]
  exact Iff.rfl

/-- The same in numbers. The cut at the last block column says nothing more than that the column is inside the
    array: 4 · 2048 + 1808 = 10000. -/
theorem mem_blk3_2_iff (t : Fin cfg3.N) (i : S10000x10000.Idx) :
    i ∈ ((cfg3.win 2).blk t).view.set ↔
      t.val / 5 * 1000 ≤ (i 0).val ∧ (i 0).val < t.val / 5 * 1000 + 1000 ∧ t.val % 5 * 2048 ≤ (i 1).val ∧ (i 1).val < t.val % 5 * 2048 + 2048 := by
  rw [mem_blk3_2]
  obtain ⟨e0, e1, x0, x1⟩ := idx_facts3_2 t
  have hi1 : (i 1).val < 10000 := (i 1).isLt
  constructor
  · intro h
    have h0 : win3_2.index t (0 : Fin 2) * 1000 ≤ (i 0).val ∧ (i 0).val < win3_2.index t (0 : Fin 2) * 1000 + win3_2.xsize (grid3.coords t) (0 : Fin 2) := h 0
    have h1 : win3_2.index t (1 : Fin 2) * 2048 ≤ (i 1).val ∧ (i 1).val < win3_2.index t (1 : Fin 2) * 2048 + win3_2.xsize (grid3.coords t) (1 : Fin 2) := h 1
    rw [e0, x0] at h0; rw [e1, x1] at h1
    split at h1 <;> omega
  · intro h a
    match a with
    | ⟨0, _⟩ =>
      show win3_2.index t (0 : Fin 2) * 1000 ≤ (i 0).val ∧ (i 0).val < win3_2.index t (0 : Fin 2) * 1000 + win3_2.xsize (grid3.coords t) (0 : Fin 2)
      rw [e0, x0]; omega
    | ⟨1, _⟩ =>
      show win3_2.index t (1 : Fin 2) * 2048 ≤ (i 1).val ∧ (i 1).val < win3_2.index t (1 : Fin 2) * 2048 + win3_2.xsize (grid3.coords t) (1 : Fin 2)
      rw [e1, x1]
      split <;> omega

/-- The grid point whose block holds entry (r, s) of the output: `5 (r / 1000) + s / 2048`. -/
def pt3 (i : S10000x10000.Idx) : Fin cfg3.N :=
  ⟨(i 0).val / 1000 * 5 + (i 1).val / 2048, by
    have h0 : (i 0).val < 10000 := (i 0).isLt
    have h1 : (i 1).val < 10000 := (i 1).isLt
    show (i 0).val / 1000 * 5 + (i 1).val / 2048 < grid3.N; rw [N_3]; omega⟩

theorem pt3_val (i : S10000x10000.Idx) : (pt3 i).val = (i 0).val / 1000 * 5 + (i 1).val / 2048 := rfl

/-- Every index of the output array lies in the block of the point that covers it. -/
theorem mem_pt3 (i : S10000x10000.Idx) : i ∈ ((cfg3.win 2).blk (pt3 i)).view.set := by
  have h1 : (i 1).val < 10000 := (i 1).isLt
  rw [mem_blk3_2_iff, pt3_val]; omega

/-- THE COVER, as `Dat.arrAt_eq_of_cover` takes it: every index of the output array is in some flushing point's block. -/
theorem cover3_2 (c : Dev nD) :
    ∀ i : ((cfg3.win 2).arr.view.loc (c.tc : Thread nD τ)).2.ty.Idx,
      ∃ t : Fin cfg3.N, (cfg3.win 2).flush t = true ∧ i ∈ ((cfg3.win 2).blk t).view.set :=
  fun i => ⟨pt3 i, flush3_2 _, mem_pt3 i⟩

end Cert.KernelIdeal.Hand

end
-- ==== Proof.IdealSpec.lean ====
/-
  The three dense layers of the encoder as functions of whole arrays, at the extended reals.

  Each layer multiplies a matrix of 10000 rows by a weight matrix; the first two then apply the leaky
  rectifier with slope 0.2: an entry that is at least zero is kept, a smaller one is scaled by the slope.
  They are written here with the operations the reference program itself applies, in its order: the host's
  product of the whole matrices; the comparison "at least" against the zero scalar laid over the result's
  shape; the slope scalar (through the reference's format conversion, which changes nothing at a scalar of
  the same format) laid over the shape and multiplied in; and the choice between the product and the
  scaled product by the comparison. So the reference's own value of a layer is the layer's function here
  by unfolding. The third layer is the product alone.

  `rows t` places row `a` of the `t`-th block of 2000 rows at row `2000 t + a` of the array of 10000 rows,
  keeping the column.
-/
import proofs.«103742_g75840532512942_cont_9to1_m_1342_3_alg».proof.Proof.Gen.KernelIdeal
import proofs.«103742_g75840532512942_cont_9to1_m_1342_3_alg».proof.Proof.Gen.ReferenceIdeal
import Idealize.ShloMosaic.Lib.ValueIdx

noncomputable section

namespace Cert.Spec

open Idealize.ShloMosaic Idealize.ShloMosaic.ValueIdx

/-- Row `a` of block `t` of 2000 rows is row `2000 t + a` of the 10000; the column is kept. -/
def rows {n : Nat} (t : Fin 5) (y : (⟨2, ![2000, n]⟩ : Shape).Idx) : (⟨2, ![10000, n]⟩ : Shape).Idx :=
  ix2 (⟨t.val * 2000 + (y 0).val, by have := idx2_lt0 y; have := t.isLt; omega⟩ : Fin 10000) (y 1)

@[simp] theorem rows_row {n : Nat} (t : Fin 5) (y : (⟨2, ![2000, n]⟩ : Shape).Idx) :
    ((rows t y 0 : Fin _) : Nat) = t.val * 2000 + (y 0).val := rfl

@[simp] theorem rows_col {n : Nat} (t : Fin 5) (y : (⟨2, ![2000, n]⟩ : Shape).Idx) : rows t y 1 = y 1 := rfl

/-- The first layer: `X · W` (10000×128 by 128×128), then the leaky rectifier with slope 0.2. -/
def lin0 (X : Vec Ideal Cert.ReferenceIdeal.S10000x128 .f32) (W : Vec Ideal Cert.ReferenceIdeal.S128x128 .f32) :
    Vec Ideal Cert.ReferenceIdeal.S10000x128 .f32 :=
  select
    (cmpf (F := Ideal) (φ := .f32) .oge
      (Host.dotGeneral (F := Ideal) (φ₁ := .f32) (φ₂ := .f32) Cert.ReferenceIdeal.dot_S10000x128_S128x128_S10000x128_1_0_0_1_n_n none X W)
      (broadcastInDim Cert.ReferenceIdeal.S10000x128 ![] Cert.ReferenceIdeal.Facts₀.bcast_S_S10000x128
        (constant (F := Ideal) Cert.ReferenceIdeal.S_ .f32 0x00000000#32)))
    (Host.dotGeneral (F := Ideal) (φ₁ := .f32) (φ₂ := .f32) Cert.ReferenceIdeal.dot_S10000x128_S128x128_S10000x128_1_0_0_1_n_n none X W)
    (mulf (F := Ideal) (φ := .f32)
      (broadcastInDim Cert.ReferenceIdeal.S10000x128 ![] Cert.ReferenceIdeal.Facts₀.bcast_S_S10000x128
        (id (constant (F := Ideal) Cert.ReferenceIdeal.S_ .f32 0x3E4CCCCD#32)))
      (Host.dotGeneral (F := Ideal) (φ₁ := .f32) (φ₂ := .f32) Cert.ReferenceIdeal.dot_S10000x128_S128x128_S10000x128_1_0_0_1_n_n none X W))

/-- The second layer: `X · W` (10000×128 by 128×256), then the leaky rectifier with slope 0.2. -/
def lin1 (X : Vec Ideal Cert.ReferenceIdeal.S10000x128 .f32) (W : Vec Ideal Cert.ReferenceIdeal.S128x256 .f32) :
    Vec Ideal Cert.ReferenceIdeal.S10000x256 .f32 :=
  select
    (cmpf (F := Ideal) (φ := .f32) .oge
      (Host.dotGeneral (F := Ideal) (φ₁ := .f32) (φ₂ := .f32) Cert.ReferenceIdeal.dot_S10000x128_S128x256_S10000x256_1_0_0_1_n_n none X W)
      (broadcastInDim Cert.ReferenceIdeal.S10000x256 ![] Cert.ReferenceIdeal.Facts₀.bcast_S_S10000x256
        (constant (F := Ideal) Cert.ReferenceIdeal.S_ .f32 0x00000000#32)))
    (Host.dotGeneral (F := Ideal) (φ₁ := .f32) (φ₂ := .f32) Cert.ReferenceIdeal.dot_S10000x128_S128x256_S10000x256_1_0_0_1_n_n none X W)
    (mulf (F := Ideal) (φ := .f32)
      (broadcastInDim Cert.ReferenceIdeal.S10000x256 ![] Cert.ReferenceIdeal.Facts₀.bcast_S_S10000x256
        (id (constant (F := Ideal) Cert.ReferenceIdeal.S_ .f32 0x3E4CCCCD#32)))
      (Host.dotGeneral (F := Ideal) (φ₁ := .f32) (φ₂ := .f32) Cert.ReferenceIdeal.dot_S10000x128_S128x256_S10000x256_1_0_0_1_n_n none X W))

/-- The third layer: `X · W` (10000×256 by 256×20), with no activation. -/
def lin2 (X : Vec Ideal Cert.ReferenceIdeal.S10000x256 .f32) (W : Vec Ideal Cert.ReferenceIdeal.S256x20 .f32) :
    Vec Ideal Cert.ReferenceIdeal.S10000x20 .f32 :=
  Host.dotGeneral (F := Ideal) (φ₁ := .f32) (φ₂ := .f32) Cert.ReferenceIdeal.dot_S10000x256_S256x20_S10000x20_1_0_0_1_n_n none X W

end Cert.Spec

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.IdealLinVals.lean ====
/-
  The three dense layers, block of rows by block of rows, at the extended reals.

  A layer's kernel works on one block of 2000 rows at a time: it multiplies the block by the whole weight
  matrix into a zero accumulator and (first two layers) applies the leaky rectifier with slope 0.2, written
  as "keep the entry if it is greater than zero, else scale it". The layer as a function of whole arrays
  (`Cert.Spec.lin0`, `lin1`, `lin2`) multiplies all 10000 rows at once and keeps an entry if it is at
  least zero. Block `t` of the whole result is the kernel's value on block `t` of the input:

  * row `2000 t + a` of `X · W` is the sum over the contracted coordinate of products of entries of that
    row of `X` with entries of `W`, and so is row `a` of (block `t` of `X`) `· W`; adding the sum to a zero
    accumulator changes nothing;
  * the two rectifiers differ only in which branch an entry equal to zero takes, and there both branches
    give zero: the kept entry is `0`, the scaled one is `slope * 0 = 0` (on the extended reals a product
    with `0` is `0` whatever the other factor). Above zero both keep the entry (`⊤` too), below zero both
    scale it (`⊥` too).
-/
import proofs.«103742_g75840532512942_cont_9to1_m_1342_3_alg».proof.Proof.Gen.KernelIdeal.Skeleton
import proofs.«103742_g75840532512942_cont_9to1_m_1342_3_alg».proof.Proof.IdealSpec
import proofs.«103742_g75840532512942_cont_9to1_m_1342_3_alg».proof.Proof.LibRowBlockDot
import Idealize.ShloMosaic.PureOps.Ideal.Laws

noncomputable section

namespace Cert.Spec

open Idealize.ShloMosaic Idealize.ShloMosaic.ValueIdx

/-- "Greater than zero" and "at least zero" choose the same value between `a` and `s * a`: they disagree
    on the branch only at `a = 0`, where `a` and `s * a` are both `0`. -/
theorem leaky_choice (s a : EReal) :
    Scalar.select (Ideal.cmp .ogt a 0) a (s * a) = Scalar.select (Ideal.cmp .oge a 0) a (s * a) := by
  simp only [Ideal.cmp, Scalar.select]
  by_cases hpos : (0 : EReal) < a
  · simp [hpos, hpos.le]
  · by_cases hge : (0 : EReal) ≤ a
    · have h0 : a = 0 := le_antisymm (not_lt.mp hpos) hge
      subst h0
      simp
    · simp [hpos, hge]

/-- One entry of a rectified layer: the kernel's form over the entry `m` of its product and the
    reference's form over the entry `d` of the whole product agree when the two entries do. -/
theorem leaky_entry (m d : EReal) (h : m = d) :
    Scalar.select (FloatOps.cmpf (F := Ideal) (φ := .f32) .ogt m (Scalar.ofBits (F := Ideal) .f32 0x00000000#32)) m
        (FloatOps.mulf (F := Ideal) (φ := .f32) (Scalar.ofBits (F := Ideal) .f32 0x3E4CCCCD#32) m)
      = Scalar.select (FloatOps.cmpf (F := Ideal) (φ := .f32) .oge d (FloatOps.ofBits (F := Ideal) .f32 0x00000000#32)) d
        (FloatOps.mulf (F := Ideal) (φ := .f32) (FloatOps.ofBits (F := Ideal) .f32 0x3E4CCCCD#32) d) := by
  subst h
  have hz : Scalar.ofBits (F := Ideal) .f32 0x00000000#32 = (0 : EReal) := Ideal.ofBits_zero_f32
  rw [hz]
  exact leaky_choice _ m

/-- The row of the 10000 that row `a` of block `t` stands for. -/
def blockRow (t : Fin 5) (a : Fin 2000) : Fin 10000 := ⟨t.val * 2000 + a.val, by have := t.isLt; have := a.isLt; omega⟩

theorem rows_eq {n : Nat} (t : Fin 5) (y : (⟨2, ![2000, n]⟩ : Shape).Idx) : rows t y = ix2 (blockRow t (y 0)) (y 1) := rfl

/-- Layer one: block `t` of rows of the whole layer is the kernel's value on block `t` of `X` and all of `W`. -/
theorem pay0_rows (X : Vec Ideal Cert.ReferenceIdeal.S10000x128 .f32) (W : Vec Ideal Cert.ReferenceIdeal.S128x128 .f32)
    (t : Fin 5) :
    (fun y : Cert.KernelIdeal.S2000x128.Idx => lin0 X W (rows t y))
      = Cert.KernelIdeal.Gen.k0_pay1 (F := Ideal) (fun y => X (rows t y)) W := by
  funext y
  have hm : matmul (F := Ideal) (φ₁ := .f32) (φ₂ := .f32) Cert.KernelIdeal.dot_S2000x128_S128x128_S2000x128_1_0_0_1_n_n none
        (fun y => X (rows t y)) W (constant (F := Ideal) Cert.KernelIdeal.S2000x128 .f32 0x00000000#32) y
      = Host.dotGeneral (F := Ideal) (φ₁ := .f32) (φ₂ := .f32)
          Cert.ReferenceIdeal.dot_S10000x128_S128x128_S10000x128_1_0_0_1_n_n none X W (rows t y) :=
    Cert.LibRowBlockDot.matmul_rowBlock_apply_idx (M := 10000) (m := 2000) (K := 128) (N := 128) (φ₁ := .f32) (φ₂ := .f32)
      (ψ₁ := .f32) (ψ₂ := .f32) none none X W (fun y => X (rows t y)) W (blockRow t)
      (fun _ _ => rfl) (fun _ _ => rfl) y (rows t y) rfl rfl
  exact (leaky_entry _ _ hm).symm

/-- A cast of a vector to its own shape leaves it as it is: the row-major renumbering of a shape onto
    itself is the identity. -/
theorem shapeCast_same {s : Shape} {α : Type} (v : s.Idx → α) (h : s.ShapeCasts s) : shapeCast s v h = v :=
  funext fun i => congrArg v (Shape.reshapeEquiv_self _ i)

/-- Layer two: block `t` of rows of the whole layer is the kernel's value on block `t` of `X` and all of `W`
    (the kernel first casts the block to its own shape, which changes nothing). -/
theorem pay1_rows (X : Vec Ideal Cert.ReferenceIdeal.S10000x128 .f32) (W : Vec Ideal Cert.ReferenceIdeal.S128x256 .f32)
    (t : Fin 5) :
    (fun y : Cert.KernelIdeal.S2000x256.Idx => lin1 X W (rows t y))
      = Cert.KernelIdeal.Gen.k1_pay1 (F := Ideal) (fun y => X (rows t y)) W := by
  funext y
  have hm : matmul (F := Ideal) (φ₁ := .f32) (φ₂ := .f32) Cert.KernelIdeal.dot_S2000x128_S128x256_S2000x256_1_0_0_1_n_n none
        (shapeCast Cert.KernelIdeal.S2000x128 (fun y => X (rows t y)) Cert.KernelIdeal.Gen.shapeCasts_S2000x128_S2000x128) W
        (constant (F := Ideal) Cert.KernelIdeal.S2000x256 .f32 0x00000000#32) y
      = Host.dotGeneral (F := Ideal) (φ₁ := .f32) (φ₂ := .f32)
          Cert.ReferenceIdeal.dot_S10000x128_S128x256_S10000x256_1_0_0_1_n_n none X W (rows t y) := by
    rw [shapeCast_same]
    exact Cert.LibRowBlockDot.matmul_rowBlock_apply_idx (M := 10000) (m := 2000) (K := 128) (N := 256) (φ₁ := .f32)
      (φ₂ := .f32) (ψ₁ := .f32) (ψ₂ := .f32) none none X W (fun y => X (rows t y)) W (blockRow t)
      (fun _ _ => rfl) (fun _ _ => rfl) y (rows t y) rfl rfl
  exact (leaky_entry _ _ hm).symm

/-- Layer three: block `t` of rows of the whole product is the kernel's product of block `t` of `X` with all of
    `W` into the zero accumulator. -/
theorem pay2_rows (X : Vec Ideal Cert.ReferenceIdeal.S10000x256 .f32) (W : Vec Ideal Cert.ReferenceIdeal.S256x20 .f32)
    (t : Fin 5) :
    (fun y : Cert.KernelIdeal.S2000x20.Idx => lin2 X W (rows t y))
      = Cert.KernelIdeal.Gen.k2_pay1 (F := Ideal) (fun y => X (rows t y)) W := by
  funext y
  have hm : matmul (F := Ideal) (φ₁ := .f32) (φ₂ := .f32) Cert.KernelIdeal.dot_S2000x256_S256x20_S2000x20_1_0_0_1_n_n none
        (shapeCast Cert.KernelIdeal.S2000x256 (fun y => X (rows t y)) Cert.KernelIdeal.Gen.shapeCasts_S2000x256_S2000x256) W
        (constant (F := Ideal) Cert.KernelIdeal.S2000x20 .f32 0x00000000#32) y
      = Host.dotGeneral (F := Ideal) (φ₁ := .f32) (φ₂ := .f32)
          Cert.ReferenceIdeal.dot_S10000x256_S256x20_S10000x20_1_0_0_1_n_n none X W (rows t y) := by
    rw [shapeCast_same]
    exact Cert.LibRowBlockDot.matmul_rowBlock_apply_idx (M := 10000) (m := 2000) (K := 256) (N := 20) (φ₁ := .f32)
      (φ₂ := .f32) (ψ₁ := .f32) (ψ₂ := .f32) none none X W (fun y => X (rows t y)) W (blockRow t)
      (fun _ _ => rfl) (fun _ _ => rfl) y (rows t y) rfl rfl
  exact hm.symm

end Cert.Spec

end
-- ==== Proof.IdealFinals.lean ====
import proofs.«103742_g75840532512942_cont_9to1_m_1342_3_alg».proof.Proof.IdealRegA
import proofs.«103742_g75840532512942_cont_9to1_m_1342_3_alg».proof.Proof.IdealCovers
import proofs.«103742_g75840532512942_cont_9to1_m_1342_3_alg».proof.Proof.IdealLinVals
import Idealize.ShloMosaic.Lib.Pipeline.Value

/-!
# What the three dense layers leave in their result arrays, at the extended reals

Each of the three layer launches walks five blocks of 2000 rows.  At grid point `t` the activations' block is rows
`2000 t … 2000 t + 1999` of the input array (every column), the weights' block is the whole weight matrix, and
the block written back is rows `2000 t …` of the result array.  The body's value on those two input blocks is,
entry by entry, the same rows of the layer taken as a function of the whole arrays (block `t` of `X · W` is
(block `t` of `X`) `· W`, and the rectifier acts entrywise).  So every block written back is that block of ONE
whole-array function, the five blocks tile the 10000 rows, and the result array ends the region holding the layer
of the arrays the region found.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

-- the contents of the core's buffers when a region is entered, at the extended reals
variable (V : (c : Dev nD) → (b : Ref sig .tc) → Buf (Elt Ideal) ((c : Thread nD τ).loc b))

/-- The body's accesses start at row 0, column 0 of their buffers. -/
theorem zeroOffsets : (![0, 0] : Fin 2 → Nat) = fun _ => 0 := funext fun a => by fin_cases a <;> rfl

/-! ## Launch 0 -/

/-- The two input windows' index maps on the five grid points: the activations' block row is the point's number,
    its block column 0; the weights' block is always the one at (0, 0). -/
theorem idx_in0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0)

/-- Entry `y` of the activations' block at point `t` sits at row `2000 t + y 0`, column `y 1` of its array. -/
theorem emb0_0 (t : Fin cfg0.N) (y : S2000x128.Idx) :
    ((cfg0.win 0).blk t).view.emb y = Cert.Spec.rows (t.cast N_0) y := by
  obtain ⟨e0, e1, -, -⟩ := idx_in0 t
  funext a; apply Fin.ext
  match a with
  | ⟨0, _⟩ => show win0_0.index t (0 : Fin 2) * 2000 + 1 * (y 0).val = t.val * 2000 + (y 0).val; rw [e0]; omega
  | ⟨1, _⟩ => show win0_0.index t (1 : Fin 2) * 128 + 1 * (y 1).val = (y 1).val; rw [e1]; omega

/-- Entry `y` of the weights' block is entry `y` of the weight matrix, at every point. -/
theorem emb0_1 (t : Fin cfg0.N) (y : S128x128.Idx) : ((cfg0.win 1).blk t).view.emb y = y := by
  obtain ⟨-, -, e0, e1⟩ := idx_in0 t
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Entry `y` of the result's block at point `t` sits at row `2000 t + y 0`, column `y 1` of the result array. -/
theorem emb0_2 (t : Fin cfg0.N) (y : S2000x128.Idx) :
    ((cfg0.win 2).blk t).view.emb y = Cert.Spec.rows (t.cast N_0) y := by
  obtain ⟨e0, e1⟩ := idx_facts0_2 t
  funext a; apply Fin.ext
  match a with
  | ⟨0, _⟩ => show win0_2.index t (0 : Fin 2) * 2000 + 1 * (y 0).val = t.val * 2000 + (y 0).val; rw [e0]; omega
  | ⟨1, _⟩ => show win0_2.index t (1 : Fin 2) * 128 + 1 * (y 1).val = (y 1).val; rw [e1]; omega

/-- The activations' block at point `t` is rows `2000 t …` of the input array as the region finds it. -/
theorem iblk0_0_eq (c : Dev nD) (t : Fin cfg0.N) :
    iblk0 V c 0 t = fun y : S2000x128.Idx => V c main_arg0 (Cert.Spec.rows (t.cast N_0) y) :=
  funext fun y => congrArg (V c main_arg0) (emb0_0 t y)

/-- The weights' block at every point is the weight matrix as the region finds it. -/
theorem iblk0_1_eq (c : Dev nD) (t : Fin cfg0.N) : iblk0 V c 1 t = V c main_arg3 :=
  funext fun y => congrArg (V c main_arg3) (emb0_1 t y)

/-- WHAT POINT `t` WRITES BACK is rows `2000 t …` of the layer of the whole arrays. -/
theorem flushed0_eq (c : Dev nD) (t : Fin cfg0.N) :
    (dat0 V c).flushed 2 t = ((cfg0.win 2).blk t).view.read (Elt Ideal) (Cert.Spec.lin0 (V c main_arg0) (V c main_arg3)) := by
  show (cfg0.win 2).cut (grid0.coords t) ((dat0 V c).after 2 t) = _
  rw [after0_2]
  unfold out0_2
  rw [View.canon_unit_zero zeroOffsets]
  simp only [View.ld_unit_zero (S := S2000x128) zeroOffsets, View.ld_unit_zero (S := S128x128) zeroOffsets]
  refine (congrArg₂ (k0_pay1 (F := Ideal)) (iblk0_0_eq V c t) (iblk0_1_eq V c t)).trans ?_
  refine (Cert.Spec.pay0_rows (V c main_arg0) (V c main_arg3) (t.cast N_0)).symm.trans ?_
  funext y
  exact congrArg (Cert.Spec.lin0 (V c main_arg0) (V c main_arg3)) (emb0_2 t y).symm

/-- THE RESULT ARRAY after the region: the layer of the input array and the weights as the region found them. -/
theorem final0 (c : Dev nD) :
    (dat0 V c).arrAt 2 cfg0.N = Cert.Spec.lin0 (V c main_arg0) (V c main_arg3) :=
  (dat0 V c).arrAt_eq_of_cover 2 (Cert.Spec.lin0 (V c main_arg0) (V c main_arg3)) (fun t _ => flushed0_eq V c t) (cover0_2 c)

/-! ## Launch 1 -/

/-- The two input windows' index maps on the five grid points: the activations' block row is the point's number,
    its block column 0; the weights' block is always the one at (0, 0). -/
theorem idx_in1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0)

/-- Entry `y` of the activations' block at point `t` sits at row `2000 t + y 0`, column `y 1` of its array. -/
theorem emb1_0 (t : Fin cfg1.N) (y : S2000x128.Idx) :
    ((cfg1.win 0).blk t).view.emb y = Cert.Spec.rows (t.cast N_1) y := by
  obtain ⟨e0, e1, -, -⟩ := idx_in1 t
  funext a; apply Fin.ext
  match a with
  | ⟨0, _⟩ => show win1_0.index t (0 : Fin 2) * 2000 + 1 * (y 0).val = t.val * 2000 + (y 0).val; rw [e0]; omega
  | ⟨1, _⟩ => show win1_0.index t (1 : Fin 2) * 128 + 1 * (y 1).val = (y 1).val; rw [e1]; omega

/-- Entry `y` of the weights' block is entry `y` of the weight matrix, at every point. -/
theorem emb1_1 (t : Fin cfg1.N) (y : S128x256.Idx) : ((cfg1.win 1).blk t).view.emb y = y := by
  obtain ⟨-, -, e0, e1⟩ := idx_in1 t
  funext a; apply Fin.ext
  match a with
  | ⟨0, _⟩ => show win1_1.index t (0 : Fin 2) * 128 + 1 * (y 0).val = (y 0).val; rw [e0]; omega
  | ⟨1, _⟩ => show win1_1.index t (1 : Fin 2) * 256 + 1 * (y 1).val = (y 1).val; rw [e1]; omega

/-- Entry `y` of the result's block at point `t` sits at row `2000 t + y 0`, column `y 1` of the result array. -/
theorem emb1_2 (t : Fin cfg1.N) (y : S2000x256.Idx) :
    ((cfg1.win 2).blk t).view.emb y = Cert.Spec.rows (t.cast N_1) y := by
  obtain ⟨e0, e1⟩ := idx_facts1_2 t
  funext a; apply Fin.ext
  match a with
  | ⟨0, _⟩ => show win1_2.index t (0 : Fin 2) * 2000 + 1 * (y 0).val = t.val * 2000 + (y 0).val; rw [e0]; omega
  | ⟨1, _⟩ => show win1_2.index t (1 : Fin 2) * 256 + 1 * (y 1).val = (y 1).val; rw [e1]; omega

/-- The activations' block at point `t` is rows `2000 t …` of the input array as the region finds it. -/
theorem iblk1_0_eq (c : Dev nD) (t : Fin cfg1.N) :
    iblk1 V c 0 t = fun y : S2000x128.Idx => V c main_v11 (Cert.Spec.rows (t.cast N_1) y) :=
  funext fun y => congrArg (V c main_v11) (emb1_0 t y)

/-- The weights' block at every point is the weight matrix as the region finds it. -/
theorem iblk1_1_eq (c : Dev nD) (t : Fin cfg1.N) : iblk1 V c 1 t = V c main_arg4 :=
  funext fun y => congrArg (V c main_arg4) (emb1_1 t y)

/-- WHAT POINT `t` WRITES BACK is rows `2000 t …` of the layer of the whole arrays. -/
theorem flushed1_eq (c : Dev nD) (t : Fin cfg1.N) :
    (dat1 V c).flushed 2 t = ((cfg1.win 2).blk t).view.read (Elt Ideal) (Cert.Spec.lin1 (V c main_v11) (V c main_arg4)) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S128x256) zeroOffsets]
  refine (congrArg₂ (k1_pay1 (F := Ideal)) (iblk1_0_eq V c t) (iblk1_1_eq V c t)).trans ?_
  refine (Cert.Spec.pay1_rows (V c main_v11) (V c main_arg4) (t.cast N_1)).symm.trans ?_
  funext y
  exact congrArg (Cert.Spec.lin1 (V c main_v11) (V c main_arg4)) (emb1_2 t y).symm

/-- THE RESULT ARRAY after the region: the layer of the input array and the weights as the region found them. -/
theorem final1 (c : Dev nD) :
    (dat1 V c).arrAt 2 cfg1.N = Cert.Spec.lin1 (V c main_v11) (V c main_arg4) :=
  (dat1 V c).arrAt_eq_of_cover 2 (Cert.Spec.lin1 (V c main_v11) (V c main_arg4)) (fun t _ => flushed1_eq V c t) (cover1_2 c)

/-! ## Launch 2 -/

/-- The two input windows' index maps on the five grid points: the activations' block row is the point's number,
    its block column 0; the weights' block is always the one at (0, 0). -/
theorem idx_in2 : ∀ t : Fin cfg2.N, win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0)

/-- Entry `y` of the activations' block at point `t` sits at row `2000 t + y 0`, column `y 1` of its array. -/
theorem emb2_0 (t : Fin cfg2.N) (y : S2000x256.Idx) :
    ((cfg2.win 0).blk t).view.emb y = Cert.Spec.rows (t.cast N_2) y := by
  obtain ⟨e0, e1, -, -⟩ := idx_in2 t
  funext a; apply Fin.ext
  match a with
  | ⟨0, _⟩ => show win2_0.index t (0 : Fin 2) * 2000 + 1 * (y 0).val = t.val * 2000 + (y 0).val; rw [e0]; omega
  | ⟨1, _⟩ => show win2_0.index t (1 : Fin 2) * 256 + 1 * (y 1).val = (y 1).val; rw [e1]; omega

/-- Entry `y` of the weights' block is entry `y` of the weight matrix, at every point. -/
theorem emb2_1 (t : Fin cfg2.N) (y : S256x20.Idx) : ((cfg2.win 1).blk t).view.emb y = y := by
  obtain ⟨-, -, e0, e1⟩ := idx_in2 t
  funext a; apply Fin.ext
  match a with
  | ⟨0, _⟩ => show win2_1.index t (0 : Fin 2) * 256 + 1 * (y 0).val = (y 0).val; rw [e0]; omega
  | ⟨1, _⟩ => show win2_1.index t (1 : Fin 2) * 20 + 1 * (y 1).val = (y 1).val; rw [e1]; omega

/-- Entry `y` of the result's block at point `t` sits at row `2000 t + y 0`, column `y 1` of the result array. -/
theorem emb2_2 (t : Fin cfg2.N) (y : S2000x20.Idx) :
    ((cfg2.win 2).blk t).view.emb y = Cert.Spec.rows (t.cast N_2) y := by
  obtain ⟨e0, e1⟩ := idx_facts2_2 t
  funext a; apply Fin.ext
  match a with
  | ⟨0, _⟩ => show win2_2.index t (0 : Fin 2) * 2000 + 1 * (y 0).val = t.val * 2000 + (y 0).val; rw [e0]; omega
  | ⟨1, _⟩ => show win2_2.index t (1 : Fin 2) * 20 + 1 * (y 1).val = (y 1).val; rw [e1]; omega

/-- The activations' block at point `t` is rows `2000 t …` of the input array as the region finds it. -/
theorem iblk2_0_eq (c : Dev nD) (t : Fin cfg2.N) :
    iblk2 V c 0 t = fun y : S2000x256.Idx => V c main_v23 (Cert.Spec.rows (t.cast N_2) y) :=
  funext fun y => congrArg (V c main_v23) (emb2_0 t y)

/-- The weights' block at every point is the weight matrix as the region finds it. -/
theorem iblk2_1_eq (c : Dev nD) (t : Fin cfg2.N) : iblk2 V c 1 t = V c main_arg5 :=
  funext fun y => congrArg (V c main_arg5) (emb2_1 t y)

/-- WHAT POINT `t` WRITES BACK is rows `2000 t …` of the layer of the whole arrays. -/
theorem flushed2_eq (c : Dev nD) (t : Fin cfg2.N) :
    (dat2 V c).flushed 2 t = ((cfg2.win 2).blk t).view.read (Elt Ideal) (Cert.Spec.lin2 (V c main_v23) (V c main_arg5)) := by
  show (cfg2.win 2).cut (grid2.coords t) ((dat2 V c).after 2 t) = _
  rw [after2_2]
  unfold out2_2
  rw [View.canon_unit_zero zeroOffsets]
  simp only [View.ld_unit_zero (S := S2000x256) zeroOffsets, View.ld_unit_zero (S := S256x20) zeroOffsets]
  refine (congrArg₂ (k2_pay1 (F := Ideal)) (iblk2_0_eq V c t) (iblk2_1_eq V c t)).trans ?_
  refine (Cert.Spec.pay2_rows (V c main_v23) (V c main_arg5) (t.cast N_2)).symm.trans ?_
  funext y
  exact congrArg (Cert.Spec.lin2 (V c main_v23) (V c main_arg5)) (emb2_2 t y).symm

/-- THE RESULT ARRAY after the region: the layer of the input array and the weights as the region found them. -/
theorem final2 (c : Dev nD) :
    (dat2 V c).arrAt 2 cfg2.N = Cert.Spec.lin2 (V c main_v23) (V c main_arg5) :=
  (dat2 V c).arrAt_eq_of_cover 2 (Cert.Spec.lin2 (V c main_v23) (V c main_arg5)) (fun t _ => flushed2_eq V c t) (cover2_2 c)

end Cert.KernelIdeal.Hand

end
-- ==== Proof.IdealFinal3.lean ====
/-
  The decoder's output array after the run, at the extended reals.

  At every grid point the decoder's result window leaves in its staging buffer the block, at that point, of the
  whole-array function dec3 z (entry (r, s) the logistic function of the sum over k of z(r, k)·z(s, k)), filled out
  past the array's end with values nothing reads. The write-back moves the part of the buffer that lies inside the
  array, which is therefore exactly that block of dec3 z. The fifty blocks, the last column block cut at the array's
  end, cover the 10000 × 10000 array, and where two write-backs meet they write the same values. So the array ends
  the run holding dec3 z, z being the embedding as the region finds it.
-/
import proofs.«103742_g75840532512942_cont_9to1_m_1342_3_alg».proof.Proof.IdealReg3
import proofs.«103742_g75840532512942_cont_9to1_m_1342_3_alg».proof.Proof.IdealCovers

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole-array function of the embedding, entry by entry. -/
theorem dec3_eq (z : Vec Ideal S10000x20 .f32) :
    dec3 z = fun i => Ideal.logistic (∑ k : Fin 20, z (ix2 (i 0) k) * z (ix2 (i 1) k)) := rfl

/-- THE RESULT ARRAY AFTER THE RUN: every point writes back its block, cut at the array's end, of `dec3` of the embedding
    (`flushed3_2`), and those blocks cover the array, so it ends holding `dec3` of the embedding. -/
theorem final3 (c : Dev nD) : (dat3 V c).arrAt 2 cfg3.N = dec3 (V c main_v35) :=
  (dat3 V c).arrAt_eq_of_cover 2 (dec3 (V c main_v35)) (fun t _ => flushed3_2 V c t) (cover3_2 c)

end Cert.KernelIdeal.Hand

end
-- ==== Proof.RefSpec.lean ====
/-
  The sparse half of each encoder layer as a function of whole arrays, at the extended reals.

  A layer's dense result is multiplied by the graph's adjacency matrix, which is given as a list of 320000
  edges: a table of two rows (the edge's row coordinate, then its column coordinate) and a weight per edge.
  Row `r` of the product is the sum over the edges with row coordinate `r` of the weight times row
  `col` of the dense matrix. The functions below are the operations both programs apply on the host for
  this, composed in their printed order and with their printed side-condition records: the two coordinate
  rows cut from the table and flattened, the row lookup (`take`), the weights laid across the columns, the
  lane-wise product, and the scatter-add into zeros. One copy per width (128, 256 and 20 columns).
-/
import proofs.«103742_g75840532512942_cont_9to1_m_1342_3_alg».proof.Proof.Gen.ReferenceIdeal
import Idealize.ShloMosaic.PureOps.Ideal

noncomputable section

namespace Cert.Spec

open Idealize.ShloMosaic Cert.ReferenceIdeal Cert.ReferenceIdeal.Facts₀

/-- Row lookup into a dense matrix of 128 columns, as the reference's `jnp.take(·, cols, axis=0)` computes it:
    an index below zero is first moved up by the number of rows; the moved index, as a column, is tested to lie
    in `0 … 9999`; row `e` of the result is row `idx e` of `dense` where the test holds and the quiet not-a-number
    pattern where it fails. -/
def take128 (dense : Vec Ideal S10000x128 .f32) (idx : IVec S320000 32) : Vec Ideal S320000x128 .f32 :=
  select
    (broadcastInDim S320000x128 ![0] bcast_S320000_S320000x128_0
      (Host.reduce IntOp.andi
        (andi
          (cmpi .sge
            (broadcastInDim S320000x1 ![0] bcast_S320000_S320000x1_0
              (select (cmpi .slt idx (broadcastInDim S320000 ![] bcast_S_S320000 (constantI S_ 32 0#32)))
                (addi idx (broadcastInDim S320000 ![] bcast_S_S320000 (constantI S_ 32 10000#32))) idx))
            (broadcastInDim S320000x1 ![] bcast_S_S320000x1 (constantI S_ 32 0#32)))
          (cmpi .sle
            (broadcastInDim S320000x1 ![0] bcast_S320000_S320000x1_0
              (select (cmpi .slt idx (broadcastInDim S320000 ![] bcast_S_S320000 (constantI S_ 32 0#32)))
                (addi idx (broadcastInDim S320000 ![] bcast_S_S320000 (constantI S_ 32 10000#32))) idx))
            (broadcastInDim S320000x1 ![0, 1] bcast_S1x1_S320000x1_0_1
              (broadcastInDim S1x1 ![1] bcast_S1_S1x1_1 (constantI S1 32 9999#32)))))
        (constantI S_ 1 1#1) reducesTo_S320000x1_S320000_d1 h_S_))
    (Host.gather gather_S10000x128_S320000x1_S320000x128_1_0_n_n_0_1_1128 dense
      (broadcastInDim S320000x1 ![0] bcast_S320000_S320000x1_0
        (select (cmpi .slt idx (broadcastInDim S320000 ![] bcast_S_S320000 (constantI S_ 32 0#32)))
          (addi idx (broadcastInDim S320000 ![] bcast_S_S320000 (constantI S_ 32 10000#32))) idx)))
    (broadcastInDim S320000x128 ![] bcast_S_S320000x128 (constant (F := Ideal) S_ .f32 0x7FC00000#32))

/-- The sparse product with the adjacency matrix in coordinate form, 128 columns wide: row `e` of the looked-up
    rows (at the edges' second coordinates) is scaled by the edge's weight, and the scaled rows are added into a
    zero matrix at the edges' first coordinates. -/
def spmm128 (dense : Vec Ideal S10000x128 .f32) (ei : IVec S2x320000 32) (ev : Vec Ideal S320000 .f32) :
    Vec Ideal S10000x128 .f32 :=
  Host.scatterAdd scatter_S10000x128_S320000x1_S320000x128_1_0_0_1
    (broadcastInDim S10000x128 ![] bcast_S_S10000x128 (constant (F := Ideal) S_ .f32 0x00000000#32))
    (broadcastInDim S320000x1 ![0] bcast_S320000_S320000x1_0
      (shapeCast S320000 (extractStridedSlice S1x320000 ![0, 0] ei slices_S2x320000_S1x320000_0_0) shapeCasts_S1x320000_S320000))
    (mulf
      (take128 dense
        (shapeCast S320000 (extractStridedSlice S1x320000 ![1, 0] ei slices_S2x320000_S1x320000_1_0) shapeCasts_S1x320000_S320000))
      (broadcastInDim S320000x128 ![0, 1] bcast_S320000x1_S320000x128_0_1
        (broadcastInDim S320000x1 ![0] bcast_S320000_S320000x1_0 ev)))

/-- Row lookup into a dense matrix of 256 columns, as the reference's `jnp.take(·, cols, axis=0)` computes it:
    an index below zero is first moved up by the number of rows; the moved index, as a column, is tested to lie
    in `0 … 9999`; row `e` of the result is row `idx e` of `dense` where the test holds and the quiet not-a-number
    pattern where it fails. -/
def take256 (dense : Vec Ideal S10000x256 .f32) (idx : IVec S320000 32) : Vec Ideal S320000x256 .f32 :=
  select
    (broadcastInDim S320000x256 ![0] bcast_S320000_S320000x256_0
      (Host.reduce IntOp.andi
        (andi
          (cmpi .sge
            (broadcastInDim S320000x1 ![0] bcast_S320000_S320000x1_0
              (select (cmpi .slt idx (broadcastInDim S320000 ![] bcast_S_S320000 (constantI S_ 32 0#32)))
                (addi idx (broadcastInDim S320000 ![] bcast_S_S320000 (constantI S_ 32 10000#32))) idx))
            (broadcastInDim S320000x1 ![] bcast_S_S320000x1 (constantI S_ 32 0#32)))
          (cmpi .sle
            (broadcastInDim S320000x1 ![0] bcast_S320000_S320000x1_0
              (select (cmpi .slt idx (broadcastInDim S320000 ![] bcast_S_S320000 (constantI S_ 32 0#32)))
                (addi idx (broadcastInDim S320000 ![] bcast_S_S320000 (constantI S_ 32 10000#32))) idx))
            (broadcastInDim S320000x1 ![0, 1] bcast_S1x1_S320000x1_0_1
              (broadcastInDim S1x1 ![1] bcast_S1_S1x1_1 (constantI S1 32 9999#32)))))
        (constantI S_ 1 1#1) reducesTo_S320000x1_S320000_d1 h_S_))
    (Host.gather gather_S10000x256_S320000x1_S320000x256_1_0_n_n_0_1_1256 dense
      (broadcastInDim S320000x1 ![0] bcast_S320000_S320000x1_0
        (select (cmpi .slt idx (broadcastInDim S320000 ![] bcast_S_S320000 (constantI S_ 32 0#32)))
          (addi idx (broadcastInDim S320000 ![] bcast_S_S320000 (constantI S_ 32 10000#32))) idx)))
    (broadcastInDim S320000x256 ![] bcast_S_S320000x256 (constant (F := Ideal) S_ .f32 0x7FC00000#32))

/-- The sparse product with the adjacency matrix in coordinate form, 256 columns wide: row `e` of the looked-up
    rows (at the edges' second coordinates) is scaled by the edge's weight, and the scaled rows are added into a
    zero matrix at the edges' first coordinates. -/
def spmm256 (dense : Vec Ideal S10000x256 .f32) (ei : IVec S2x320000 32) (ev : Vec Ideal S320000 .f32) :
    Vec Ideal S10000x256 .f32 :=
  Host.scatterAdd scatter_S10000x256_S320000x1_S320000x256_1_0_0_1
    (broadcastInDim S10000x256 ![] bcast_S_S10000x256 (constant (F := Ideal) S_ .f32 0x00000000#32))
    (broadcastInDim S320000x1 ![0] bcast_S320000_S320000x1_0
      (shapeCast S320000 (extractStridedSlice S1x320000 ![0, 0] ei slices_S2x320000_S1x320000_0_0) shapeCasts_S1x320000_S320000))
    (mulf
      (take256 dense
        (shapeCast S320000 (extractStridedSlice S1x320000 ![1, 0] ei slices_S2x320000_S1x320000_1_0) shapeCasts_S1x320000_S320000))
      (broadcastInDim S320000x256 ![0, 1] bcast_S320000x1_S320000x256_0_1
        (broadcastInDim S320000x1 ![0] bcast_S320000_S320000x1_0 ev)))

/-- Row lookup into a dense matrix of 20 columns, as the reference's `jnp.take(·, cols, axis=0)` computes it:
    an index below zero is first moved up by the number of rows; the moved index, as a column, is tested to lie
    in `0 … 9999`; row `e` of the result is row `idx e` of `dense` where the test holds and the quiet not-a-number
    pattern where it fails. -/
def take20 (dense : Vec Ideal S10000x20 .f32) (idx : IVec S320000 32) : Vec Ideal S320000x20 .f32 :=
  select
    (broadcastInDim S320000x20 ![0] bcast_S320000_S320000x20_0
      (Host.reduce IntOp.andi
        (andi
          (cmpi .sge
            (broadcastInDim S320000x1 ![0] bcast_S320000_S320000x1_0
              (select (cmpi .slt idx (broadcastInDim S320000 ![] bcast_S_S320000 (constantI S_ 32 0#32)))
                (addi idx (broadcastInDim S320000 ![] bcast_S_S320000 (constantI S_ 32 10000#32))) idx))
            (broadcastInDim S320000x1 ![] bcast_S_S320000x1 (constantI S_ 32 0#32)))
          (cmpi .sle
            (broadcastInDim S320000x1 ![0] bcast_S320000_S320000x1_0
              (select (cmpi .slt idx (broadcastInDim S320000 ![] bcast_S_S320000 (constantI S_ 32 0#32)))
                (addi idx (broadcastInDim S320000 ![] bcast_S_S320000 (constantI S_ 32 10000#32))) idx))
            (broadcastInDim S320000x1 ![0, 1] bcast_S1x1_S320000x1_0_1
              (broadcastInDim S1x1 ![1] bcast_S1_S1x1_1 (constantI S1 32 9999#32)))))
        (constantI S_ 1 1#1) reducesTo_S320000x1_S320000_d1 h_S_))
    (Host.gather gather_S10000x20_S320000x1_S320000x20_1_0_n_n_0_1_120 dense
      (broadcastInDim S320000x1 ![0] bcast_S320000_S320000x1_0
        (select (cmpi .slt idx (broadcastInDim S320000 ![] bcast_S_S320000 (constantI S_ 32 0#32)))
          (addi idx (broadcastInDim S320000 ![] bcast_S_S320000 (constantI S_ 32 10000#32))) idx)))
    (broadcastInDim S320000x20 ![] bcast_S_S320000x20 (constant (F := Ideal) S_ .f32 0x7FC00000#32))

/-- The sparse product with the adjacency matrix in coordinate form, 20 columns wide: row `e` of the looked-up
    rows (at the edges' second coordinates) is scaled by the edge's weight, and the scaled rows are added into a
    zero matrix at the edges' first coordinates. -/
def spmm20 (dense : Vec Ideal S10000x20 .f32) (ei : IVec S2x320000 32) (ev : Vec Ideal S320000 .f32) :
    Vec Ideal S10000x20 .f32 :=
  Host.scatterAdd scatter_S10000x20_S320000x1_S320000x20_1_0_0_1
    (broadcastInDim S10000x20 ![] bcast_S_S10000x20 (constant (F := Ideal) S_ .f32 0x00000000#32))
    (broadcastInDim S320000x1 ![0] bcast_S320000_S320000x1_0
      (shapeCast S320000 (extractStridedSlice S1x320000 ![0, 0] ei slices_S2x320000_S1x320000_0_0) shapeCasts_S1x320000_S320000))
    (mulf
      (take20 dense
        (shapeCast S320000 (extractStridedSlice S1x320000 ![1, 0] ei slices_S2x320000_S1x320000_1_0) shapeCasts_S1x320000_S320000))
      (broadcastInDim S320000x20 ![0, 1] bcast_S320000x1_S320000x20_0_1
        (broadcastInDim S320000x1 ![0] bcast_S320000_S320000x1_0 ev)))

end Cert.Spec

end
-- ==== Proof.SpecEnc.lean ====
/-
  The encoder as one function of the six argument arrays: three graph-convolution layers, each a dense
  stage (a product with the layer's weights, followed in the first two layers by the leaky rectifier of slope 0.2)
  and then the sparse aggregation over the edge list (gather the source rows, scale by the edge values,
  add into the destination rows); the decoder is the logistic of the Gram matrix of the encoding.
  Both programs compute these two arrays; this module only names them.
-/
import proofs.«103742_g75840532512942_cont_9to1_m_1342_3_alg».proof.Proof.IdealSpec
import proofs.«103742_g75840532512942_cont_9to1_m_1342_3_alg».proof.Proof.RefSpec

noncomputable section

namespace Cert.Spec

open Idealize.ShloMosaic Cert.ReferenceIdeal

/-- The encoding `z`: layer 3's aggregation of layer 3's product, of layer 2's, of layer 1's. -/
def enc (x : Vec Ideal S10000x128 .f32) (ei : IVec S2x320000 32) (ev : Vec Ideal S320000 .f32)
    (w1 : Vec Ideal S128x128 .f32) (w2 : Vec Ideal S128x256 .f32) (w3 : Vec Ideal S256x20 .f32) : Vec Ideal S10000x20 .f32 :=
  spmm20 (lin2 (spmm256 (lin1 (spmm128 (lin0 x w1) ei ev) w2) ei ev) w3) ei ev

end Cert.Spec

end
-- ==== Proof.IdealHostChains.lean ====
/-
  The sparse product on the host, read back from the kernel program's three host stretches per layer.

  Between two dense layers the kernel program multiplies the layer's result by the graph's adjacency matrix on
  the host, in three stretches of operations: the first cuts the two coordinate rows out of the edge table and
  flattens them; the second looks up, for every edge, the row of the dense matrix at the edge's column
  coordinate (an index below zero moved up by the number of rows, an index out of range answered by the
  not-a-number pattern); the third lays the edge weights across the columns, multiplies, and scatter-adds the
  scaled rows into a zero matrix at the edges' row coordinates. The buffer contents after a stretch are a fold
  of its operations over the contents before it; below the fold is evaluated at the buffers that matter, for
  arbitrary contents before the first stretch, and the three evaluations are composed: the result buffer holds
  `Cert.Spec.spmm…` of the dense matrix, the edge table and the weights, and every buffer that no operation
  of the three stretches writes holds what it held. The kernel program and the reference state their side
  conditions (shapes that broadcast, slice, gather and scatter) in records of their own; the two records of one
  operation have the same fields, so a term over the one is the term over the other.
-/
import proofs.«103742_g75840532512942_cont_9to1_m_1342_3_alg».proof.Proof.Gen.KernelIdeal.Regions
import proofs.«103742_g75840532512942_cont_9to1_m_1342_3_alg».proof.Proof.RefSpec
import Idealize.ShloMosaic.Lib.StableHlo.Run
import Idealize.ShloMosaic.PureOps.Ideal

set_option pp.maxSteps 3000
set_option pp.deepTerms false
-- deciding that a reference is not among the twenty-three a stretch writes recurses past the default depth
set_option maxRecDepth 4096

noncomputable section

namespace Cert.KernelIdeal.Hand

open Idealize.ShloMosaic Idealize.ShloMosaic.TcCoe
open Idealize.SL.Sem
open Cert.KernelIdeal Cert.KernelIdeal.Gen

/-! ## Layer 1 (128 columns) -/

/-- After the first stretch, `main_v2` holds the table's row 0 (the edges' row coordinates), flattened. -/
theorem rowCoords1 (X : Valuation τ sig (Elt Ideal)) :
    StableHlo.after (hostOps1 (F := Ideal)) X (Proc.devRef .tc main_v2)
      = shapeCast Cert.ReferenceIdeal.S320000
          (extractStridedSlice Cert.ReferenceIdeal.S1x320000 ![0, 0] (X (Proc.devRef .tc main_arg1))
            Cert.ReferenceIdeal.Facts₀.slices_S2x320000_S1x320000_0_0)
          Cert.ReferenceIdeal.Facts₀.shapeCasts_S1x320000_S320000 := by
  after_results
  rfl

/-- After the first stretch, `main_v4` holds the table's row 1 (the edges' column coordinates), flattened. -/
theorem colCoords1 (X : Valuation τ sig (Elt Ideal)) :
    StableHlo.after (hostOps1 (F := Ideal)) X (Proc.devRef .tc main_v4)
      = shapeCast Cert.ReferenceIdeal.S320000
          (extractStridedSlice Cert.ReferenceIdeal.S1x320000 ![1, 0] (X (Proc.devRef .tc main_arg1))
            Cert.ReferenceIdeal.Facts₀.slices_S2x320000_S1x320000_1_0)
          Cert.ReferenceIdeal.Facts₀.shapeCasts_S1x320000_S320000 := by
  after_results
  rfl

set_option maxHeartbeats 1000000 in
/-- After the second stretch, `main_v5` holds the rows of `main_v0` looked up at the indices in `main_v4`. Each
    operation of the stretch moves its operands and its result between a buffer's contents and the value's own
    type along an equation of types that holds by computation; those transports are identities. -/
theorem lookup1 (X : Valuation τ sig (Elt Ideal)) :
    StableHlo.after (hostOps1_1 (F := Ideal)) X (Proc.devRef .tc main_v5)
      = Cert.Spec.take128 (X (Proc.devRef .tc main_v0)) (X (Proc.devRef .tc main_v4)) := by
  after_results
  simp only [cast_eq]
  rfl

/-- After the third stretch, `main_v11` holds the scatter-add, into zeros at the indices in `main_v2`, of the rows in
    `main_v5` scaled by the weights in `main_arg2`. -/
theorem scatter1 (X : Valuation τ sig (Elt Ideal)) :
    StableHlo.after (hostOps1_2 (F := Ideal)) X (Proc.devRef .tc main_v11)
      = Host.scatterAdd Cert.ReferenceIdeal.scatter_S10000x128_S320000x1_S320000x128_1_0_0_1
          (broadcastInDim Cert.ReferenceIdeal.S10000x128 ![] Cert.ReferenceIdeal.Facts₀.bcast_S_S10000x128
            (constant (F := Ideal) Cert.ReferenceIdeal.S_ .f32 0x00000000#32))
          (broadcastInDim Cert.ReferenceIdeal.S320000x1 ![0] Cert.ReferenceIdeal.Facts₀.bcast_S320000_S320000x1_0
            (X (Proc.devRef .tc main_v2)))
          (mulf (F := Ideal) (φ := .f32) (X (Proc.devRef .tc main_v5))
            (broadcastInDim Cert.ReferenceIdeal.S320000x128 ![0, 1] Cert.ReferenceIdeal.Facts₀.bcast_S320000x1_S320000x128_0_1
              (broadcastInDim Cert.ReferenceIdeal.S320000x1 ![0] Cert.ReferenceIdeal.Facts₀.bcast_S320000_S320000x1_0
                (X (Proc.devRef .tc main_arg2))))) := by
  after_results
  rfl

/-- A buffer none of the three stretches writes holds after them what it held before. -/
theorem keep1 (X : Valuation τ sig (Elt Ideal)) (r : Ref sig .tc) (h0 : r ∉ hostOps1_W) (h1 : r ∉ hostOps1_1_W) (h2 : r ∉ hostOps1_2_W) :
    StableHlo.after (hostOps1_2 (F := Ideal)) (StableHlo.after (hostOps1_1 (F := Ideal)) (StableHlo.after (hostOps1 (F := Ideal)) X)) (Proc.devRef .tc r)
      = X (Proc.devRef .tc r) := by
  rw [StableHlo.after_of_writes_sub (hostOps1_2 (F := Ideal)) _ hostOps1_2_writes h2,
    StableHlo.after_of_writes_sub (hostOps1_1 (F := Ideal)) _ hostOps1_1_writes h1,
    StableHlo.after_of_writes_sub (hostOps1 (F := Ideal)) _ hostOps1_writes h0]

/-- The three stretches together: `main_v11` ends holding the sparse product of what `main_v0` held with the
    adjacency matrix given by the edge table `main_arg1` and the weights `main_arg2`. -/
theorem chain1 (X : Valuation τ sig (Elt Ideal)) :
    StableHlo.after (hostOps1_2 (F := Ideal)) (StableHlo.after (hostOps1_1 (F := Ideal)) (StableHlo.after (hostOps1 (F := Ideal)) X)) (Proc.devRef .tc main_v11)
      = Cert.Spec.spmm128 (X (Proc.devRef .tc main_v0)) (X (Proc.devRef .tc main_arg1)) (X (Proc.devRef .tc main_arg2)) := by
  rw [scatter1, lookup1,
    StableHlo.after_of_writes_sub (hostOps1_1 (F := Ideal)) _ hostOps1_1_writes (r := main_v2) (by decide),
    StableHlo.after_of_writes_sub (hostOps1_1 (F := Ideal)) _ hostOps1_1_writes (r := main_arg2) (by decide),
    rowCoords1, colCoords1,
    StableHlo.after_of_writes_sub (hostOps1 (F := Ideal)) _ hostOps1_writes (r := main_v0) (by decide),
    StableHlo.after_of_writes_sub (hostOps1 (F := Ideal)) _ hostOps1_writes (r := main_arg2) (by decide)]
  rfl

/-! ## Layer 2 (256 columns) -/

/-- After the first stretch, `main_v14` holds the table's row 0 (the edges' row coordinates), flattened. -/
theorem rowCoords2 (X : Valuation τ sig (Elt Ideal)) :
    StableHlo.after (hostOps2 (F := Ideal)) X (Proc.devRef .tc main_v14)
      = shapeCast Cert.ReferenceIdeal.S320000
          (extractStridedSlice Cert.ReferenceIdeal.S1x320000 ![0, 0] (X (Proc.devRef .tc main_arg1))
            Cert.ReferenceIdeal.Facts₀.slices_S2x320000_S1x320000_0_0)
          Cert.ReferenceIdeal.Facts₀.shapeCasts_S1x320000_S320000 := by
  after_results
  rfl

/-- After the first stretch, `main_v16` holds the table's row 1 (the edges' column coordinates), flattened. -/
theorem colCoords2 (X : Valuation τ sig (Elt Ideal)) :
    StableHlo.after (hostOps2 (F := Ideal)) X (Proc.devRef .tc main_v16)
      = shapeCast Cert.ReferenceIdeal.S320000
          (extractStridedSlice Cert.ReferenceIdeal.S1x320000 ![1, 0] (X (Proc.devRef .tc main_arg1))
            Cert.ReferenceIdeal.Facts₀.slices_S2x320000_S1x320000_1_0)
          Cert.ReferenceIdeal.Facts₀.shapeCasts_S1x320000_S320000 := by
  after_results
  rfl

set_option maxHeartbeats 1000000 in
/-- After the second stretch, `main_v17` holds the rows of `main_v12` looked up at the indices in `main_v16`. Each
    operation of the stretch moves its operands and its result between a buffer's contents and the value's own
    type along an equation of types that holds by computation; those transports are identities. -/
theorem lookup2 (X : Valuation τ sig (Elt Ideal)) :
    StableHlo.after (hostOps2_1 (F := Ideal)) X (Proc.devRef .tc main_v17)
      = Cert.Spec.take256 (X (Proc.devRef .tc main_v12)) (X (Proc.devRef .tc main_v16)) := by
  after_results
  simp only [cast_eq]
  rfl

/-- After the third stretch, `main_v23` holds the scatter-add, into zeros at the indices in `main_v14`, of the rows in
    `main_v17` scaled by the weights in `main_arg2`. -/
theorem scatter2 (X : Valuation τ sig (Elt Ideal)) :
    StableHlo.after (hostOps2_2 (F := Ideal)) X (Proc.devRef .tc main_v23)
      = Host.scatterAdd Cert.ReferenceIdeal.scatter_S10000x256_S320000x1_S320000x256_1_0_0_1
          (broadcastInDim Cert.ReferenceIdeal.S10000x256 ![] Cert.ReferenceIdeal.Facts₀.bcast_S_S10000x256
            (constant (F := Ideal) Cert.ReferenceIdeal.S_ .f32 0x00000000#32))
          (broadcastInDim Cert.ReferenceIdeal.S320000x1 ![0] Cert.ReferenceIdeal.Facts₀.bcast_S320000_S320000x1_0
            (X (Proc.devRef .tc main_v14)))
          (mulf (F := Ideal) (φ := .f32) (X (Proc.devRef .tc main_v17))
            (broadcastInDim Cert.ReferenceIdeal.S320000x256 ![0, 1] Cert.ReferenceIdeal.Facts₀.bcast_S320000x1_S320000x256_0_1
              (broadcastInDim Cert.ReferenceIdeal.S320000x1 ![0] Cert.ReferenceIdeal.Facts₀.bcast_S320000_S320000x1_0
                (X (Proc.devRef .tc main_arg2))))) := by
  after_results
  rfl

/-- A buffer none of the three stretches writes holds after them what it held before. -/
theorem keep2 (X : Valuation τ sig (Elt Ideal)) (r : Ref sig .tc) (h0 : r ∉ hostOps2_W) (h1 : r ∉ hostOps2_1_W) (h2 : r ∉ hostOps2_2_W) :
    StableHlo.after (hostOps2_2 (F := Ideal)) (StableHlo.after (hostOps2_1 (F := Ideal)) (StableHlo.after (hostOps2 (F := Ideal)) X)) (Proc.devRef .tc r)
      = X (Proc.devRef .tc r) := by
  rw [StableHlo.after_of_writes_sub (hostOps2_2 (F := Ideal)) _ hostOps2_2_writes h2,
    StableHlo.after_of_writes_sub (hostOps2_1 (F := Ideal)) _ hostOps2_1_writes h1,
    StableHlo.after_of_writes_sub (hostOps2 (F := Ideal)) _ hostOps2_writes h0]

/-- The three stretches together: `main_v23` ends holding the sparse product of what `main_v12` held with the
    adjacency matrix given by the edge table `main_arg1` and the weights `main_arg2`. -/
theorem chain2 (X : Valuation τ sig (Elt Ideal)) :
    StableHlo.after (hostOps2_2 (F := Ideal)) (StableHlo.after (hostOps2_1 (F := Ideal)) (StableHlo.after (hostOps2 (F := Ideal)) X)) (Proc.devRef .tc main_v23)
      = Cert.Spec.spmm256 (X (Proc.devRef .tc main_v12)) (X (Proc.devRef .tc main_arg1)) (X (Proc.devRef .tc main_arg2)) := by
  rw [scatter2, lookup2,
    StableHlo.after_of_writes_sub (hostOps2_1 (F := Ideal)) _ hostOps2_1_writes (r := main_v14) (by decide),
    StableHlo.after_of_writes_sub (hostOps2_1 (F := Ideal)) _ hostOps2_1_writes (r := main_arg2) (by decide),
    rowCoords2, colCoords2,
    StableHlo.after_of_writes_sub (hostOps2 (F := Ideal)) _ hostOps2_writes (r := main_v12) (by decide),
    StableHlo.after_of_writes_sub (hostOps2 (F := Ideal)) _ hostOps2_writes (r := main_arg2) (by decide)]
  rfl

/-! ## Layer 3 (20 columns) -/

/-- After the first stretch, `main_v26` holds the table's row 0 (the edges' row coordinates), flattened. -/
theorem rowCoords3 (X : Valuation τ sig (Elt Ideal)) :
    StableHlo.after (hostOps3 (F := Ideal)) X (Proc.devRef .tc main_v26)
      = shapeCast Cert.ReferenceIdeal.S320000
          (extractStridedSlice Cert.ReferenceIdeal.S1x320000 ![0, 0] (X (Proc.devRef .tc main_arg1))
            Cert.ReferenceIdeal.Facts₀.slices_S2x320000_S1x320000_0_0)
          Cert.ReferenceIdeal.Facts₀.shapeCasts_S1x320000_S320000 := by
  after_results
  rfl

/-- After the first stretch, `main_v28` holds the table's row 1 (the edges' column coordinates), flattened. -/
theorem colCoords3 (X : Valuation τ sig (Elt Ideal)) :
    StableHlo.after (hostOps3 (F := Ideal)) X (Proc.devRef .tc main_v28)
      = shapeCast Cert.ReferenceIdeal.S320000
          (extractStridedSlice Cert.ReferenceIdeal.S1x320000 ![1, 0] (X (Proc.devRef .tc main_arg1))
            Cert.ReferenceIdeal.Facts₀.slices_S2x320000_S1x320000_1_0)
          Cert.ReferenceIdeal.Facts₀.shapeCasts_S1x320000_S320000 := by
  after_results
  rfl

set_option maxHeartbeats 1000000 in
/-- After the second stretch, `main_v29` holds the rows of `main_v24` looked up at the indices in `main_v28`. Each
    operation of the stretch moves its operands and its result between a buffer's contents and the value's own
    type along an equation of types that holds by computation; those transports are identities. -/
theorem lookup3 (X : Valuation τ sig (Elt Ideal)) :
    StableHlo.after (hostOps3_1 (F := Ideal)) X (Proc.devRef .tc main_v29)
      = Cert.Spec.take20 (X (Proc.devRef .tc main_v24)) (X (Proc.devRef .tc main_v28)) := by
  after_results
  simp only [cast_eq]
  rfl

/-- After the third stretch, `main_v35` holds the scatter-add, into zeros at the indices in `main_v26`, of the rows in
    `main_v29` scaled by the weights in `main_arg2`. -/
theorem scatter3 (X : Valuation τ sig (Elt Ideal)) :
    StableHlo.after (hostOps3_2 (F := Ideal)) X (Proc.devRef .tc main_v35)
      = Host.scatterAdd Cert.ReferenceIdeal.scatter_S10000x20_S320000x1_S320000x20_1_0_0_1
          (broadcastInDim Cert.ReferenceIdeal.S10000x20 ![] Cert.ReferenceIdeal.Facts₀.bcast_S_S10000x20
            (constant (F := Ideal) Cert.ReferenceIdeal.S_ .f32 0x00000000#32))
          (broadcastInDim Cert.ReferenceIdeal.S320000x1 ![0] Cert.ReferenceIdeal.Facts₀.bcast_S320000_S320000x1_0
            (X (Proc.devRef .tc main_v26)))
          (mulf (F := Ideal) (φ := .f32) (X (Proc.devRef .tc main_v29))
            (broadcastInDim Cert.ReferenceIdeal.S320000x20 ![0, 1] Cert.ReferenceIdeal.Facts₀.bcast_S320000x1_S320000x20_0_1
              (broadcastInDim Cert.ReferenceIdeal.S320000x1 ![0] Cert.ReferenceIdeal.Facts₀.bcast_S320000_S320000x1_0
                (X (Proc.devRef .tc main_arg2))))) := by
  after_results
  rfl

/-- A buffer none of the three stretches writes holds after them what it held before. -/
theorem keep3 (X : Valuation τ sig (Elt Ideal)) (r : Ref sig .tc) (h0 : r ∉ hostOps3_W) (h1 : r ∉ hostOps3_1_W) (h2 : r ∉ hostOps3_2_W) :
    StableHlo.after (hostOps3_2 (F := Ideal)) (StableHlo.after (hostOps3_1 (F := Ideal)) (StableHlo.after (hostOps3 (F := Ideal)) X)) (Proc.devRef .tc r)
      = X (Proc.devRef .tc r) := by
  rw [StableHlo.after_of_writes_sub (hostOps3_2 (F := Ideal)) _ hostOps3_2_writes h2,
    StableHlo.after_of_writes_sub (hostOps3_1 (F := Ideal)) _ hostOps3_1_writes h1,
    StableHlo.after_of_writes_sub (hostOps3 (F := Ideal)) _ hostOps3_writes h0]

/-- The three stretches together: `main_v35` ends holding the sparse product of what `main_v24` held with the
    adjacency matrix given by the edge table `main_arg1` and the weights `main_arg2`. -/
theorem chain3 (X : Valuation τ sig (Elt Ideal)) :
    StableHlo.after (hostOps3_2 (F := Ideal)) (StableHlo.after (hostOps3_1 (F := Ideal)) (StableHlo.after (hostOps3 (F := Ideal)) X)) (Proc.devRef .tc main_v35)
      = Cert.Spec.spmm20 (X (Proc.devRef .tc main_v24)) (X (Proc.devRef .tc main_arg1)) (X (Proc.devRef .tc main_arg2)) := by
  rw [scatter3, lookup3,
    StableHlo.after_of_writes_sub (hostOps3_1 (F := Ideal)) _ hostOps3_1_writes (r := main_v26) (by decide),
    StableHlo.after_of_writes_sub (hostOps3_1 (F := Ideal)) _ hostOps3_1_writes (r := main_arg2) (by decide),
    rowCoords3, colCoords3,
    StableHlo.after_of_writes_sub (hostOps3 (F := Ideal)) _ hostOps3_writes (r := main_v24) (by decide),
    StableHlo.after_of_writes_sub (hostOps3 (F := Ideal)) _ hostOps3_writes (r := main_arg2) (by decide)]
  rfl

end Cert.KernelIdeal.Hand

end
-- ==== Proof.IdealBridge.lean ====
import proofs.«103742_g75840532512942_cont_9to1_m_1342_3_alg».proof.Proof.IdealFinals
import proofs.«103742_g75840532512942_cont_9to1_m_1342_3_alg».proof.Proof.IdealFinal3
import proofs.«103742_g75840532512942_cont_9to1_m_1342_3_alg».proof.Proof.SpecEnc
import proofs.«103742_g75840532512942_cont_9to1_m_1342_3_alg».proof.Proof.IdealRun
import proofs.«103742_g75840532512942_cont_9to1_m_1342_3_alg».proof.Proof.IdealHostChains

/-!
# From the four regions' result arrays to the encoder and the decoder of the arguments

The program alternates dense layers (pipelined regions) with sparse products against the adjacency matrix (host
stretches).  Each dense region leaves in its result array the layer of the arrays it found; each sparse stretch
leaves in its last buffer the sparse product of the array the region before it wrote, with the edge table and the
edge weights; the decoder's region leaves the logistic Gram matrix of the embedding it found.  No item writes an
argument array, so the edge table, the edge weights and the three weight matrices are, wherever they are read, the
arrays the program was launched with.  Composing the seven equations from the last to the first gives the
embedding as the encoder of the six argument arrays, and the decoder's result as the decoder of that.

The composition is stated first for ANY family of buffer contents at the eight boundaries that matter (before and
after each dense region, and after the third sparse stretch), under exactly the equations it uses; it is then read
at the contents a run of the program passes through.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)

section Abstract

-- the core's buffer contents at the boundaries: before (`X0`, `X4`, `X8`) and after (`X1`, `X5`, `X9`) the three
-- dense regions, and after the third sparse stretch (`X12`), where the decoder's region is entered
variable (X0 X1 X4 X5 X8 X9 X12 : (c : Dev nD) → (b : Ref sig .tc) → Buf (Elt Ideal) ((c : Thread nD τ).loc b))

/-- THE EMBEDDING IS THE ENCODER OF THE ARGUMENTS, for any boundary contents that satisfy: each dense region's result
    array is the fold of its write-backs (`r1`, `r2`, `r3`); each sparse stretch's last buffer is the sparse product of
    the dense result with the edge table and weights as they stand there (`s1`, `s2`, `s3`); and the argument arrays
    read along the way are still the first boundary's (`a…`). -/
theorem enc_of_boundaries (c : Dev nD)
    (r1 : X1 c main_v0 = (dat0 X0 c).arrAt 2 cfg0.N)
    (s1 : X4 c main_v11 = Cert.Spec.spmm128 (X1 c main_v0) (X1 c main_arg1) (X1 c main_arg2))
    (r2 : X5 c main_v12 = (dat1 X4 c).arrAt 2 cfg1.N)
    (s2 : X8 c main_v23 = Cert.Spec.spmm256 (X5 c main_v12) (X5 c main_arg1) (X5 c main_arg2))
    (r3 : X9 c main_v24 = (dat2 X8 c).arrAt 2 cfg2.N)
    (s3 : X12 c main_v35 = Cert.Spec.spmm20 (X9 c main_v24) (X9 c main_arg1) (X9 c main_arg2))
    (a1_1 : X1 c main_arg1 = X0 c main_arg1) (a1_2 : X1 c main_arg2 = X0 c main_arg2)
    (a4_4 : X4 c main_arg4 = X0 c main_arg4)
    (a5_1 : X5 c main_arg1 = X0 c main_arg1) (a5_2 : X5 c main_arg2 = X0 c main_arg2)
    (a8_5 : X8 c main_arg5 = X0 c main_arg5)
    (a9_1 : X9 c main_arg1 = X0 c main_arg1) (a9_2 : X9 c main_arg2 = X0 c main_arg2) :
    X12 c main_v35 = Cert.Spec.enc (X0 c main_arg0) (X0 c main_arg1) (X0 c main_arg2) (X0 c main_arg3) (X0 c main_arg4) (X0 c main_arg5) := by
  unfold Cert.Spec.enc
  rw [s3, r3, final2 X8 c, s2, r2, final1 X4 c, s1, r1, final0 X0 c, a9_1, a9_2, a8_5, a5_1, a5_2, a4_4, a1_1, a1_2]

/-- THE DECODER'S RESULT IS THE DECODER OF THE EMBEDDING: its array after the region is the logistic Gram matrix of
    the embedding the region was entered with. -/
theorem dec_of_boundary (c : Dev nD) : (dat3 X12 c).arrAt 2 cfg3.N = dec3 (X12 c main_v35) := final3 X12 c

end Abstract

section Run

variable (m : (ℓ : Loc nD τ sig) → Buf (Elt Ideal) ℓ) (ρ : Dev nD → PrngReg)

/-! ## The arguments where the layers read them

No host operation writes an argument array, and a dense region changes its result array only; so at each boundary
where a layer or a sparse product reads an argument, it still holds the launch contents. -/

/-- The edge table after the first dense region. -/
theorem W1_main_arg1 (c : Dev nD) : W1 m ρ c (Proc.devRef .tc main_arg1) = W0 m ρ c (Proc.devRef .tc main_arg1) :=
  W1_of_ne m ρ c main_arg1 (by decide)

/-- The edge weights after the first dense region. -/
theorem W1_main_arg2 (c : Dev nD) : W1 m ρ c (Proc.devRef .tc main_arg2) = W0 m ρ c (Proc.devRef .tc main_arg2) :=
  W1_of_ne m ρ c main_arg2 (by decide)

/-- The second layer's weights where the second dense region is entered. -/
theorem W4_main_arg4 (c : Dev nD) : W4 m ρ c (Proc.devRef .tc main_arg4) = W0 m ρ c (Proc.devRef .tc main_arg4) :=
  (W4_of m ρ c main_arg4 (by decide)).trans <| (W3_of m ρ c main_arg4 (by decide)).trans <| (W2_of m ρ c main_arg4 (by decide)).trans <| W1_of_ne m ρ c main_arg4 (by decide)

/-- The edge table after the second dense region. -/
theorem W5_main_arg1 (c : Dev nD) : W5 m ρ c (Proc.devRef .tc main_arg1) = W0 m ρ c (Proc.devRef .tc main_arg1) :=
  (W5_of_ne m ρ c main_arg1 (by decide)).trans <| (W4_of m ρ c main_arg1 (by decide)).trans <| (W3_of m ρ c main_arg1 (by decide)).trans <| (W2_of m ρ c main_arg1 (by decide)).trans <| W1_of_ne m ρ c main_arg1 (by decide)

/-- The edge weights after the second dense region. -/
theorem W5_main_arg2 (c : Dev nD) : W5 m ρ c (Proc.devRef .tc main_arg2) = W0 m ρ c (Proc.devRef .tc main_arg2) :=
  (W5_of_ne m ρ c main_arg2 (by decide)).trans <| (W4_of m ρ c main_arg2 (by decide)).trans <| (W3_of m ρ c main_arg2 (by decide)).trans <| (W2_of m ρ c main_arg2 (by decide)).trans <| W1_of_ne m ρ c main_arg2 (by decide)

/-- The third layer's weights where the third dense region is entered. -/
theorem W8_main_arg5 (c : Dev nD) : W8 m ρ c (Proc.devRef .tc main_arg5) = W0 m ρ c (Proc.devRef .tc main_arg5) :=
  (W8_of m ρ c main_arg5 (by decide)).trans <| (W7_of m ρ c main_arg5 (by decide)).trans <| (W6_of m ρ c main_arg5 (by decide)).trans <| (W5_of_ne m ρ c main_arg5 (by decide)).trans <| (W4_of m ρ c main_arg5 (by decide)).trans <| (W3_of m ρ c main_arg5 (by decide)).trans <| (W2_of m ρ c main_arg5 (by decide)).trans <| W1_of_ne m ρ c main_arg5 (by decide)

/-- The edge table after the third dense region. -/
theorem W9_main_arg1 (c : Dev nD) : W9 m ρ c (Proc.devRef .tc main_arg1) = W0 m ρ c (Proc.devRef .tc main_arg1) :=
  (W9_of_ne m ρ c main_arg1 (by decide)).trans <| (W8_of m ρ c main_arg1 (by decide)).trans <| (W7_of m ρ c main_arg1 (by decide)).trans <| (W6_of m ρ c main_arg1 (by decide)).trans <| (W5_of_ne m ρ c main_arg1 (by decide)).trans <| (W4_of m ρ c main_arg1 (by decide)).trans <| (W3_of m ρ c main_arg1 (by decide)).trans <| (W2_of m ρ c main_arg1 (by decide)).trans <| W1_of_ne m ρ c main_arg1 (by decide)

/-- The edge weights after the third dense region. -/
theorem W9_main_arg2 (c : Dev nD) : W9 m ρ c (Proc.devRef .tc main_arg2) = W0 m ρ c (Proc.devRef .tc main_arg2) :=
  (W9_of_ne m ρ c main_arg2 (by decide)).trans <| (W8_of m ρ c main_arg2 (by decide)).trans <| (W7_of m ρ c main_arg2 (by decide)).trans <| (W6_of m ρ c main_arg2 (by decide)).trans <| (W5_of_ne m ρ c main_arg2 (by decide)).trans <| (W4_of m ρ c main_arg2 (by decide)).trans <| (W3_of m ρ c main_arg2 (by decide)).trans <| (W2_of m ρ c main_arg2 (by decide)).trans <| W1_of_ne m ρ c main_arg2 (by decide)

-- the three sparse stretches, each as one function of the contents it starts from
variable
  (hs1 : ∀ X : Valuation τ sig (Elt Ideal), StableHlo.after hostOps1_2 (StableHlo.after hostOps1_1 (StableHlo.after hostOps1 X)) (Proc.devRef .tc main_v11)
    = Cert.Spec.spmm128 (X (Proc.devRef .tc main_v0)) (X (Proc.devRef .tc main_arg1)) (X (Proc.devRef .tc main_arg2)))
  (hs2 : ∀ X : Valuation τ sig (Elt Ideal), StableHlo.after hostOps2_2 (StableHlo.after hostOps2_1 (StableHlo.after hostOps2 X)) (Proc.devRef .tc main_v23)
    = Cert.Spec.spmm256 (X (Proc.devRef .tc main_v12)) (X (Proc.devRef .tc main_arg1)) (X (Proc.devRef .tc main_arg2)))
  (hs3 : ∀ X : Valuation τ sig (Elt Ideal), StableHlo.after hostOps3_2 (StableHlo.after hostOps3_1 (StableHlo.after hostOps3 X)) (Proc.devRef .tc main_v35)
    = Cert.Spec.spmm20 (X (Proc.devRef .tc main_v24)) (X (Proc.devRef .tc main_arg1)) (X (Proc.devRef .tc main_arg2)))

include hs1 hs2 hs3

/-! ## The two results -/

/-- THE EMBEDDING at the end of the run is the encoder of the six argument arrays as launched: the decoder's region
    does not write it, and before that region it is the third sparse product of the third layer of … of the first
    layer of the launch arrays. -/
theorem bridge35_of_chains (c : Dev nD) :
    W13 m ρ c (Proc.devRef .tc main_v35)
      = Cert.Spec.enc (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (W13_main_v35 m ρ c).trans
    (enc_of_boundaries (V0 m ρ) (V1 m ρ) (V4 m ρ) (V5 m ρ) (V8 m ρ) (V9 m ρ) (V12 m ρ) c
      (W1_main_v0 m ρ c) (hs1 (W1 m ρ c)) (W5_main_v12 m ρ c) (hs2 (W5 m ρ c)) (W9_main_v24 m ρ c) (hs3 (W9 m ρ c))
      (W1_main_arg1 m ρ c) (W1_main_arg2 m ρ c) (W4_main_arg4 m ρ c) (W5_main_arg1 m ρ c) (W5_main_arg2 m ρ c)
      (W8_main_arg5 m ρ c) (W9_main_arg1 m ρ c) (W9_main_arg2 m ρ c))

/-- THE DECODER'S RESULT at the end of the run is the logistic Gram matrix of that encoding. -/
theorem bridge36_of_chains (c : Dev nD) :
    W13 m ρ c (Proc.devRef .tc main_v36)
      = dec3 (Cert.Spec.enc (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))) :=
  (W13_main_v36 m ρ c).trans ((dec_of_boundary (V12 m ρ) c).trans
    (congrArg dec3 ((W13_main_v35 m ρ c).symm.trans (bridge35_of_chains m ρ hs1 hs2 hs3 c))))

end Run

section Closed

variable (m : (ℓ : Loc nD τ sig) → Buf (Elt Ideal) ℓ) (ρ : Dev nD → PrngReg)

/-- THE EMBEDDING at the end of the run, the three sparse stretches read as the sparse products they compute. -/
theorem bridge35 (c : Dev nD) :
    W13 m ρ c (Proc.devRef .tc main_v35)
      = Cert.Spec.enc (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  bridge35_of_chains m ρ chain1 chain2 chain3 c

/-- THE DECODER'S RESULT at the end of the run. -/
theorem bridge36 (c : Dev nD) :
    W13 m ρ c (Proc.devRef .tc main_v36)
      = dec3 (Cert.Spec.enc (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))) :=
  bridge36_of_chains m ρ chain1 chain2 chain3 c

end Closed

end Cert.KernelIdeal.Hand

end
-- ==== Proof.LibLogisticTanh.lean ====
/-
  GENERAL: the logistic function through the hyperbolic tangent, on the extended reals.

  A kernel that computes a sigmoid as ½·(tanh(½·v) + 1) (one transcendental instead of an exponential and a
  reciprocal) meets a reference that computes 1/(1 + e^{-v}).  The two agree at EVERY extended real, so no
  finiteness is needed to pass from one to the other:
    * on the reals, with u = e^{x/2}: tanh(x/2) = (u − u⁻¹)/(u + u⁻¹) and e^{-x} = (u⁻¹)², so both sides are
      u/(u + u⁻¹) (`logistic_tanh_real`);
    * at −∞: ½·(−∞) = −∞, tanh = −1, −1 + 1 = 0, and on the other side e^{+∞} = +∞, 1/(1 + ∞) = 0;
    * at +∞: tanh = 1, ½·2 = 1, and on the other side e^{−∞} = 0, 1/(1 + 0) = 1.
  Stated over the float literals as a printed program carries them: the words 0x3F000000 (0.5) and 0x3F800000
  (1.0) of the 32-bit format (`ofBits_half_f32`, `ofBits_one_f32`).  `half_tanh_eq_logistic` is the law against the
  library's `Ideal.logistic`; `div_one_add_exp_neg` says the spelled-out quotient 1/(1 + e^{-v}) is that function;
  `half_tanh_eq_div` joins the two spellings directly.
  Also here: a sum over `n + n` indices is the sum over the first `n` plus the sum over the last `n`
  (`sum_fin_halves`: a contraction over a concatenation [x | h] is the two contractions added).
-/
import Idealize.ShloMosaic.PureOps.Ideal

noncomputable section

namespace Cert.LibLogisticTanh

open Idealize.ShloMosaic

/-- The word of the float `1.0` denotes the extended real `1`. -/
theorem ofBits_one_f32 : Ideal.ofBits .f32 0x3F800000#32 = 1 := by
  simp [Ideal.ofBits, Ideal.ieee, -EReal.coe_mul]; norm_num

/-- The word of the float `0.5` denotes the real `1/2`. -/
theorem ofBits_half_f32 : Ideal.ofBits .f32 0x3F000000#32 = (((1 : ℝ) / 2 : ℝ) : EReal) := by
  simp [Ideal.ofBits, Ideal.ieee, -EReal.coe_mul]; norm_num

/-- On the reals: ½·(tanh(x/2) + 1) = 1/(1 + e^{-x}). -/
theorem logistic_tanh_real (x : ℝ) : (1 / 2 : ℝ) * (Real.tanh ((1 / 2 : ℝ) * x) + 1) = (1 + Real.exp (-x))⁻¹ := by
  have hu : 0 < Real.exp ((1 / 2 : ℝ) * x) := Real.exp_pos _
  have hx : Real.exp (-x) = (Real.exp ((1 / 2 : ℝ) * x))⁻¹ * (Real.exp ((1 / 2 : ℝ) * x))⁻¹ := by
    rw [← Real.exp_neg, ← Real.exp_add]; congr 1; ring
  rw [Real.tanh_eq_sinh_div_cosh, Real.sinh_eq, Real.cosh_eq, Real.exp_neg, hx]
  set u := Real.exp ((1 / 2 : ℝ) * x) with hudef
  have hu' : u ≠ 0 := hu.ne'
  have h1 : u * u + 1 ≠ 0 := by positivity
  field_simp
  ring

/-- ½·(tanh(½·v) + 1) is the logistic function of `v`, at every extended real. -/
theorem half_tanh_eq_logistic (v : EReal) :
    Ideal.ofBits .f32 0x3F000000#32 * (Ideal.tanh (Ideal.ofBits .f32 0x3F000000#32 * v) + Ideal.ofBits .f32 0x3F800000#32)
      = Ideal.logistic v := by
  rw [ofBits_one_f32, ofBits_half_f32]
  induction v using EReal.rec with
  | bot =>
    rw [EReal.coe_mul_bot_of_pos (by norm_num), Ideal.tanh_bot, Ideal.logistic_bot]
    have : (-1 : EReal) + 1 = 0 := by
      rw [← EReal.coe_one, ← EReal.coe_neg, ← EReal.coe_add]; norm_num
    rw [this, mul_zero]
  | coe x =>
    rw [← EReal.coe_mul, Ideal.tanh_coe, Ideal.logistic_coe, ← EReal.coe_one, ← EReal.coe_add, ← EReal.coe_mul,
      logistic_tanh_real]
  | top =>
    rw [EReal.coe_mul_top_of_pos (by norm_num), Ideal.tanh_top, Ideal.logistic_top]
    rw [← EReal.coe_one, ← EReal.coe_add, ← EReal.coe_mul]; norm_num

/-- The quotient 1/(1 + e^{-v}), spelled with the float `1.0`, is the logistic function. -/
theorem div_one_add_exp_neg (v : EReal) :
    Ideal.div (Ideal.ofBits .f32 0x3F800000#32) (Ideal.ofBits .f32 0x3F800000#32 + Ideal.exp (-v)) = Ideal.logistic v := by
  rw [ofBits_one_f32]; rfl

/-- The two spellings of the logistic function agree at every extended real. -/
theorem half_tanh_eq_div (v : EReal) :
    Ideal.ofBits .f32 0x3F000000#32 * (Ideal.tanh (Ideal.ofBits .f32 0x3F000000#32 * v) + Ideal.ofBits .f32 0x3F800000#32)
      = Ideal.div (Ideal.ofBits .f32 0x3F800000#32) (Ideal.ofBits .f32 0x3F800000#32 + Ideal.exp (-v)) :=
  (half_tanh_eq_logistic v).trans (div_one_add_exp_neg v).symm

/-- A sum over `n + n` indices is the sum over the first `n` plus the sum over the last `n`. -/
theorem sum_fin_halves {M : Type*} [AddCommMonoid M] (n : Nat) (f : Fin (n + n) → M) :
    ∑ k : Fin (n + n), f k = (∑ k : Fin n, f (Fin.castAdd n k)) + ∑ k : Fin n, f (Fin.natAdd n k) :=
  Fin.sum_univ_add f

end Cert.LibLogisticTanh

end
-- ==== Proof.IdealDecSpec.lean ====
/-
  The reference's decoder, read at an entry, at the extended reals.

  From the node embeddings z (10000 rows of 20 numbers) the reference forms z·zᵀ by transposing z and taking the plain
  matrix product, negates it, exponentiates, adds one and divides one by the result. Entry (r, s) of z·zᵀ is the sum
  over the 20 columns k of z(r, k)·z(s, k): entry (k, s) of the transpose is z(s, k), and on the extended reals a
  product of matrices is that sum exactly, nothing being rounded. One divided by one plus e to the minus v is the
  logistic function of v at every extended real, the infinities included (at −∞ both are 0, at +∞ both are 1). So
  the reference's second result is the logistic function of those sums, entry by entry.
-/
import proofs.«103742_g75840532512942_cont_9to1_m_1342_3_alg».proof.ReferenceIdeal
import proofs.«103742_g75840532512942_cont_9to1_m_1342_3_alg».proof.Proof.LibLogisticTanh
import Idealize.ShloMosaic.Lib.StackMember
import Idealize.ShloMosaic.Lib.ValueIdx
import Idealize.ShloMosaic.Lib.Pipeline.Value

noncomputable section

open scoped BigOperators

namespace Cert.Spec

open Cert.ReferenceIdeal Cert.ReferenceIdeal.Facts₀
open Idealize.ShloMosaic Idealize.ShloMosaic.ValueIdx

variable [Cert.ReferenceIdeal.Facts₀]

/-- The reference's dimension numbers for z·zᵀ are those of the plain product of a 10000 × 20 by a 20 × 10000 matrix. -/
theorem dot_dec_eq_plain :
    dot_S10000x20_S20x10000_S10000x10000_1_0_0_1_n_n = DotDims.plain 10000 20 10000 := rfl

/-- Entry (k, s) of the transpose of z is entry (s, k) of z. -/
theorem transpose_dec_apply (z : Vec Ideal S10000x20 .f32) (k : Fin 20) (s : Fin 10000) :
    transpose S20x10000 [1, 0] z transposes_S10000x20_S20x10000_1_0 (ix2 k s) = z (ix2 s k) :=
  transpose_apply [1, 0] z transposes_S10000x20_S20x10000_1_0 (ix2 k s) (ix2 s k) fun b => by
    match b with
    | ⟨0, _⟩ => rfl
    | ⟨1, _⟩ => rfl

/-- The product z·zᵀ as the reference forms it: z against its transpose. -/
abbrev refGram (z : Vec Ideal S10000x20 .f32) : FVec Ideal S10000x10000 .f32 :=
  Host.dotGeneral (F := Ideal) (φ₁ := .f32) (φ₂ := .f32) dot_S10000x20_S20x10000_S10000x10000_1_0_0_1_n_n none z
    (transpose S20x10000 [1, 0] z transposes_S10000x20_S20x10000_1_0)

/-- Entry (r, s) of the reference's z·zᵀ is the sum over the columns k of z(r, k)·z(s, k). -/
theorem refGram_apply (z : Vec Ideal S10000x20 .f32) (r s : Fin 10000) :
    refGram z (ix2 r s) = ∑ k : Fin 20, z (ix2 r k) * z (ix2 s k) := by
  show Host.dotGeneral (F := Ideal) (φ₁ := .f32) (φ₂ := .f32) dot_S10000x20_S20x10000_S10000x10000_1_0_0_1_n_n none z
    (transpose S20x10000 [1, 0] z transposes_S10000x20_S20x10000_1_0) (ix2 r s) = _
  rw [dot_dec_eq_plain, StackMember.dotGeneral_plain_apply]
  exact Finset.sum_congr rfl fun k _ => by rw [transpose_dec_apply]

/-- THE REFERENCE'S DECODER AT AN ENTRY: one over one plus e to the minus entry (r, s) of z·zᵀ is the logistic function of
    the sum over k of z(r, k)·z(s, k). -/
theorem decoder_ref_apply (z : Vec Ideal S10000x20 .f32) (i : S10000x10000.Idx) :
    Host.divf (F := Ideal) (φ := .f32) (broadcastInDim S10000x10000 ![] bcast_S_S10000x10000 (constant (F := Ideal) S_ .f32 0x3F800000#32))
      (addf (broadcastInDim S10000x10000 ![] bcast_S_S10000x10000 (constant (F := Ideal) S_ .f32 0x3F800000#32))
        (Host.exp (Host.negf (refGram z)))) i
      = Ideal.logistic (∑ k : Fin 20, z (ix2 (i 0) k) * z (ix2 (i 1) k)) := by
  obtain ⟨r, s, rfl⟩ : ∃ (r s : Fin 10000), i = ix2 r s := ⟨i 0, i 1, eq_ix2 i⟩
  exact (Cert.LibLogisticTanh.div_one_add_exp_neg (refGram z (ix2 r s))).trans
    (congrArg Ideal.logistic (refGram_apply z r s))

/-- THE REFERENCE'S DECODER: its second result, as a function of the embeddings z, is the logistic function of the sums
    over k of z(r, k)·z(s, k), entry by entry. -/
theorem decoder_ref_eq (z : Vec Ideal S10000x20 .f32) :
    Host.divf (F := Ideal) (φ := .f32) (broadcastInDim S10000x10000 ![] bcast_S_S10000x10000 (constant (F := Ideal) S_ .f32 0x3F800000#32))
      (addf (broadcastInDim S10000x10000 ![] bcast_S_S10000x10000 (constant (F := Ideal) S_ .f32 0x3F800000#32))
        (Host.exp (Host.negf (Host.dotGeneral (F := Ideal) (φ₁ := .f32) (φ₂ := .f32) dot_S10000x20_S20x10000_S10000x10000_1_0_0_1_n_n none z
          (transpose S20x10000 [1, 0] z transposes_S10000x20_S20x10000_1_0)))))
      = fun i => Ideal.logistic (∑ k : Fin 20, z (ix2 (i 0) k) * z (ix2 (i 1) k)) :=
  funext fun i => decoder_ref_apply z i

end Cert.Spec

end
-- ==== Proof.RefOps.lean ====
/-
  The reference program read as one straight line of host operations, and what it leaves in memory.

  The reference computes a three-layer graph encoder and its inner-product decoder. Each layer is a dense
  product with a weight matrix (the first two followed by the leaky rectifier of slope 0.2), then a sparse
  product with the adjacency matrix given in coordinate form: row `r` of the result is the sum over the
  edges `e` whose first coordinate is `r` of the edge's weight times row `col e` of the dense matrix. The
  decoder is the logistic function of every inner product of two rows of the encoder's result.

  The printed @main calls three helper functions (the rectifier, the row lookup, and the choice by a mask
  they share). A call runs the callee's body on the caller's buffers, so the whole program is one list of
  131 operations: the callee's lines written out at each call over that call's own buffers. From that list
  the final contents of every buffer is a fold of the operations' pure functions over the initial contents,
  and reading the fold at the two result buffers gives each result as one composed function of the six
  argument arrays, stated below layer by layer.
-/
import proofs.«103742_g75840532512942_cont_9to1_m_1342_3_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main as one list, in program order: the first dense product and its rectifier (9 operations), the
    first sparse product (34: the two coordinate rows, the row lookup with its index wrap-around and its
    bounds mask, the edge weights laid over the rows, the product, the zero array, the scatter-add), the
    second dense product, rectifier and sparse product (9 + 34), the third dense product and sparse product
    (1 + 34), and the decoder (10: transpose, product, negate, exponential, one plus, reciprocal). -/
abbrev ops : List (HloOp τ sig (Elt F)) :=
  [
    StableHlo.binary main_arg0 main_arg3 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S10000x128 ![] bcast_S_S10000x128),
    StableHlo.TRef.binary (.of main_v0 : StableHlo.TRef sig ⟨S10000x128, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S10000x128 ![] bcast_S_S10000x128),
    StableHlo.TRef.binary main_call0.v3 (.of main_v0 : StableHlo.TRef sig ⟨S10000x128, .f32⟩) main_call0.v4 mulf,
    StableHlo.TRef.ternary main_call0.v1 (.of main_v0 : StableHlo.TRef sig ⟨S10000x128, .f32⟩) main_call0.v4 main_call0.call0.v0 select,
    StableHlo.unary main_arg1 main_v2 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v2 main_v3 rfl shapeCasts_S1x320000_S320000,
    StableHlo.unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v4 main_v5 rfl shapeCasts_S1x320000_S320000,
    StableHlo.TRef.nullary main_call1.c (constantI S_ 32 0#32),
    StableHlo.TRef.unary main_call1.c main_call1.v0 (broadcastInDim S320000 ![] bcast_S_S320000),
    StableHlo.TRef.binary (.of main_v5 : StableHlo.TRef sig ⟨S320000, .i32⟩) main_call1.v0 main_call1.v1 (cmpi .slt),
    StableHlo.TRef.nullary main_call1.c_0 (constantI S_ 32 10000#32),
    StableHlo.TRef.unary main_call1.c_0 main_call1.v2 (broadcastInDim S320000 ![] bcast_S_S320000),
    StableHlo.TRef.binary (.of main_v5 : StableHlo.TRef sig ⟨S320000, .i32⟩) main_call1.v2 main_call1.v3 addi,
    StableHlo.TRef.ternary main_call1.v1 main_call1.v3 (.of main_v5 : StableHlo.TRef sig ⟨S320000, .i32⟩) main_call1.call0.v0 select,
    StableHlo.TRef.unary main_call1.call0.v0 main_call1.v5 (broadcastInDim S320000x1 ![0] bcast_S320000_S320000x1_0),
    StableHlo.TRef.nullary main_call1.c_1 (constantI S1 32 9999#32),
    StableHlo.TRef.nullary main_call1.c_2 (constantI S_ 32 0#32),
    StableHlo.TRef.unary main_call1.c_2 main_call1.v6 (broadcastInDim S320000x1 ![] bcast_S_S320000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S320000x1 ![0, 1] bcast_S1x1_S320000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S320000x1_S320000_d1 h_S_),
    StableHlo.TRef.binary (.of main_v1 : StableHlo.TRef sig ⟨S10000x128, .f32⟩) main_call1.v5 main_call1.v13 (fun x i => Host.gather gather_S10000x128_S320000x1_S320000x128_1_0_n_n_0_1_1128 x i),
    StableHlo.TRef.unary main_call1.v12 main_call1.v14 (broadcastInDim S320000x128 ![0] bcast_S320000_S320000x128_0),
    StableHlo.TRef.nullary main_call1.cst (constant S_ .f32 0x7FC00000#32),
    StableHlo.TRef.unary main_call1.cst main_call1.v15 (broadcastInDim S320000x128 ![] bcast_S_S320000x128),
    StableHlo.TRef.ternary main_call1.v14 main_call1.v13 main_call1.v15 main_call1.v16 select,
    StableHlo.unary main_arg2 main_v7 (broadcastInDim S320000x1 ![0] bcast_S320000_S320000x1_0 : (⟨S320000, .f32⟩ : BufTy).Contents (Elt F) → (⟨S320000x1, .f32⟩ : BufTy).Contents (Elt F)),
    StableHlo.unary main_v7 main_v8 (broadcastInDim S320000x128 ![0, 1] bcast_S320000x1_S320000x128_0_1 : (⟨S320000x1, .f32⟩ : BufTy).Contents (Elt F) → (⟨S320000x128, .f32⟩ : BufTy).Contents (Elt F)),
    StableHlo.binary main_v6 main_v8 main_v9 (mulf : (⟨S320000x128, .f32⟩ : BufTy).Contents (Elt F) → (⟨S320000x128, .f32⟩ : BufTy).Contents (Elt F) → (⟨S320000x128, .f32⟩ : BufTy).Contents (Elt F)),
    StableHlo.nullary main_cst_0 (constant S_ .f32 0x00000000#32),
    StableHlo.unary main_cst_0 main_v10 (broadcastInDim S10000x128 ![] bcast_S_S10000x128 : (⟨S_, .f32⟩ : BufTy).Contents (Elt F) → (⟨S10000x128, .f32⟩ : BufTy).Contents (Elt F)),
    StableHlo.unary main_v3 main_v11 (broadcastInDim S320000x1 ![0] bcast_S320000_S320000x1_0 : (⟨S320000, .i32⟩ : BufTy).Contents (Elt F) → (⟨S320000x1, .i32⟩ : BufTy).Contents (Elt F)),
    StableHlo.ternary main_v10 main_v11 main_v9 main_v12 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    StableHlo.binary main_v12 main_arg4 main_v13 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.nullary main_cst_1 (constant S_ .f32 0x3E4CCCCD#32),
    StableHlo.TRef.nullary main_call2.cst (constant S_ .f32 0x00000000#32),
    StableHlo.TRef.unary main_call2.cst main_call2.v0 (broadcastInDim S10000x256 ![] bcast_S_S10000x256),
    StableHlo.TRef.binary (.of main_v13 : StableHlo.TRef sig ⟨S10000x256, .f32⟩) main_call2.v0 main_call2.v1 (cmpf .oge),
    StableHlo.TRef.unary (.of main_cst_1 : StableHlo.TRef sig ⟨S_, .f32⟩) main_call2.v2 id,
    StableHlo.TRef.unary main_call2.v2 main_call2.v3 (broadcastInDim S10000x256 ![] bcast_S_S10000x256),
    StableHlo.TRef.binary main_call2.v3 (.of main_v13 : StableHlo.TRef sig ⟨S10000x256, .f32⟩) main_call2.v4 mulf,
    StableHlo.TRef.ternary main_call2.v1 (.of main_v13 : StableHlo.TRef sig ⟨S10000x256, .f32⟩) main_call2.v4 main_call2.call0.v0 select,
    StableHlo.unary main_arg1 main_v15 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v15 main_v16 rfl shapeCasts_S1x320000_S320000,
    StableHlo.unary main_arg1 main_v17 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v17 main_v18 rfl shapeCasts_S1x320000_S320000,
    StableHlo.TRef.nullary main_call3.c (constantI S_ 32 0#32),
    StableHlo.TRef.unary main_call3.c main_call3.v0 (broadcastInDim S320000 ![] bcast_S_S320000),
    StableHlo.TRef.binary (.of main_v18 : StableHlo.TRef sig ⟨S320000, .i32⟩) main_call3.v0 main_call3.v1 (cmpi .slt),
    StableHlo.TRef.nullary main_call3.c_0 (constantI S_ 32 10000#32),
    StableHlo.TRef.unary main_call3.c_0 main_call3.v2 (broadcastInDim S320000 ![] bcast_S_S320000),
    StableHlo.TRef.binary (.of main_v18 : StableHlo.TRef sig ⟨S320000, .i32⟩) main_call3.v2 main_call3.v3 addi,
    StableHlo.TRef.ternary main_call3.v1 main_call3.v3 (.of main_v18 : StableHlo.TRef sig ⟨S320000, .i32⟩) main_call3.call0.v0 select,
    StableHlo.TRef.unary main_call3.call0.v0 main_call3.v5 (broadcastInDim S320000x1 ![0] bcast_S320000_S320000x1_0),
    StableHlo.TRef.nullary main_call3.c_1 (constantI S1 32 9999#32),
    StableHlo.TRef.nullary main_call3.c_2 (constantI S_ 32 0#32),
    StableHlo.TRef.unary main_call3.c_2 main_call3.v6 (broadcastInDim S320000x1 ![] bcast_S_S320000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S320000x1 ![0, 1] bcast_S1x1_S320000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S320000x1_S320000_d1 h_S_),
    StableHlo.TRef.binary (.of main_v14 : StableHlo.TRef sig ⟨S10000x256, .f32⟩) main_call3.v5 main_call3.v13 (fun x i => Host.gather gather_S10000x256_S320000x1_S320000x256_1_0_n_n_0_1_1256 x i),
    StableHlo.TRef.unary main_call3.v12 main_call3.v14 (broadcastInDim S320000x256 ![0] bcast_S320000_S320000x256_0),
    StableHlo.TRef.nullary main_call3.cst (constant S_ .f32 0x7FC00000#32),
    StableHlo.TRef.unary main_call3.cst main_call3.v15 (broadcastInDim S320000x256 ![] bcast_S_S320000x256),
    StableHlo.TRef.ternary main_call3.v14 main_call3.v13 main_call3.v15 main_call3.v16 select,
    StableHlo.unary main_arg2 main_v20 (broadcastInDim S320000x1 ![0] bcast_S320000_S320000x1_0 : (⟨S320000, .f32⟩ : BufTy).Contents (Elt F) → (⟨S320000x1, .f32⟩ : BufTy).Contents (Elt F)),
    StableHlo.unary main_v20 main_v21 (broadcastInDim S320000x256 ![0, 1] bcast_S320000x1_S320000x256_0_1 : (⟨S320000x1, .f32⟩ : BufTy).Contents (Elt F) → (⟨S320000x256, .f32⟩ : BufTy).Contents (Elt F)),
    StableHlo.binary main_v19 main_v21 main_v22 (mulf : (⟨S320000x256, .f32⟩ : BufTy).Contents (Elt F) → (⟨S320000x256, .f32⟩ : BufTy).Contents (Elt F) → (⟨S320000x256, .f32⟩ : BufTy).Contents (Elt F)),
    StableHlo.nullary main_cst_2 (constant S_ .f32 0x00000000#32),
    StableHlo.unary main_cst_2 main_v23 (broadcastInDim S10000x256 ![] bcast_S_S10000x256 : (⟨S_, .f32⟩ : BufTy).Contents (Elt F) → (⟨S10000x256, .f32⟩ : BufTy).Contents (Elt F)),
    StableHlo.unary main_v16 main_v24 (broadcastInDim S320000x1 ![0] bcast_S320000_S320000x1_0 : (⟨S320000, .i32⟩ : BufTy).Contents (Elt F) → (⟨S320000x1, .i32⟩ : BufTy).Contents (Elt F)),
    StableHlo.ternary main_v23 main_v24 main_v22 main_v25 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.binary main_v25 main_arg5 main_v26 ((fun l r => Host.dotGeneral dot_S10000x256_S256x20_S10000x20_1_0_0_1_n_n none l r) : (⟨S10000x256, .f32⟩ : BufTy).Contents (Elt F) → (⟨S256x20, .f32⟩ : BufTy).Contents (Elt F) → (⟨S10000x20, .f32⟩ : BufTy).Contents (Elt F)),
    StableHlo.unary main_arg1 main_v27 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v27 main_v28 rfl shapeCasts_S1x320000_S320000,
    StableHlo.unary main_arg1 main_v29 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v29 main_v30 rfl shapeCasts_S1x320000_S320000,
    StableHlo.TRef.nullary main_call4.c (constantI S_ 32 0#32),
    StableHlo.TRef.unary main_call4.c main_call4.v0 (broadcastInDim S320000 ![] bcast_S_S320000),
    StableHlo.TRef.binary (.of main_v30 : StableHlo.TRef sig ⟨S320000, .i32⟩) main_call4.v0 main_call4.v1 (cmpi .slt),
    StableHlo.TRef.nullary main_call4.c_0 (constantI S_ 32 10000#32),
    StableHlo.TRef.unary main_call4.c_0 main_call4.v2 (broadcastInDim S320000 ![] bcast_S_S320000),
    StableHlo.TRef.binary (.of main_v30 : StableHlo.TRef sig ⟨S320000, .i32⟩) main_call4.v2 main_call4.v3 addi,
    StableHlo.TRef.ternary main_call4.v1 main_call4.v3 (.of main_v30 : StableHlo.TRef sig ⟨S320000, .i32⟩) main_call4.call0.v0 select,
    StableHlo.TRef.unary main_call4.call0.v0 main_call4.v5 (broadcastInDim S320000x1 ![0] bcast_S320000_S320000x1_0),
    StableHlo.TRef.nullary main_call4.c_1 (constantI S1 32 9999#32),
    StableHlo.TRef.nullary main_call4.c_2 (constantI S_ 32 0#32),
    StableHlo.TRef.unary main_call4.c_2 main_call4.v6 (broadcastInDim S320000x1 ![] bcast_S_S320000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S320000x1 ![0, 1] bcast_S1x1_S320000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S320000x1_S320000_d1 h_S_),
    StableHlo.TRef.binary (.of main_v26 : StableHlo.TRef sig ⟨S10000x20, .f32⟩) main_call4.v5 main_call4.v13 (fun x i => Host.gather gather_S10000x20_S320000x1_S320000x20_1_0_n_n_0_1_120 x i),
    StableHlo.TRef.unary main_call4.v12 main_call4.v14 (broadcastInDim S320000x20 ![0] bcast_S320000_S320000x20_0),
    StableHlo.TRef.nullary main_call4.cst (constant S_ .f32 0x7FC00000#32),
    StableHlo.TRef.unary main_call4.cst main_call4.v15 (broadcastInDim S320000x20 ![] bcast_S_S320000x20),
    StableHlo.TRef.ternary main_call4.v14 main_call4.v13 main_call4.v15 main_call4.v16 select,
    StableHlo.unary main_arg2 main_v32 (broadcastInDim S320000x1 ![0] bcast_S320000_S320000x1_0 : (⟨S320000, .f32⟩ : BufTy).Contents (Elt F) → (⟨S320000x1, .f32⟩ : BufTy).Contents (Elt F)),
    StableHlo.unary main_v32 main_v33 (broadcastInDim S320000x20 ![0, 1] bcast_S320000x1_S320000x20_0_1 : (⟨S320000x1, .f32⟩ : BufTy).Contents (Elt F) → (⟨S320000x20, .f32⟩ : BufTy).Contents (Elt F)),
    StableHlo.binary main_v31 main_v33 main_v34 (mulf : (⟨S320000x20, .f32⟩ : BufTy).Contents (Elt F) → (⟨S320000x20, .f32⟩ : BufTy).Contents (Elt F) → (⟨S320000x20, .f32⟩ : BufTy).Contents (Elt F)),
    StableHlo.nullary main_cst_3 (constant S_ .f32 0x00000000#32),
    StableHlo.unary main_cst_3 main_v35 (broadcastInDim S10000x20 ![] bcast_S_S10000x20 : (⟨S_, .f32⟩ : BufTy).Contents (Elt F) → (⟨S10000x20, .f32⟩ : BufTy).Contents (Elt F)),
    StableHlo.unary main_v28 main_v36 (broadcastInDim S320000x1 ![0] bcast_S320000_S320000x1_0 : (⟨S320000, .i32⟩ : BufTy).Contents (Elt F) → (⟨S320000x1, .i32⟩ : BufTy).Contents (Elt F)),
    StableHlo.ternary main_v35 main_v36 main_v34 main_v37 ((fun x i u => Host.scatterAdd scatter_S10000x20_S320000x1_S320000x20_1_0_0_1 x i u) : (⟨S10000x20, .f32⟩ : BufTy).Contents (Elt F) → (⟨S320000x1, .i32⟩ : BufTy).Contents (Elt F) → (⟨S320000x20, .f32⟩ : BufTy).Contents (Elt F) → (⟨S10000x20, .f32⟩ : BufTy).Contents (Elt F)),
    StableHlo.unary main_v37 main_v38 ((transpose S20x10000 [1, 0] · transposes_S10000x20_S20x10000_1_0) : (⟨S10000x20, .f32⟩ : BufTy).Contents (Elt F) → (⟨S20x10000, .f32⟩ : BufTy).Contents (Elt F)),
    StableHlo.binary main_v37 main_v38 main_v39 ((fun l r => Host.dotGeneral dot_S10000x20_S20x10000_S10000x10000_1_0_0_1_n_n none l r) : (⟨S10000x20, .f32⟩ : BufTy).Contents (Elt F) → (⟨S20x10000, .f32⟩ : BufTy).Contents (Elt F) → (⟨S10000x10000, .f32⟩ : BufTy).Contents (Elt F)),
    StableHlo.unary main_v39 main_v40 (Host.negf : (⟨S10000x10000, .f32⟩ : BufTy).Contents (Elt F) → (⟨S10000x10000, .f32⟩ : BufTy).Contents (Elt F)),
    StableHlo.unary main_v40 main_v41 (Host.exp : (⟨S10000x10000, .f32⟩ : BufTy).Contents (Elt F) → (⟨S10000x10000, .f32⟩ : BufTy).Contents (Elt F)),
    StableHlo.nullary main_cst_4 (constant S_ .f32 0x3F800000#32),
    StableHlo.unary main_cst_4 main_v42 (broadcastInDim S10000x10000 ![] bcast_S_S10000x10000 : (⟨S_, .f32⟩ : BufTy).Contents (Elt F) → (⟨S10000x10000, .f32⟩ : BufTy).Contents (Elt F)),
    StableHlo.binary main_v42 main_v41 main_v43 (addf : (⟨S10000x10000, .f32⟩ : BufTy).Contents (Elt F) → (⟨S10000x10000, .f32⟩ : BufTy).Contents (Elt F) → (⟨S10000x10000, .f32⟩ : BufTy).Contents (Elt F)),
    StableHlo.nullary main_cst_5 (constant S_ .f32 0x3F800000#32),
    StableHlo.unary main_cst_5 main_v44 (broadcastInDim S10000x10000 ![] bcast_S_S10000x10000 : (⟨S_, .f32⟩ : BufTy).Contents (Elt F) → (⟨S10000x10000, .f32⟩ : BufTy).Contents (Elt F)),
    StableHlo.binary main_v44 main_v43 main_v45 (Host.divf : (⟨S10000x10000, .f32⟩ : BufTy).Contents (Elt F) → (⟨S10000x10000, .f32⟩ : BufTy).Contents (Elt F) → (⟨S10000x10000, .f32⟩ : BufTy).Contents (Elt F)) ]

set_option maxRecDepth 4096 in
/-- The program is that list run in order: unfolding each helper at its call and each call's buffer record
    at its fields leaves, on both sides, one chain of single-operation steps. -/
theorem main_eq (c : Dev nD) : main (F := F) c = seq ops := by
  simp only [main, fn_leaky_relu.body, fn_leaky_relu_1.body, fn_where.body, fn_where_0.body, fn_where_2.body,
    fn_take.body, fn_take_3.body, fn_take_4.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., unary_bufs_sub .., unary_bufs_sub ..,
    ternary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., unary_bufs_sub .., binary_bufs_sub .., nullary_bufs_sub .., unary_bufs_sub ..,
    unary_bufs_sub .., ternary_bufs_sub .., binary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., unary_bufs_sub .., unary_bufs_sub ..,
    ternary_bufs_sub .., unary_bufs_sub .., binary_bufs_sub .., unary_bufs_sub .., unary_bufs_sub .., nullary_bufs_sub ..,
    unary_bufs_sub .., binary_bufs_sub .., nullary_bufs_sub .., unary_bufs_sub .., binary_bufs_sub ..⟩

/-- From any memory with the counters at zero, every weakly fair execution of the reference terminates and
    leaves each buffer at the fold of the 131 operations over the initial contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStretches.lean ====
/-
  The reference's 131 operations in seven consecutive stretches, and what each leaves in its last buffer.

  A dense stage (a product with a weight matrix, in the first two layers followed by the leaky rectifier), then the
  sparse product with the adjacency matrix, three times over, and last the decoder. Each stretch reads the arguments
  and ONE buffer the stretch before it wrote, and writes buffers of its own; so the contents of the stretch's last
  buffer is one named function of those inputs, whatever the memory the stretch starts from.
-/
import proofs.«103742_g75840532512942_cont_9to1_m_1342_3_alg».proof.Proof.RefOps
import proofs.«103742_g75840532512942_cont_9to1_m_1342_3_alg».proof.Proof.SpecEnc

noncomputable section

namespace Cert.ReferenceIdeal.RefValue

open Cert.ReferenceIdeal Cert.ReferenceIdeal.Gen Idealize.ShloMosaic Idealize.ShloMosaic.TcCoe Idealize.SL.Sem Idealize.ShloMosaic.StableHlo

section Stretches

variable {F : FTy → Type} [FloatOps F]

/-- Running one list of operations after another is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! The seven stretches, each the corresponding slice of the program's list. -/

/-- The first dense stage: the product with the first weight matrix and the leaky rectifier (zero laid over the shape, the comparison, the slope laid over the shape, the scaled copy, the choice). -/
def opsA : List (HloOp τ sig (Elt F)) :=
  [
    StableHlo.binary main_arg0 main_arg3 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S10000x128 ![] bcast_S_S10000x128),
    StableHlo.TRef.binary (.of main_v0 : StableHlo.TRef sig ⟨S10000x128, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S10000x128 ![] bcast_S_S10000x128),
    StableHlo.TRef.binary main_call0.v3 (.of main_v0 : StableHlo.TRef sig ⟨S10000x128, .f32⟩) main_call0.v4 mulf,
    StableHlo.TRef.ternary main_call0.v1 (.of main_v0 : StableHlo.TRef sig ⟨S10000x128, .f32⟩) main_call0.v4 main_call0.call0.v0 select ]

/-- The first sparse product: the two coordinate rows, the wrapped and bounds-tested row lookup, the weights laid across 128 columns, the lane-wise product, the scatter-add into zeros. -/
def opsB : List (HloOp τ sig (Elt F)) :=
  [
    StableHlo.unary main_arg1 main_v2 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v2 main_v3 rfl shapeCasts_S1x320000_S320000,
    StableHlo.unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v4 main_v5 rfl shapeCasts_S1x320000_S320000,
    StableHlo.TRef.nullary main_call1.c (constantI S_ 32 0#32),
    StableHlo.TRef.unary main_call1.c main_call1.v0 (broadcastInDim S320000 ![] bcast_S_S320000),
    StableHlo.TRef.binary (.of main_v5 : StableHlo.TRef sig ⟨S320000, .i32⟩) main_call1.v0 main_call1.v1 (cmpi .slt),
    StableHlo.TRef.nullary main_call1.c_0 (constantI S_ 32 10000#32),
    StableHlo.TRef.unary main_call1.c_0 main_call1.v2 (broadcastInDim S320000 ![] bcast_S_S320000),
    StableHlo.TRef.binary (.of main_v5 : StableHlo.TRef sig ⟨S320000, .i32⟩) main_call1.v2 main_call1.v3 addi,
    StableHlo.TRef.ternary main_call1.v1 main_call1.v3 (.of main_v5 : StableHlo.TRef sig ⟨S320000, .i32⟩) main_call1.call0.v0 select,
    StableHlo.TRef.unary main_call1.call0.v0 main_call1.v5 (broadcastInDim S320000x1 ![0] bcast_S320000_S320000x1_0),
    StableHlo.TRef.nullary main_call1.c_1 (constantI S1 32 9999#32),
    StableHlo.TRef.nullary main_call1.c_2 (constantI S_ 32 0#32),
    StableHlo.TRef.unary main_call1.c_2 main_call1.v6 (broadcastInDim S320000x1 ![] bcast_S_S320000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S320000x1 ![0, 1] bcast_S1x1_S320000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S320000x1_S320000_d1 h_S_),
    StableHlo.TRef.binary (.of main_v1 : StableHlo.TRef sig ⟨S10000x128, .f32⟩) main_call1.v5 main_call1.v13 (fun x i => Host.gather gather_S10000x128_S320000x1_S320000x128_1_0_n_n_0_1_1128 x i),
    StableHlo.TRef.unary main_call1.v12 main_call1.v14 (broadcastInDim S320000x128 ![0] bcast_S320000_S320000x128_0),
    StableHlo.TRef.nullary main_call1.cst (constant S_ .f32 0x7FC00000#32),
    StableHlo.TRef.unary main_call1.cst main_call1.v15 (broadcastInDim S320000x128 ![] bcast_S_S320000x128),
    StableHlo.TRef.ternary main_call1.v14 main_call1.v13 main_call1.v15 main_call1.v16 select,
    StableHlo.unary main_arg2 main_v7 (broadcastInDim S320000x1 ![0] bcast_S320000_S320000x1_0 : (⟨S320000, .f32⟩ : BufTy).Contents (Elt F) → (⟨S320000x1, .f32⟩ : BufTy).Contents (Elt F)),
    StableHlo.unary main_v7 main_v8 (broadcastInDim S320000x128 ![0, 1] bcast_S320000x1_S320000x128_0_1 : (⟨S320000x1, .f32⟩ : BufTy).Contents (Elt F) → (⟨S320000x128, .f32⟩ : BufTy).Contents (Elt F)),
    StableHlo.binary main_v6 main_v8 main_v9 (mulf : (⟨S320000x128, .f32⟩ : BufTy).Contents (Elt F) → (⟨S320000x128, .f32⟩ : BufTy).Contents (Elt F) → (⟨S320000x128, .f32⟩ : BufTy).Contents (Elt F)),
    StableHlo.nullary main_cst_0 (constant S_ .f32 0x00000000#32),
    StableHlo.unary main_cst_0 main_v10 (broadcastInDim S10000x128 ![] bcast_S_S10000x128 : (⟨S_, .f32⟩ : BufTy).Contents (Elt F) → (⟨S10000x128, .f32⟩ : BufTy).Contents (Elt F)),
    StableHlo.unary main_v3 main_v11 (broadcastInDim S320000x1 ![0] bcast_S320000_S320000x1_0 : (⟨S320000, .i32⟩ : BufTy).Contents (Elt F) → (⟨S320000x1, .i32⟩ : BufTy).Contents (Elt F)),
    StableHlo.ternary main_v10 main_v11 main_v9 main_v12 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)) ]

/-- The second dense stage: the product with the second weight matrix and the leaky rectifier. -/
def opsC : List (HloOp τ sig (Elt F)) :=
  [
    StableHlo.binary main_v12 main_arg4 main_v13 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.nullary main_cst_1 (constant S_ .f32 0x3E4CCCCD#32),
    StableHlo.TRef.nullary main_call2.cst (constant S_ .f32 0x00000000#32),
    StableHlo.TRef.unary main_call2.cst main_call2.v0 (broadcastInDim S10000x256 ![] bcast_S_S10000x256),
    StableHlo.TRef.binary (.of main_v13 : StableHlo.TRef sig ⟨S10000x256, .f32⟩) main_call2.v0 main_call2.v1 (cmpf .oge),
    StableHlo.TRef.unary (.of main_cst_1 : StableHlo.TRef sig ⟨S_, .f32⟩) main_call2.v2 id,
    StableHlo.TRef.unary main_call2.v2 main_call2.v3 (broadcastInDim S10000x256 ![] bcast_S_S10000x256),
    StableHlo.TRef.binary main_call2.v3 (.of main_v13 : StableHlo.TRef sig ⟨S10000x256, .f32⟩) main_call2.v4 mulf,
    StableHlo.TRef.ternary main_call2.v1 (.of main_v13 : StableHlo.TRef sig ⟨S10000x256, .f32⟩) main_call2.v4 main_call2.call0.v0 select ]

/-- The second sparse product, 256 columns wide. -/
def opsD : List (HloOp τ sig (Elt F)) :=
  [
    StableHlo.unary main_arg1 main_v15 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v15 main_v16 rfl shapeCasts_S1x320000_S320000,
    StableHlo.unary main_arg1 main_v17 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v17 main_v18 rfl shapeCasts_S1x320000_S320000,
    StableHlo.TRef.nullary main_call3.c (constantI S_ 32 0#32),
    StableHlo.TRef.unary main_call3.c main_call3.v0 (broadcastInDim S320000 ![] bcast_S_S320000),
    StableHlo.TRef.binary (.of main_v18 : StableHlo.TRef sig ⟨S320000, .i32⟩) main_call3.v0 main_call3.v1 (cmpi .slt),
    StableHlo.TRef.nullary main_call3.c_0 (constantI S_ 32 10000#32),
    StableHlo.TRef.unary main_call3.c_0 main_call3.v2 (broadcastInDim S320000 ![] bcast_S_S320000),
    StableHlo.TRef.binary (.of main_v18 : StableHlo.TRef sig ⟨S320000, .i32⟩) main_call3.v2 main_call3.v3 addi,
    StableHlo.TRef.ternary main_call3.v1 main_call3.v3 (.of main_v18 : StableHlo.TRef sig ⟨S320000, .i32⟩) main_call3.call0.v0 select,
    StableHlo.TRef.unary main_call3.call0.v0 main_call3.v5 (broadcastInDim S320000x1 ![0] bcast_S320000_S320000x1_0),
    StableHlo.TRef.nullary main_call3.c_1 (constantI S1 32 9999#32),
    StableHlo.TRef.nullary main_call3.c_2 (constantI S_ 32 0#32),
    StableHlo.TRef.unary main_call3.c_2 main_call3.v6 (broadcastInDim S320000x1 ![] bcast_S_S320000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S320000x1 ![0, 1] bcast_S1x1_S320000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S320000x1_S320000_d1 h_S_),
    StableHlo.TRef.binary (.of main_v14 : StableHlo.TRef sig ⟨S10000x256, .f32⟩) main_call3.v5 main_call3.v13 (fun x i => Host.gather gather_S10000x256_S320000x1_S320000x256_1_0_n_n_0_1_1256 x i),
    StableHlo.TRef.unary main_call3.v12 main_call3.v14 (broadcastInDim S320000x256 ![0] bcast_S320000_S320000x256_0),
    StableHlo.TRef.nullary main_call3.cst (constant S_ .f32 0x7FC00000#32),
    StableHlo.TRef.unary main_call3.cst main_call3.v15 (broadcastInDim S320000x256 ![] bcast_S_S320000x256),
    StableHlo.TRef.ternary main_call3.v14 main_call3.v13 main_call3.v15 main_call3.v16 select,
    StableHlo.unary main_arg2 main_v20 (broadcastInDim S320000x1 ![0] bcast_S320000_S320000x1_0 : (⟨S320000, .f32⟩ : BufTy).Contents (Elt F) → (⟨S320000x1, .f32⟩ : BufTy).Contents (Elt F)),
    StableHlo.unary main_v20 main_v21 (broadcastInDim S320000x256 ![0, 1] bcast_S320000x1_S320000x256_0_1 : (⟨S320000x1, .f32⟩ : BufTy).Contents (Elt F) → (⟨S320000x256, .f32⟩ : BufTy).Contents (Elt F)),
    StableHlo.binary main_v19 main_v21 main_v22 (mulf : (⟨S320000x256, .f32⟩ : BufTy).Contents (Elt F) → (⟨S320000x256, .f32⟩ : BufTy).Contents (Elt F) → (⟨S320000x256, .f32⟩ : BufTy).Contents (Elt F)),
    StableHlo.nullary main_cst_2 (constant S_ .f32 0x00000000#32),
    StableHlo.unary main_cst_2 main_v23 (broadcastInDim S10000x256 ![] bcast_S_S10000x256 : (⟨S_, .f32⟩ : BufTy).Contents (Elt F) → (⟨S10000x256, .f32⟩ : BufTy).Contents (Elt F)),
    StableHlo.unary main_v16 main_v24 (broadcastInDim S320000x1 ![0] bcast_S320000_S320000x1_0 : (⟨S320000, .i32⟩ : BufTy).Contents (Elt F) → (⟨S320000x1, .i32⟩ : BufTy).Contents (Elt F)),
    StableHlo.ternary main_v23 main_v24 main_v22 main_v25 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ]

/-- The third dense stage: the product with the third weight matrix. -/
def opsE : List (HloOp τ sig (Elt F)) :=
  [
    StableHlo.binary main_v25 main_arg5 main_v26 ((fun l r => Host.dotGeneral dot_S10000x256_S256x20_S10000x20_1_0_0_1_n_n none l r) : (⟨S10000x256, .f32⟩ : BufTy).Contents (Elt F) → (⟨S256x20, .f32⟩ : BufTy).Contents (Elt F) → (⟨S10000x20, .f32⟩ : BufTy).Contents (Elt F)) ]

/-- The third sparse product, 20 columns wide: its result is the encoding. -/
def opsF : List (HloOp τ sig (Elt F)) :=
  [
    StableHlo.unary main_arg1 main_v27 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v27 main_v28 rfl shapeCasts_S1x320000_S320000,
    StableHlo.unary main_arg1 main_v29 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v29 main_v30 rfl shapeCasts_S1x320000_S320000,
    StableHlo.TRef.nullary main_call4.c (constantI S_ 32 0#32),
    StableHlo.TRef.unary main_call4.c main_call4.v0 (broadcastInDim S320000 ![] bcast_S_S320000),
    StableHlo.TRef.binary (.of main_v30 : StableHlo.TRef sig ⟨S320000, .i32⟩) main_call4.v0 main_call4.v1 (cmpi .slt),
    StableHlo.TRef.nullary main_call4.c_0 (constantI S_ 32 10000#32),
    StableHlo.TRef.unary main_call4.c_0 main_call4.v2 (broadcastInDim S320000 ![] bcast_S_S320000),
    StableHlo.TRef.binary (.of main_v30 : StableHlo.TRef sig ⟨S320000, .i32⟩) main_call4.v2 main_call4.v3 addi,
    StableHlo.TRef.ternary main_call4.v1 main_call4.v3 (.of main_v30 : StableHlo.TRef sig ⟨S320000, .i32⟩) main_call4.call0.v0 select,
    StableHlo.TRef.unary main_call4.call0.v0 main_call4.v5 (broadcastInDim S320000x1 ![0] bcast_S320000_S320000x1_0),
    StableHlo.TRef.nullary main_call4.c_1 (constantI S1 32 9999#32),
    StableHlo.TRef.nullary main_call4.c_2 (constantI S_ 32 0#32),
    StableHlo.TRef.unary main_call4.c_2 main_call4.v6 (broadcastInDim S320000x1 ![] bcast_S_S320000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S320000x1 ![0, 1] bcast_S1x1_S320000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S320000x1_S320000_d1 h_S_),
    StableHlo.TRef.binary (.of main_v26 : StableHlo.TRef sig ⟨S10000x20, .f32⟩) main_call4.v5 main_call4.v13 (fun x i => Host.gather gather_S10000x20_S320000x1_S320000x20_1_0_n_n_0_1_120 x i),
    StableHlo.TRef.unary main_call4.v12 main_call4.v14 (broadcastInDim S320000x20 ![0] bcast_S320000_S320000x20_0),
    StableHlo.TRef.nullary main_call4.cst (constant S_ .f32 0x7FC00000#32),
    StableHlo.TRef.unary main_call4.cst main_call4.v15 (broadcastInDim S320000x20 ![] bcast_S_S320000x20),
    StableHlo.TRef.ternary main_call4.v14 main_call4.v13 main_call4.v15 main_call4.v16 select,
    StableHlo.unary main_arg2 main_v32 (broadcastInDim S320000x1 ![0] bcast_S320000_S320000x1_0 : (⟨S320000, .f32⟩ : BufTy).Contents (Elt F) → (⟨S320000x1, .f32⟩ : BufTy).Contents (Elt F)),
    StableHlo.unary main_v32 main_v33 (broadcastInDim S320000x20 ![0, 1] bcast_S320000x1_S320000x20_0_1 : (⟨S320000x1, .f32⟩ : BufTy).Contents (Elt F) → (⟨S320000x20, .f32⟩ : BufTy).Contents (Elt F)),
    StableHlo.binary main_v31 main_v33 main_v34 (mulf : (⟨S320000x20, .f32⟩ : BufTy).Contents (Elt F) → (⟨S320000x20, .f32⟩ : BufTy).Contents (Elt F) → (⟨S320000x20, .f32⟩ : BufTy).Contents (Elt F)),
    StableHlo.nullary main_cst_3 (constant S_ .f32 0x00000000#32),
    StableHlo.unary main_cst_3 main_v35 (broadcastInDim S10000x20 ![] bcast_S_S10000x20 : (⟨S_, .f32⟩ : BufTy).Contents (Elt F) → (⟨S10000x20, .f32⟩ : BufTy).Contents (Elt F)),
    StableHlo.unary main_v28 main_v36 (broadcastInDim S320000x1 ![0] bcast_S320000_S320000x1_0 : (⟨S320000, .i32⟩ : BufTy).Contents (Elt F) → (⟨S320000x1, .i32⟩ : BufTy).Contents (Elt F)),
    StableHlo.ternary main_v35 main_v36 main_v34 main_v37 ((fun x i u => Host.scatterAdd scatter_S10000x20_S320000x1_S320000x20_1_0_0_1 x i u) : (⟨S10000x20, .f32⟩ : BufTy).Contents (Elt F) → (⟨S320000x1, .i32⟩ : BufTy).Contents (Elt F) → (⟨S320000x20, .f32⟩ : BufTy).Contents (Elt F) → (⟨S10000x20, .f32⟩ : BufTy).Contents (Elt F)) ]

/-- The decoder: the transpose, the product of the encoding with it, the negation, the exponential, one plus it, and one divided by that. -/
def opsG : List (HloOp τ sig (Elt F)) :=
  [
    StableHlo.unary main_v37 main_v38 ((transpose S20x10000 [1, 0] · transposes_S10000x20_S20x10000_1_0) : (⟨S10000x20, .f32⟩ : BufTy).Contents (Elt F) → (⟨S20x10000, .f32⟩ : BufTy).Contents (Elt F)),
    StableHlo.binary main_v37 main_v38 main_v39 ((fun l r => Host.dotGeneral dot_S10000x20_S20x10000_S10000x10000_1_0_0_1_n_n none l r) : (⟨S10000x20, .f32⟩ : BufTy).Contents (Elt F) → (⟨S20x10000, .f32⟩ : BufTy).Contents (Elt F) → (⟨S10000x10000, .f32⟩ : BufTy).Contents (Elt F)),
    StableHlo.unary main_v39 main_v40 (Host.negf : (⟨S10000x10000, .f32⟩ : BufTy).Contents (Elt F) → (⟨S10000x10000, .f32⟩ : BufTy).Contents (Elt F)),
    StableHlo.unary main_v40 main_v41 (Host.exp : (⟨S10000x10000, .f32⟩ : BufTy).Contents (Elt F) → (⟨S10000x10000, .f32⟩ : BufTy).Contents (Elt F)),
    StableHlo.nullary main_cst_4 (constant S_ .f32 0x3F800000#32),
    StableHlo.unary main_cst_4 main_v42 (broadcastInDim S10000x10000 ![] bcast_S_S10000x10000 : (⟨S_, .f32⟩ : BufTy).Contents (Elt F) → (⟨S10000x10000, .f32⟩ : BufTy).Contents (Elt F)),
    StableHlo.binary main_v42 main_v41 main_v43 (addf : (⟨S10000x10000, .f32⟩ : BufTy).Contents (Elt F) → (⟨S10000x10000, .f32⟩ : BufTy).Contents (Elt F) → (⟨S10000x10000, .f32⟩ : BufTy).Contents (Elt F)),
    StableHlo.nullary main_cst_5 (constant S_ .f32 0x3F800000#32),
    StableHlo.unary main_cst_5 main_v44 (broadcastInDim S10000x10000 ![] bcast_S_S10000x10000 : (⟨S_, .f32⟩ : BufTy).Contents (Elt F) → (⟨S10000x10000, .f32⟩ : BufTy).Contents (Elt F)),
    StableHlo.binary main_v44 main_v43 main_v45 (Host.divf : (⟨S10000x10000, .f32⟩ : BufTy).Contents (Elt F) → (⟨S10000x10000, .f32⟩ : BufTy).Contents (Elt F) → (⟨S10000x10000, .f32⟩ : BufTy).Contents (Elt F)) ]

/-- The program's list is the seven stretches in order. -/
theorem ops_split : (ops : List (HloOp τ sig (Elt F))) = opsA ++ opsB ++ opsC ++ opsD ++ opsE ++ opsF ++ opsG := rfl

end Stretches

/-! ## The results as functions of the arguments -/

/-- The decoder: every inner product of two rows of the encoding (the encoding times its transpose), then the
    logistic function written as the reference writes it, one over one plus the exponential of the negation. -/
def decoder (z : Vec Ideal S10000x20 .f32) : Vec Ideal S10000x10000 .f32 :=
  Host.divf (F := Ideal) (φ := .f32) (broadcastInDim S10000x10000 ![] bcast_S_S10000x10000 (constant (F := Ideal) S_ .f32 0x3F800000#32))
    (addf (broadcastInDim S10000x10000 ![] bcast_S_S10000x10000 (constant (F := Ideal) S_ .f32 0x3F800000#32))
      (Host.exp (Host.negf (Host.dotGeneral (F := Ideal) (φ₁ := .f32) (φ₂ := .f32) dot_S10000x20_S20x10000_S10000x10000_1_0_0_1_n_n none z
        (transpose S20x10000 [1, 0] z transposes_S10000x20_S20x10000_1_0)))))

/-- The first result: the encoding of the six arguments. -/
def res37 (x : Vec Ideal S10000x128 .f32) (ei : IVec S2x320000 32) (ev : Vec Ideal S320000 .f32)
    (W1 : Vec Ideal S128x128 .f32) (W2 : Vec Ideal S128x256 .f32) (W3 : Vec Ideal S256x20 .f32) : Vec Ideal S10000x20 .f32 :=
  Cert.Spec.enc x ei ev W1 W2 W3

/-- The second result: the decoder of the encoding. -/
def res45 (x : Vec Ideal S10000x128 .f32) (ei : IVec S2x320000 32) (ev : Vec Ideal S320000 .f32)
    (W1 : Vec Ideal S128x128 .f32) (W2 : Vec Ideal S128x256 .f32) (W3 : Vec Ideal S256x20 .f32) : Vec Ideal S10000x10000 .f32 :=
  decoder (res37 x ei ev W1 W2 W3)

theorem res37_eq (x : Vec Ideal S10000x128 .f32) (ei : IVec S2x320000 32) (ev : Vec Ideal S320000 .f32)
    (W1 : Vec Ideal S128x128 .f32) (W2 : Vec Ideal S128x256 .f32) (W3 : Vec Ideal S256x20 .f32) :
    res37 x ei ev W1 W2 W3
      = Cert.Spec.spmm20 (Cert.Spec.lin2 (Cert.Spec.spmm256 (Cert.Spec.lin1 (Cert.Spec.spmm128 (Cert.Spec.lin0 x W1) ei ev) W2) ei ev) W3) ei ev := rfl

theorem res45_eq (x : Vec Ideal S10000x128 .f32) (ei : IVec S2x320000 32) (ev : Vec Ideal S320000 .f32)
    (W1 : Vec Ideal S128x128 .f32) (W2 : Vec Ideal S128x256 .f32) (W3 : Vec Ideal S256x20 .f32) :
    res45 x ei ev W1 W2 W3 = decoder (res37 x ei ev W1 W2 W3) := rfl

/-! ## Each stretch's last buffer

Each operation's result at its own buffer is its function of its operands' contents, and at any other buffer what was
there; rewriting so from the stretch's last buffer down to the buffers the stretch does not write leaves the printed
composition, which is the named function up to transports along equations that hold by computation. -/

set_option maxRecDepth 8192 in
set_option maxHeartbeats 1600000 in
/-- The first nine operations leave the first dense stage of the launch-time arguments. -/
theorem outA (W : Valuation τ sig (Elt Ideal)) :
    after (opsA (F := Ideal)) W (main_v1 : DevRef τ sig) = Cert.Spec.lin0 (W (main_arg0 : DevRef τ sig)) (W (main_arg3 : DevRef τ sig)) := by
  unfold opsA
  after_results_simp
  simp only [TRef.toBuf, TRef.ofBuf, cast_eq]
  rfl

set_option maxRecDepth 8192 in
set_option maxHeartbeats 1600000 in
/-- The next thirty-four leave the sparse product of whatever the rectifier's buffer holds. -/
theorem outB (W : Valuation τ sig (Elt Ideal)) :
    after (opsB (F := Ideal)) W (main_v12 : DevRef τ sig) = Cert.Spec.spmm128 (W (main_v1 : DevRef τ sig)) (W (main_arg1 : DevRef τ sig)) (W (main_arg2 : DevRef τ sig)) := by
  unfold opsB
  after_results_simp
  simp only [TRef.toBuf, TRef.ofBuf, cast_eq]
  rfl

set_option maxRecDepth 8192 in
set_option maxHeartbeats 1600000 in
/-- The second dense stage of what the first sparse product left. -/
theorem outC (W : Valuation τ sig (Elt Ideal)) :
    after (opsC (F := Ideal)) W (main_v14 : DevRef τ sig) = Cert.Spec.lin1 (W (main_v12 : DevRef τ sig)) (W (main_arg4 : DevRef τ sig)) := by
  unfold opsC
  after_results_simp
  simp only [TRef.toBuf, TRef.ofBuf, cast_eq]
  rfl

set_option maxRecDepth 8192 in
set_option maxHeartbeats 1600000 in
/-- The second sparse product. -/
theorem outD (W : Valuation τ sig (Elt Ideal)) :
    after (opsD (F := Ideal)) W (main_v25 : DevRef τ sig) = Cert.Spec.spmm256 (W (main_v14 : DevRef τ sig)) (W (main_arg1 : DevRef τ sig)) (W (main_arg2 : DevRef τ sig)) := by
  unfold opsD
  after_results_simp
  simp only [TRef.toBuf, TRef.ofBuf, cast_eq]
  rfl

set_option maxRecDepth 8192 in
set_option maxHeartbeats 1600000 in
/-- The third dense stage. -/
theorem outE (W : Valuation τ sig (Elt Ideal)) :
    after (opsE (F := Ideal)) W (main_v26 : DevRef τ sig) = Cert.Spec.lin2 (W (main_v25 : DevRef τ sig)) (W (main_arg5 : DevRef τ sig)) := by
  unfold opsE
  after_results_simp
  rfl

set_option maxRecDepth 8192 in
set_option maxHeartbeats 1600000 in
/-- The third sparse product. -/
theorem outF (W : Valuation τ sig (Elt Ideal)) :
    after (opsF (F := Ideal)) W (main_v37 : DevRef τ sig) = Cert.Spec.spmm20 (W (main_v26 : DevRef τ sig)) (W (main_arg1 : DevRef τ sig)) (W (main_arg2 : DevRef τ sig)) := by
  unfold opsF
  after_results_simp
  simp only [TRef.toBuf, TRef.ofBuf, cast_eq]
  rfl

set_option maxRecDepth 8192 in
set_option maxHeartbeats 1600000 in
/-- The decoder of what the encoding's buffer holds. -/
theorem outG (W : Valuation τ sig (Elt Ideal)) :
    after (opsG (F := Ideal)) W (main_v45 : DevRef τ sig) = decoder (W (main_v37 : DevRef τ sig)) := by
  unfold opsG
  after_results_simp
  rfl

/-! A stretch leaves the buffers it does not write as they were. -/

theorem keepA_1 (W : Valuation τ sig (Elt Ideal)) : after (opsA (F := Ideal)) W (main_arg1 : DevRef τ sig) = W (main_arg1 : DevRef τ sig) := by
  unfold opsA; after_results_simp
theorem keepA_2 (W : Valuation τ sig (Elt Ideal)) : after (opsA (F := Ideal)) W (main_arg2 : DevRef τ sig) = W (main_arg2 : DevRef τ sig) := by
  unfold opsA; after_results_simp
theorem keepA_4 (W : Valuation τ sig (Elt Ideal)) : after (opsA (F := Ideal)) W (main_arg4 : DevRef τ sig) = W (main_arg4 : DevRef τ sig) := by
  unfold opsA; after_results_simp
theorem keepA_5 (W : Valuation τ sig (Elt Ideal)) : after (opsA (F := Ideal)) W (main_arg5 : DevRef τ sig) = W (main_arg5 : DevRef τ sig) := by
  unfold opsA; after_results_simp
theorem keepB_1 (W : Valuation τ sig (Elt Ideal)) : after (opsB (F := Ideal)) W (main_arg1 : DevRef τ sig) = W (main_arg1 : DevRef τ sig) := by
  unfold opsB; after_results_simp
theorem keepB_2 (W : Valuation τ sig (Elt Ideal)) : after (opsB (F := Ideal)) W (main_arg2 : DevRef τ sig) = W (main_arg2 : DevRef τ sig) := by
  unfold opsB; after_results_simp
theorem keepB_4 (W : Valuation τ sig (Elt Ideal)) : after (opsB (F := Ideal)) W (main_arg4 : DevRef τ sig) = W (main_arg4 : DevRef τ sig) := by
  unfold opsB; after_results_simp
theorem keepB_5 (W : Valuation τ sig (Elt Ideal)) : after (opsB (F := Ideal)) W (main_arg5 : DevRef τ sig) = W (main_arg5 : DevRef τ sig) := by
  unfold opsB; after_results_simp
theorem keepC_1 (W : Valuation τ sig (Elt Ideal)) : after (opsC (F := Ideal)) W (main_arg1 : DevRef τ sig) = W (main_arg1 : DevRef τ sig) := by
  unfold opsC; after_results_simp
theorem keepC_2 (W : Valuation τ sig (Elt Ideal)) : after (opsC (F := Ideal)) W (main_arg2 : DevRef τ sig) = W (main_arg2 : DevRef τ sig) := by
  unfold opsC; after_results_simp
theorem keepC_4 (W : Valuation τ sig (Elt Ideal)) : after (opsC (F := Ideal)) W (main_arg4 : DevRef τ sig) = W (main_arg4 : DevRef τ sig) := by
  unfold opsC; after_results_simp
theorem keepC_5 (W : Valuation τ sig (Elt Ideal)) : after (opsC (F := Ideal)) W (main_arg5 : DevRef τ sig) = W (main_arg5 : DevRef τ sig) := by
  unfold opsC; after_results_simp
theorem keepD_1 (W : Valuation τ sig (Elt Ideal)) : after (opsD (F := Ideal)) W (main_arg1 : DevRef τ sig) = W (main_arg1 : DevRef τ sig) := by
  unfold opsD; after_results_simp
theorem keepD_2 (W : Valuation τ sig (Elt Ideal)) : after (opsD (F := Ideal)) W (main_arg2 : DevRef τ sig) = W (main_arg2 : DevRef τ sig) := by
  unfold opsD; after_results_simp
theorem keepD_4 (W : Valuation τ sig (Elt Ideal)) : after (opsD (F := Ideal)) W (main_arg4 : DevRef τ sig) = W (main_arg4 : DevRef τ sig) := by
  unfold opsD; after_results_simp
theorem keepD_5 (W : Valuation τ sig (Elt Ideal)) : after (opsD (F := Ideal)) W (main_arg5 : DevRef τ sig) = W (main_arg5 : DevRef τ sig) := by
  unfold opsD; after_results_simp
theorem keepE_1 (W : Valuation τ sig (Elt Ideal)) : after (opsE (F := Ideal)) W (main_arg1 : DevRef τ sig) = W (main_arg1 : DevRef τ sig) := by
  unfold opsE; after_results_simp
theorem keepE_2 (W : Valuation τ sig (Elt Ideal)) : after (opsE (F := Ideal)) W (main_arg2 : DevRef τ sig) = W (main_arg2 : DevRef τ sig) := by
  unfold opsE; after_results_simp
theorem keepE_4 (W : Valuation τ sig (Elt Ideal)) : after (opsE (F := Ideal)) W (main_arg4 : DevRef τ sig) = W (main_arg4 : DevRef τ sig) := by
  unfold opsE; after_results_simp
theorem keepE_5 (W : Valuation τ sig (Elt Ideal)) : after (opsE (F := Ideal)) W (main_arg5 : DevRef τ sig) = W (main_arg5 : DevRef τ sig) := by
  unfold opsE; after_results_simp
theorem keepG_v37 (W : Valuation τ sig (Elt Ideal)) : after (opsG (F := Ideal)) W (main_v37 : DevRef τ sig) = W (main_v37 : DevRef τ sig) := by
  unfold opsG; after_results_simp

end Cert.ReferenceIdeal.RefValue

end
-- ==== Proof.RefRun.lean ====
/-
  What the reference leaves in its two result buffers, as functions of its six argument arrays.

  The program's list is its seven stretches in order, and each stretch's last buffer is a named function of the
  arguments and of the last buffer of the stretch before it. Reading the stretches in order composes the seven
  functions: the first result is the encoder `Cert.Spec.enc` of the six arguments and the second is the decoder of
  the first. No operation writes an argument, so the arguments end as they began.
-/
import proofs.«103742_g75840532512942_cont_9to1_m_1342_3_alg».proof.Proof.RefStretches
import proofs.«103742_g75840532512942_cont_9to1_m_1342_3_alg».proof.Proof.Gen.Pre_finite_inputs
import proofs.«103742_g75840532512942_cont_9to1_m_1342_3_alg».proof.Defs

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The whole run -/

/-! The stretches' facts restated with the buffer read left out of the lemma's index, so that one rewriting pass
finds them at a buffer written as a literal. -/

theorem outA' (W : Valuation τ sig (Elt Ideal)) :
    after (opsA (F := Ideal)) W (no_index (main_v1 : DevRef τ sig)) = Cert.Spec.lin0 (W (main_arg0 : DevRef τ sig)) (W (main_arg3 : DevRef τ sig)) := outA W
theorem outB' (W : Valuation τ sig (Elt Ideal)) :
    after (opsB (F := Ideal)) W (no_index (main_v12 : DevRef τ sig)) = Cert.Spec.spmm128 (W (main_v1 : DevRef τ sig)) (W (main_arg1 : DevRef τ sig)) (W (main_arg2 : DevRef τ sig)) := outB W
theorem outC' (W : Valuation τ sig (Elt Ideal)) :
    after (opsC (F := Ideal)) W (no_index (main_v14 : DevRef τ sig)) = Cert.Spec.lin1 (W (main_v12 : DevRef τ sig)) (W (main_arg4 : DevRef τ sig)) := outC W
theorem outD' (W : Valuation τ sig (Elt Ideal)) :
    after (opsD (F := Ideal)) W (no_index (main_v25 : DevRef τ sig)) = Cert.Spec.spmm256 (W (main_v14 : DevRef τ sig)) (W (main_arg1 : DevRef τ sig)) (W (main_arg2 : DevRef τ sig)) := outD W
theorem outE' (W : Valuation τ sig (Elt Ideal)) :
    after (opsE (F := Ideal)) W (no_index (main_v26 : DevRef τ sig)) = Cert.Spec.lin2 (W (main_v25 : DevRef τ sig)) (W (main_arg5 : DevRef τ sig)) := outE W
theorem outF' (W : Valuation τ sig (Elt Ideal)) :
    after (opsF (F := Ideal)) W (no_index (main_v37 : DevRef τ sig)) = Cert.Spec.spmm20 (W (main_v26 : DevRef τ sig)) (W (main_arg1 : DevRef τ sig)) (W (main_arg2 : DevRef τ sig)) := outF W
theorem outG' (W : Valuation τ sig (Elt Ideal)) :
    after (opsG (F := Ideal)) W (no_index (main_v45 : DevRef τ sig)) = decoder (W (main_v37 : DevRef τ sig)) := outG W
theorem keepA_1' (W : Valuation τ sig (Elt Ideal)) : after (opsA (F := Ideal)) W (no_index (main_arg1 : DevRef τ sig)) = W (main_arg1 : DevRef τ sig) := keepA_1 W
theorem keepA_2' (W : Valuation τ sig (Elt Ideal)) : after (opsA (F := Ideal)) W (no_index (main_arg2 : DevRef τ sig)) = W (main_arg2 : DevRef τ sig) := keepA_2 W
theorem keepA_4' (W : Valuation τ sig (Elt Ideal)) : after (opsA (F := Ideal)) W (no_index (main_arg4 : DevRef τ sig)) = W (main_arg4 : DevRef τ sig) := keepA_4 W
theorem keepA_5' (W : Valuation τ sig (Elt Ideal)) : after (opsA (F := Ideal)) W (no_index (main_arg5 : DevRef τ sig)) = W (main_arg5 : DevRef τ sig) := keepA_5 W
theorem keepB_1' (W : Valuation τ sig (Elt Ideal)) : after (opsB (F := Ideal)) W (no_index (main_arg1 : DevRef τ sig)) = W (main_arg1 : DevRef τ sig) := keepB_1 W
theorem keepB_2' (W : Valuation τ sig (Elt Ideal)) : after (opsB (F := Ideal)) W (no_index (main_arg2 : DevRef τ sig)) = W (main_arg2 : DevRef τ sig) := keepB_2 W
theorem keepB_4' (W : Valuation τ sig (Elt Ideal)) : after (opsB (F := Ideal)) W (no_index (main_arg4 : DevRef τ sig)) = W (main_arg4 : DevRef τ sig) := keepB_4 W
theorem keepB_5' (W : Valuation τ sig (Elt Ideal)) : after (opsB (F := Ideal)) W (no_index (main_arg5 : DevRef τ sig)) = W (main_arg5 : DevRef τ sig) := keepB_5 W
theorem keepC_1' (W : Valuation τ sig (Elt Ideal)) : after (opsC (F := Ideal)) W (no_index (main_arg1 : DevRef τ sig)) = W (main_arg1 : DevRef τ sig) := keepC_1 W
theorem keepC_2' (W : Valuation τ sig (Elt Ideal)) : after (opsC (F := Ideal)) W (no_index (main_arg2 : DevRef τ sig)) = W (main_arg2 : DevRef τ sig) := keepC_2 W
theorem keepC_4' (W : Valuation τ sig (Elt Ideal)) : after (opsC (F := Ideal)) W (no_index (main_arg4 : DevRef τ sig)) = W (main_arg4 : DevRef τ sig) := keepC_4 W
theorem keepC_5' (W : Valuation τ sig (Elt Ideal)) : after (opsC (F := Ideal)) W (no_index (main_arg5 : DevRef τ sig)) = W (main_arg5 : DevRef τ sig) := keepC_5 W
theorem keepD_1' (W : Valuation τ sig (Elt Ideal)) : after (opsD (F := Ideal)) W (no_index (main_arg1 : DevRef τ sig)) = W (main_arg1 : DevRef τ sig) := keepD_1 W
theorem keepD_2' (W : Valuation τ sig (Elt Ideal)) : after (opsD (F := Ideal)) W (no_index (main_arg2 : DevRef τ sig)) = W (main_arg2 : DevRef τ sig) := keepD_2 W
theorem keepD_4' (W : Valuation τ sig (Elt Ideal)) : after (opsD (F := Ideal)) W (no_index (main_arg4 : DevRef τ sig)) = W (main_arg4 : DevRef τ sig) := keepD_4 W
theorem keepD_5' (W : Valuation τ sig (Elt Ideal)) : after (opsD (F := Ideal)) W (no_index (main_arg5 : DevRef τ sig)) = W (main_arg5 : DevRef τ sig) := keepD_5 W
theorem keepE_1' (W : Valuation τ sig (Elt Ideal)) : after (opsE (F := Ideal)) W (no_index (main_arg1 : DevRef τ sig)) = W (main_arg1 : DevRef τ sig) := keepE_1 W
theorem keepE_2' (W : Valuation τ sig (Elt Ideal)) : after (opsE (F := Ideal)) W (no_index (main_arg2 : DevRef τ sig)) = W (main_arg2 : DevRef τ sig) := keepE_2 W
theorem keepE_4' (W : Valuation τ sig (Elt Ideal)) : after (opsE (F := Ideal)) W (no_index (main_arg4 : DevRef τ sig)) = W (main_arg4 : DevRef τ sig) := keepE_4 W
theorem keepE_5' (W : Valuation τ sig (Elt Ideal)) : after (opsE (F := Ideal)) W (no_index (main_arg5 : DevRef τ sig)) = W (main_arg5 : DevRef τ sig) := keepE_5 W
theorem keepG_v37' (W : Valuation τ sig (Elt Ideal)) : after (opsG (F := Ideal)) W (no_index (main_v37 : DevRef τ sig)) = W (main_v37 : DevRef τ sig) := keepG_v37 W

/-- The fold over the whole list, read at the encoding's buffer. -/
theorem out37_eq (V : Valuation τ sig (Elt Ideal)) :
    after (ops (F := Ideal)) V (main_v37 : DevRef τ sig) = res37 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [ops_split]
  simp only [after_app, outA', outB', outC', outD', outE', outF', keepA_1', keepA_2', keepA_4', keepA_5', keepB_1', keepB_2', keepB_4', keepB_5', keepC_1', keepC_2', keepC_4', keepC_5', keepD_1', keepD_2', keepD_4', keepD_5', keepE_1', keepE_2', keepE_4', keepE_5', keepG_v37']
  rfl

/-- The fold over the whole list, read at the reconstructed adjacency's buffer. -/
theorem out45_eq (V : Valuation τ sig (Elt Ideal)) :
    after (ops (F := Ideal)) V (main_v45 : DevRef τ sig) = res45 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [ops_split]
  simp only [after_app, outA', outB', outC', outD', outE', outF', outG', keepA_1', keepA_2', keepA_4', keepA_5', keepB_1', keepB_2', keepB_4', keepB_5', keepC_1', keepC_2', keepC_4', keepC_5', keepD_1', keepD_2', keepD_4', keepD_5', keepE_1', keepE_2', keepE_4', keepE_5', keepG_v37']
  rfl

/-! No operation writes an argument's buffer. -/

theorem arg0_eq (V : Valuation τ sig (Elt Ideal)) : after (ops (F := Ideal)) V (main_arg0 : DevRef τ sig) = V (main_arg0 : DevRef τ sig) := by
  after_results_simp
theorem arg1_eq (V : Valuation τ sig (Elt Ideal)) : after (ops (F := Ideal)) V (main_arg1 : DevRef τ sig) = V (main_arg1 : DevRef τ sig) := by
  after_results_simp
theorem arg2_eq (V : Valuation τ sig (Elt Ideal)) : after (ops (F := Ideal)) V (main_arg2 : DevRef τ sig) = V (main_arg2 : DevRef τ sig) := by
  after_results_simp
theorem arg3_eq (V : Valuation τ sig (Elt Ideal)) : after (ops (F := Ideal)) V (main_arg3 : DevRef τ sig) = V (main_arg3 : DevRef τ sig) := by
  after_results_simp
theorem arg4_eq (V : Valuation τ sig (Elt Ideal)) : after (ops (F := Ideal)) V (main_arg4 : DevRef τ sig) = V (main_arg4 : DevRef τ sig) := by
  after_results_simp
theorem arg5_eq (V : Valuation τ sig (Elt Ideal)) : after (ops (F := Ideal)) V (main_arg5 : DevRef τ sig) = V (main_arg5 : DevRef τ sig) := by
  after_results_simp

/-- On every device, from any memory with the counters at zero: every weakly fair execution of the reference
    terminates with the encoding and the reconstructed adjacency at their composed terms of the six argument arrays,
    and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = res37 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v45) = res45 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v37).trans (out37_eq _), (h c main_v45).trans (out45_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _)⟩)
    (run_after m ρ)

/-- The reference's frame: it terminates from every memory (the precondition is not needed) and leaves its six
    arguments unchanged. -/
theorem frame_ri : Cert.frame_ReferenceIdeal := fun m g _ =>
  (θ_run _ _ _).mono (fun _ h c => (h c).2.2) (run m g)

end Cert.ReferenceIdeal.RefValue

end
-- ==== Proof.lean ====
/-
  The certificate of a three-layer graph encoder and its inner-product decoder.

  The program under proof computes, for node features `x`, a weighted edge list (`edge_index`, `edge_vals`) and
  three weight matrices: three layers, each a dense stage on the matrix unit — a product of a block of 2000 rows
  with the layer's whole weight matrix, followed in the first two layers by the leaky rectifier of slope 0.2 —
  and then, on the host, the sparse aggregation over the edges (gather the source rows, scale by the edge values,
  add into the destination rows); and last the decoder, the logistic of the Gram matrix of the encoding, computed
  block by block, 1000 rows by 2048 columns, both factors blocks of the one encoding array, the last column block
  overhanging the array by 240 columns. The reference computes the same two arrays with whole-array operations.

  What is proved, and where:
  * the word-level program's frame (`BitsRun`): it runs to the end, faults nowhere and leaves its arguments as
    launched. The three dense regions are exact; of the decoder's output nothing is said there, because at the
    word level the matrix unit reads its whole right operand and, at a clipped block, that operand's staging
    buffer holds rows nothing names;
  * the idealized program's run with values (`IdealRun`, `IdealBridge`): at the extended reals a product entry is
    the plain sum over the contracted axis, so a block of rows of the product is that block of rows of the whole
    product, an entry of the decoder reads one row of each factor only, and the final arrays are the encoder
    `Cert.Spec.enc` of the arguments and the logistic Gram matrix `dec3` of it;
  * the reference's run (`RefRun`): its results are the same `Cert.Spec.enc` and the quotient 1 / (1 + exp (−g))
    of the Gram matrix `g`, which is the logistic at every extended real (`Cert.Spec.decoder_ref_eq`);
  * the leaky rectifier is selected on `y > 0` by the kernel and on `y ≥ 0` by the reference: at `y = 0` both
    branches give 0, so the two selections are one function (`IdealLinVals`).
  The precondition (finite inputs) is never opened: no step uses a law that fails at an infinity.
-/
import proofs.«103742_g75840532512942_cont_9to1_m_1342_3_alg».proof.Defs
import proofs.«103742_g75840532512942_cont_9to1_m_1342_3_alg».proof.Proof.BitsRun
import proofs.«103742_g75840532512942_cont_9to1_m_1342_3_alg».proof.Proof.IdealRun
import proofs.«103742_g75840532512942_cont_9to1_m_1342_3_alg».proof.Proof.IdealBridge
import proofs.«103742_g75840532512942_cont_9to1_m_1342_3_alg».proof.Proof.IdealDecSpec
import proofs.«103742_g75840532512942_cont_9to1_m_1342_3_alg».proof.Proof.RefRun
import proofs.«103742_g75840532512942_cont_9to1_m_1342_3_alg».proof.Proof.Gen.Pre_finite_inputs
import Idealize.ShloMosaic.Adequacy
import Idealize.ShloMosaic.Init

noncomputable section

namespace Cert.Proof

open Idealize.ShloMosaic Idealize.SL.Sem

/-- The word-level program runs and leaves its arguments as launched. -/
theorem frame_p : Cert.frame_Kernel := Cert.Kernel.Hand.frame_p

/-- The idealized program's frame is its run with the two results dropped. -/
theorem frame_pi : Cert.frame_KernelIdeal := fun m ρ _ =>
  (θ_run Cert.KernelIdeal.defs _ _).mono (fun _ h c => (h c).2.2) (Cert.KernelIdeal.Hand.run m ρ)

/-- The reference's frame is its run with the two results dropped. -/
theorem frame_ri : Cert.frame_ReferenceIdeal := Cert.ReferenceIdeal.RefValue.frame_ri

/-- The ideal pass rewrote nothing: the idealization is the program's own text read at the extended reals. -/
theorem preserves : Cert.preserves_Kernel_KernelIdeal := trivial

/-- Both programs end with the encoder of the arguments in the first result and its logistic Gram matrix in the
    second: the kernel's by the run and the bridge, the reference's by its run and the logistic identity. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono
    (fun _ h c => ⟨(h c).1.trans ?_, (h c).2.1.trans ?_, (h c).2.2⟩)
    (Cert.ReferenceIdeal.RefValue.run m' ρ')
  · rw [(hagree c).1, (hagree c).2.1, (hagree c).2.2.1, (hagree c).2.2.2.1, (hagree c).2.2.2.2.1, (hagree c).2.2.2.2.2]
    exact (Cert.KernelIdeal.Hand.bridge35 m ρ c).symm
  · rw [(hagree c).1, (hagree c).2.1, (hagree c).2.2.1, (hagree c).2.2.2.1, (hagree c).2.2.2.2.1, (hagree c).2.2.2.2.2]
    exact (Cert.Spec.decoder_ref_eq _).trans (Cert.KernelIdeal.Hand.bridge36 m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
